-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg12 : FVec F S128 .f32) (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_v63 main_v67

def fn_part2 {F : FTy → Type} [FloatOps F] (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x40 .f32) (main_arg7 : FVec F S40 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x40 .f32) (main_arg7 : FVec F S40 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 121
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S100000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S1x1600000, .i32⟩
  | .hbm, ⟨21, _⟩ => ⟨S1600000, .i32⟩
  | .hbm, ⟨22, _⟩ => ⟨S1700000, .i32⟩
  | .hbm, ⟨23, _⟩ => ⟨S_, .f32⟩
  | .hbm, ⟨24, _⟩ => ⟨S1700000, .f32⟩
  | .hbm, ⟨25, _⟩ => ⟨S_, .f32⟩
  | .hbm, ⟨26, _⟩ => ⟨S100000, .f32⟩
  | .hbm, ⟨27, _⟩ => ⟨S1700000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x128, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x128, .f32⟩
  | .hbm, ⟨66, _⟩ => ⟨S1700000x1, .f32⟩
  | .hbm, ⟨67, _⟩ => ⟨S1700000x128, .f32⟩
  | .hbm, ⟨68, _⟩ => ⟨S1700000x128, .f32⟩
  | .hbm, ⟨69, _⟩ => ⟨S_, .f32⟩
  | .hbm, ⟨70, _⟩ => ⟨S100000x128, .f32⟩
  | .hbm, ⟨71, _⟩ => ⟨S1700000x1, .i32⟩
  | .hbm, ⟨72, _⟩ => ⟨S100000x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x128, .f32⟩
  | .hbm, ⟨89, _⟩ => ⟨S1700000x1, .f32⟩
  | .hbm, ⟨90, _⟩ => ⟨S1700000x128, .f32⟩
  | .hbm, ⟨91, _⟩ => ⟨S1700000x128, .f32⟩
  | .hbm, ⟨92, _⟩ => ⟨S_, .f32⟩
  | .hbm, ⟨93, _⟩ => ⟨S100000x128, .f32⟩
  | .hbm, ⟨94, _⟩ => ⟨S1700000x1, .i32⟩
  | .hbm, ⟨95, _⟩ => ⟨S100000x128, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S1x128, .f32⟩
  | .hbm, ⟨100, _⟩ => ⟨S1x128, .f32⟩
  | .hbm, ⟨101, _⟩ => ⟨S100000x128, .f32⟩
  | .hbm, ⟨102, _⟩ => ⟨S100000x40, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x40, .f32⟩
  | .hbm, ⟨112, _⟩ => ⟨S1700000x1, .f32⟩
  | .hbm, ⟨113, _⟩ => ⟨S1700000x40, .f32⟩
  | .hbm, ⟨114, _⟩ => ⟨S1700000x40, .f32⟩
  | .hbm, ⟨115, _⟩ => ⟨S_, .f32⟩
  | .hbm, ⟨116, _⟩ => ⟨S100000x40, .f32⟩
  | .hbm, ⟨117, _⟩ => ⟨S1700000x1, .i32⟩
  | .hbm, ⟨118, _⟩ => ⟨S100000x40, .f32⟩
  | .hbm, ⟨119, _⟩ => ⟨S1x40, .f32⟩
  | .hbm, ⟨120, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x40, .f32⟩
  | .local _ .vmem, ⟨31, _⟩ => ⟨S5000x40, .f32⟩
  | .local _ .vmem, ⟨32, _⟩ => ⟨S5000x40, .f32⟩
  | .local _ .vmem, ⟨33, _⟩ => ⟨S5000x40, .f32⟩
  | .local _ .vmem, ⟨34, _⟩ => ⟨S5000x40, .f32⟩
  | .local _ .vmem, ⟨35, _⟩ => ⟨S1x40, .f32⟩
  | .local _ .vmem, ⟨36, _⟩ => ⟨S5000x40, .f32⟩
  | .local _ .vmem, ⟨37, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_9 : Ref sig .tc := ⟨.hbm, 80, rfl⟩
abbrev main_v51 : Ref sig .tc := ⟨.hbm, 81, rfl⟩
abbrev main_v52 : Ref sig .tc := ⟨.hbm, 82, rfl⟩
abbrev main_c_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_12 : Ref sig .tc := ⟨.hbm, 103, rfl⟩
abbrev main_v71 : Ref sig .tc := ⟨.hbm, 104, rfl⟩
abbrev main_v72 : Ref sig .tc := ⟨.hbm, 105, rfl⟩
abbrev main_c_13 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_14 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x40.size a ≤ S100000x40.size a
  hwx4_2 : ∀ i : grid4.Coords, EltTy.bits .f32 = 32 ∨ (Rect.block (s := S100000x40) S5000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S100000x40.size a
  hwx5_0 : ∀ i : grid5.Coords, EltTy.bits .f32 = 32 ∨ (Rect.block (s := S100000x40) S5000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x40.size a ≤ S100000x40.size a
  hwx5_2 : ∀ i : grid5.Coords, EltTy.bits .f32 = 32 ∨ (Rect.block (s := S100000x40) S5000x40.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v69) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v69) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S5000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v83) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S5000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 169
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S100000, .i32⟩
  | 17 => ⟨S1x1600000, .i32⟩
  | 18 => ⟨S1600000, .i32⟩
  | 19 => ⟨S1700000, .i32⟩
  | 20 => ⟨S1x1600000, .i32⟩
  | 21 => ⟨S1600000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S100000x128, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x1, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S_, .f32⟩
  | 83 => ⟨S128, .f32⟩
  | 84 => ⟨S128, .f32⟩
  | 85 => ⟨S128, .f32⟩
  | 86 => ⟨S1x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S100000x128, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x128, .f32⟩
  | 105 => ⟨S1700000x1, .f32⟩
  | 106 => ⟨S1700000x128, .f32⟩
  | 107 => ⟨S1700000x128, .f32⟩
  | 108 => ⟨S_, .f32⟩
  | 109 => ⟨S100000x128, .f32⟩
  | 110 => ⟨S1700000x1, .i32⟩
  | 111 => ⟨S100000x128, .f32⟩
  | 112 => ⟨S1x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S128, .f32⟩
  | 123 => ⟨S128, .f32⟩
  | 124 => ⟨S128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x40, .f32⟩
  | 7 => ⟨S_, .i32⟩
  | 8 => ⟨S1700000, .i32⟩
  | 9 => ⟨S1700000, .i1⟩
  | 10 => ⟨S_, .i32⟩
  | 11 => ⟨S1700000, .i32⟩
  | 12 => ⟨S1700000, .i32⟩
  | 13 => ⟨S1700000, .i32⟩
  | 14 => ⟨S1700000x1, .i32⟩
  | 15 => ⟨S1700000x40, .f32⟩
  | 16 => ⟨S1700000x1, .f32⟩
  | 17 => ⟨S1700000x40, .f32⟩
  | 18 => ⟨S1700000x40, .f32⟩
  | 19 => ⟨S_, .f32⟩
  | 20 => ⟨S100000x40, .f32⟩
  | 21 => ⟨S1700000x1, .i32⟩
  | 22 => ⟨S100000x40, .f32⟩
  | 23 => ⟨S1x40, .f32⟩
  | 24 => ⟨S100000x40, .f32⟩
  | 25 => ⟨S100000x40, .f32⟩
  | 26 => ⟨S_, .f32⟩
  | 27 => ⟨S100000, .f32⟩
  | 28 => ⟨S_, .f32⟩
  | 29 => ⟨S100000, .f32⟩
  | 30 => ⟨S100000, .f32⟩
  | 31 => ⟨S100000x1, .f32⟩
  | 32 => ⟨S100000x40, .f32⟩
  | 33 => ⟨S100000x40, .f32⟩
  | 34 => ⟨S100000x40, .f32⟩
  | 35 => ⟨S_, .f32⟩
  | 36 => ⟨S100000, .f32⟩
  | 37 => ⟨S100000x1, .f32⟩
  | 38 => ⟨S100000x1, .f32⟩
  | 39 => ⟨S100000x40, .f32⟩
  | 40 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call1_cst : Ref sig .tc := ⟨.hbm, 92, rfl⟩
abbrev main_call1_v0 : Ref sig .tc := ⟨.hbm, 93, rfl⟩
abbrev main_v62 : Ref sig .tc := ⟨.hbm, 94, rfl⟩
abbrev main_v63 : Ref sig .tc := ⟨.hbm, 95, rfl⟩
abbrev main_c_10 : Ref sig .tc := ⟨.hbm, 96, rfl⟩
abbrev main_v64 : Ref sig .tc := ⟨.hbm, 97, rfl⟩
abbrev main_v65 : Ref sig .tc := ⟨.hbm, 98, rfl⟩
abbrev main_c_11 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_12 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_13 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call2_cst : Ref sig .tc := ⟨.hbm, 131, rfl⟩
abbrev main_call2_v0 : Ref sig .tc := ⟨.hbm, 132, rfl⟩
abbrev main_v95 : Ref sig .tc := ⟨.hbm, 133, rfl⟩
abbrev main_v96 : Ref sig .tc := ⟨.hbm, 134, rfl⟩
abbrev main_c_14 : Ref sig .tc := ⟨.hbm, 135, rfl⟩
abbrev main_v97 : Ref sig .tc := ⟨.hbm, 136, rfl⟩
abbrev main_v98 : Ref sig .tc := ⟨.hbm, 137, rfl⟩
abbrev main_c_15 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_16 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_call3_cst : Ref sig .tc := ⟨.hbm, 154, rfl⟩
abbrev main_call3_v0 : Ref sig .tc := ⟨.hbm, 155, rfl⟩
abbrev main_call3_cst_0 : Ref sig .tc := ⟨.hbm, 156, rfl⟩
abbrev main_call3_v1 : Ref sig .tc := ⟨.hbm, 157, rfl⟩
abbrev main_call3_v2 : Ref sig .tc := ⟨.hbm, 158, rfl⟩
abbrev main_call3_v3 : Ref sig .tc := ⟨.hbm, 159, rfl⟩
abbrev main_call3_v4 : Ref sig .tc := ⟨.hbm, 160, rfl⟩
abbrev main_call3_v5 : Ref sig .tc := ⟨.hbm, 161, rfl⟩
abbrev main_call3_v6 : Ref sig .tc := ⟨.hbm, 162, rfl⟩
abbrev main_call3_cst_1 : Ref sig .tc := ⟨.hbm, 163, rfl⟩
abbrev main_call3_v7 : Ref sig .tc := ⟨.hbm, 164, rfl⟩
abbrev main_call3_v8 : Ref sig .tc := ⟨.hbm, 165, rfl⟩
abbrev main_call3_v9 : Ref sig .tc := ⟨.hbm, 166, rfl⟩
abbrev main_call3_v10 : Ref sig .tc := ⟨.hbm, 167, rfl⟩
abbrev main_v113 : Ref sig .tc := ⟨.hbm, 168, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.RunVal.lean ====
/-
  The kernel program's run with its RESULT named: every weakly fair execution of @main terminates, nothing faulting,
  with the result buffer holding what the last segment boundary's contents give it — the fold of the host stretches
  and of each region's write-backs from the launch memory — and the sixteen argument arrays as launched.
  The run is the launch of the twelve segments (six host stretches, six regions) over the thread state "every unscoped
  buffer at the boundary's contents"; the final state is read against the last boundary, at the result buffer as well as
  at the arguments.
-/
import proofs.«113381_j65231963292076_1_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments unchanged. -/
theorem run : θ_run defs (onTc (τ := τ) (main (F := F))) ⟨m, fun _ => 0, ρ⟩ (fun r => ∀ c : Dev nD,
      r.2.mem ((c.tc : Thread nD τ).loc main_v85) = W12 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v85 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c)⟩)

end Cert.KernelIdeal.RunVal

end
-- ==== Proof.RefTerms.lean ====
/-
  The three dense pieces of a graph-convolution layer, as whole-array functions of their inputs, spelt with the host
  operations of the reference program (so that a stage of the reference IS one of these functions of earlier stages,
  by unfolding):
  * `dense128` / `dense40`: rows of `x` times a weight matrix (`x @ W`);
  * `bnRelu`: per channel `c`, `max (g c * ((agg r c + b c) - mean c) * rsqrt (var c + eps) + beta c) 0`;
  * `logSoftmaxBias`: per row, with `t = agg + b`, `s = t - max_j t`, the entry `s - log (sum_j exp s)`.
  The per-channel vectors enter as `[C]` vectors repeated along the rows.
-/
import proofs.«113381_j65231963292076_1_alg».proof.ReferenceIdeal
import proofs.«113381_j65231963292076_1_alg».proof.Proof.Gen.ReferenceIdeal
import Idealize.ShloMosaic.PureOps.Ideal

noncomputable section

namespace Cert.GCN

open Idealize.ShloMosaic Cert.ReferenceIdeal Cert.ReferenceIdeal.Gen

variable {F : FTy → Type} [FloatOps F]

/-- `x @ W` for a `[100000,128]` by `[128,128]` product. -/
def dense128 (x : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none x w

/-- `x @ W` for a `[100000,128]` by `[128,40]` product. -/
def dense40 (x : (⟨S100000x128, .f32⟩ : BufTy).Contents (Elt F)) (w : (⟨S128x40, .f32⟩ : BufTy).Contents (Elt F)) :
    (⟨S100000x40, .f32⟩ : BufTy).Contents (Elt F) :=
  Host.dotGeneral dot_S100000x128_S128x40_S100000x40_1_0_0_1_n_n none x w

/-- A per-channel `[128]` vector repeated along the 100000 rows. -/
def rows128 (v : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 v)

/-- A per-channel `[40]` vector repeated along the 100000 rows. -/
def rows40 (v : (⟨S40, .f32⟩ : BufTy).Contents (Elt F)) : (⟨S100000x40, .f32⟩ : BufTy).Contents (Elt F) :=
  broadcastInDim S100000x40 ![0, 1] bcast_S1x40_S100000x40_0_1 (broadcastInDim S1x40 ![1] bcast_S40_S1x40_1 v)

/-- `rsqrt (var + eps)` per channel, `eps` the f32 nearest `1e-5`. -/
def invStd (var : (⟨S128, .f32⟩ : BufTy).Contents (Elt F)) : (⟨S128, .f32⟩ : BufTy).Contents (Elt F) :=
  Host.rsqrt (addf var (broadcastInDim S128 ![] bcast_S_S128 (constant S_ .f32 0x3727C5AC#32)))

/-- Bias, batch normalisation with running statistics, and ReLU. -/
def bnRelu (agg : (⟨S100000x128, .f32⟩ : BufTy).Contents (Elt F)) (b g be mean var : (⟨S128, .f32⟩ : BufTy).Contents (Elt F)) :
    (⟨S100000x128, .f32⟩ : BufTy).Contents (Elt F) :=
  maximumf (addf (mulf (mulf (rows128 g) (subf (addf agg (rows128 b)) (rows128 mean))) (rows128 (invStd var))) (rows128 be))
    (broadcastInDim S100000x128 ![] bcast_S_S100000x128 (constant S_ .f32 0x00000000#32))

/-- A `[100000]` column of per-row values repeated along the 40 channels. -/
def cols40 (v : (⟨S100000x1, .f32⟩ : BufTy).Contents (Elt F)) : (⟨S100000x40, .f32⟩ : BufTy).Contents (Elt F) :=
  broadcastInDim S100000x40 ![0, 1] bcast_S100000x1_S100000x40_0_1 v

/-- A `[100000]` vector as a `[100000,1]` column. -/
def col (v : (⟨S100000, .f32⟩ : BufTy).Contents (Elt F)) : (⟨S100000x1, .f32⟩ : BufTy).Contents (Elt F) :=
  broadcastInDim S100000x1 ![0] bcast_S100000_S100000x1_0 v

/-- The row maximum (from `-inf`), joined once more with `-inf`. -/
def rowMax (t : (⟨S100000x40, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf t (constant S_ .f32 0xFF800000#32) reducesTo_S100000x40_S100000_d1 h_S_)

/-- Each row shifted by its maximum. -/
def shifted (t : (⟨S100000x40, .f32⟩ : BufTy).Contents (Elt F)) : (⟨S100000x40, .f32⟩ : BufTy).Contents (Elt F) :=
  subf t (cols40 (col (rowMax t)))

/-- `log_softmax` along the channels. -/
def logSoftmax (t : (⟨S100000x40, .f32⟩ : BufTy).Contents (Elt F)) : (⟨S100000x40, .f32⟩ : BufTy).Contents (Elt F) :=
  subf (shifted t) (cols40 (Host.log (col (Host.reduceAdd (Host.exp (shifted t)) (constant S_ .f32 0x00000000#32) reducesTo_S100000x40_S100000_d1 h_S_))))

/-- Bias, then `log_softmax` along the channels. -/
def logSoftmaxBias (agg : (⟨S100000x40, .f32⟩ : BufTy).Contents (Elt F)) (b : (⟨S40, .f32⟩ : BufTy).Contents (Elt F)) :
    (⟨S100000x40, .f32⟩ : BufTy).Contents (Elt F) :=
  logSoftmax (addf agg (rows40 b))

end Cert.GCN

end
-- ==== Proof.Stages.lean ====
/-
  The whole network as ONE function of its sixteen arguments, in stages, spelt with the host operations of the reference
  program (so that the reference's result term unfolds to it):
  * the edge list with one self-loop per node appended: sources `srcIdx`, targets `dstIdx` (`[1700000]` indices);
  * `deg`: the number of edges into each node (a scatter-add of ones), `dinv = deg > 0 ? rsqrt deg : 0`, and the edge
    weight `norm e = dinv (src e) * dinv (dst e)`;
  * `aggOf128` / `aggOf40`: the neighbourhood sum `out (n, ·) = sum over edges e into n of h (src e, ·) * norm e`
    (row gather, scaling, row scatter-add), for any index and weight arrays;
  * `gcn`: three layers `aggregate (h @ W)`, the first two followed by bias + batch normalisation + ReLU, the last by
    bias + log-softmax.
-/
import proofs.«113381_j65231963292076_1_alg».proof.Proof.RefTerms

noncomputable section

namespace Cert.GCN

open Idealize.ShloMosaic Cert.ReferenceIdeal Cert.ReferenceIdeal.Gen

variable {F : FTy → Type} [FloatOps F]

/-- Row `r` (0: sources, 1: targets) of the `[2, 1600000]` edge list, followed by the nodes `0 … 99999` (the self-loops). -/
def srcIdx (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

def dstIdx (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- An index vector as a column of start indices. -/
def idxCol (v : (⟨S1700000, .i32⟩ : BufTy).Contents (Elt F)) : (⟨S1700000x1, .i32⟩ : BufTy).Contents (Elt F) :=
  broadcastInDim S1700000x1 ![0] bcast_S1700000_S1700000x1_0 v

/-- Negative indices wrapped by the number of nodes (as `x[idx]` does), as a column of start indices. -/
def wrapIdx (v : (⟨S1700000, .i32⟩ : BufTy).Contents (Elt F)) : (⟨S1700000x1, .i32⟩ : BufTy).Contents (Elt F) :=
  idxCol (F := F) (select (cmpi .slt v (broadcastInDim S1700000 ![] bcast_S_S1700000 (constantI S_ 32 0#32)))
    (addi v (broadcastInDim S1700000 ![] bcast_S_S1700000 (constantI S_ 32 100000#32))) v)

/-- The number of edges into each node, self-loop included. -/
def deg (dst : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32))
    (idxCol (F := F) dst) (broadcastInDim S1700000 ![] bcast_S_S1700000 (constant S_ .f32 0x3F800000#32))

/-- `deg > 0 ? rsqrt deg : 0`. -/
def dinv (dst : (⟨S1700000, .i32⟩ : BufTy).Contents (Elt F)) : (⟨S100000, .f32⟩ : BufTy).Contents (Elt F) :=
  select (cmpf (F := F) .ogt (deg (F := F) dst) (broadcastInDim S100000 ![] bcast_S_S100000 (constant S_ .f32 0x00000000#32)))
    (Host.rsqrt (deg (F := F) dst)) (broadcastInDim S100000 ![] bcast_S_S100000 (id (constant S_ .f32 0x00000000#32)))

/-- The weight of edge `e` from a per-node factor `d`: `d (src e) * d (dst e)`. -/
def normOf (d : (⟨S100000, .f32⟩ : BufTy).Contents (Elt F)) (src dst : (⟨S1700000, .i32⟩ : BufTy).Contents (Elt F)) :
    (⟨S1700000, .f32⟩ : BufTy).Contents (Elt F) :=
  mulf (Host.gather gather_S100000_S1700000x1_S1700000_n_0_n_n_0_1_1 d (wrapIdx (F := F) src))
    (Host.gather gather_S100000_S1700000x1_S1700000_n_0_n_n_0_1_1 d (wrapIdx (F := F) dst))

/-- The weight of edge `e`: `dinv (src e) * dinv (dst e)`. -/
def norm (src dst : (⟨S1700000, .i32⟩ : BufTy).Contents (Elt F)) : (⟨S1700000, .f32⟩ : BufTy).Contents (Elt F) :=
  normOf (F := F) (dinv (F := F) dst) src dst

/-- The neighbourhood sum of a `[100000,128]` feature array: gather the source rows, scale by the edge weights,
    scatter-add into the target rows. -/
def aggOf128 (h : (⟨S100000x128, .f32⟩ : BufTy).Contents (Elt F)) (src dst : (⟨S1700000, .i32⟩ : BufTy).Contents (Elt F))
    (w : (⟨S1700000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32))
    (idxCol (F := F) dst)
    (mulf (Host.gather gather_S100000x128_S1700000x1_S1700000x128_1_0_n_n_0_1_1128 h (wrapIdx (F := F) src))
      (broadcastInDim S1700000x128 ![0, 1] bcast_S1700000x1_S1700000x128_0_1 (broadcastInDim S1700000x1 ![0] bcast_S1700000_S1700000x1_0 w)))

/-- The same for a `[100000,40]` feature array. -/
def aggOf40 (h : (⟨S100000x40, .f32⟩ : BufTy).Contents (Elt F)) (src dst : (⟨S1700000, .i32⟩ : BufTy).Contents (Elt F))
    (w : (⟨S1700000, .f32⟩ : BufTy).Contents (Elt F)) : (⟨S100000x40, .f32⟩ : BufTy).Contents (Elt F) :=
  Host.scatterAdd scatter_S100000x40_S1700000x1_S1700000x40_1_0_0_1 (broadcastInDim S100000x40 ![] bcast_S_S100000x40 (constant S_ .f32 0x00000000#32))
    (idxCol (F := F) dst)
    (mulf (Host.gather gather_S100000x40_S1700000x1_S1700000x40_1_0_n_n_0_1_140 h (wrapIdx (F := F) src))
      (broadcastInDim S1700000x40 ![0, 1] bcast_S1700000x1_S1700000x40_0_1 (broadcastInDim S1700000x1 ![0] bcast_S1700000_S1700000x1_0 w)))

/-- The three layers, for given edge indices and weights. -/
def layers (x : (⟨S100000x128, .f32⟩ : BufTy).Contents (Elt F)) (src dst : (⟨S1700000, .i32⟩ : BufTy).Contents (Elt F))
    (w : (⟨S1700000, .f32⟩ : BufTy).Contents (Elt F))
    (W0 : (⟨S128x128, .f32⟩ : BufTy).Contents (Elt F)) (b0 : (⟨S128, .f32⟩ : BufTy).Contents (Elt F))
    (W1 : (⟨S128x128, .f32⟩ : BufTy).Contents (Elt F)) (b1 : (⟨S128, .f32⟩ : BufTy).Contents (Elt F))
    (W2 : (⟨S128x40, .f32⟩ : BufTy).Contents (Elt F)) (b2 : (⟨S40, .f32⟩ : BufTy).Contents (Elt F))
    (g0 be0 m0 v0 g1 be1 m1 v1 : (⟨S128, .f32⟩ : BufTy).Contents (Elt F)) : (⟨S100000x40, .f32⟩ : BufTy).Contents (Elt F) :=
  logSoftmaxBias (F := F)
    (aggOf40 (F := F) (dense40 (F := F)
      (bnRelu (F := F) (aggOf128 (F := F) (dense128 (F := F)
        (bnRelu (F := F) (aggOf128 (F := F) (dense128 (F := F) x W0) src dst w) b0 g0 be0 m0 v0) W1) src dst w) b1 g1 be1 m1 v1)
      W2) src dst w) b2

/-- The network: the three layers at the edge list's indices and weights. -/
def gcn (x : (⟨S100000x128, .f32⟩ : BufTy).Contents (Elt F)) (ei : (⟨S2x1600000, .i32⟩ : BufTy).Contents (Elt F))
    (W0 : (⟨S128x128, .f32⟩ : BufTy).Contents (Elt F)) (b0 : (⟨S128, .f32⟩ : BufTy).Contents (Elt F))
    (W1 : (⟨S128x128, .f32⟩ : BufTy).Contents (Elt F)) (b1 : (⟨S128, .f32⟩ : BufTy).Contents (Elt F))
    (W2 : (⟨S128x40, .f32⟩ : BufTy).Contents (Elt F)) (b2 : (⟨S40, .f32⟩ : BufTy).Contents (Elt F))
    (g0 be0 m0 v0 g1 be1 m1 v1 : (⟨S128, .f32⟩ : BufTy).Contents (Elt F)) : (⟨S100000x40, .f32⟩ : BufTy).Contents (Elt F) :=
  layers (F := F) x (srcIdx (F := F) ei) (dstIdx (F := F) ei) (norm (F := F) (srcIdx (F := F) ei) (dstIdx (F := F) ei))
    W0 b0 W1 b1 W2 b2 g0 be0 m0 v0 g1 be1 m1 v1

end Cert.GCN

end
-- ==== Proof.RegionDense.lean ====
/-
  The three dense layers of the graph convolution, region by region: each matrix-product region leaves in its output
  array the product of its input array with its weight, `X @ W`, as the host's `dot_general` spells it.

  Per region: the region's payload at an entry `(p, q)` of a row block is the sum over `k` of the block's row `p`
  against the weight's column `q` (the rounding of both operands to bf16 is the identity on the ideal values, and the
  accumulator is the zero splat); the host's `dot_general` at entry `(r, q)` of the whole array is the same sum over
  row `r`; row `p` of the block at grid point `t` is row `5000 t + p` of the array and the weight's one block is the
  weight; so what point `t` writes back is block `t` of `X @ W`, and the 20 row blocks cover the array.
-/
import proofs.«113381_j65231963292076_1_alg».proof.Proof.Gen.KernelIdeal.Frame
import proofs.«113381_j65231963292076_1_alg».proof.Proof.RefTerms
import Idealize.ShloMosaic.Lib.Pipeline.Value
import Idealize.ShloMosaic.Lib.ValueIdx
import Idealize.ShloMosaic.PureOps.Ideal.Laws

noncomputable section
namespace Cert.KernelIdeal.RegionVal
open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The buffer contents a region is entered with, core by core. -/
abbrev ValD := (c : Dev nD) → (b : Ref sig .tc) → Buf (Elt Ideal) ((c : Thread nD τ).loc b)

/-- Zero offsets on both axes, however spelt. -/
theorem zero2 : (![0, 0] : Fin 2 → Nat) = fun _ => 0 := funext fun a => by fin_cases a <;> rfl

/-! ## A row block times a weight, at an entry -/

theorem lhsK128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhsK128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhsK128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhsK128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry `(p, q)` of a row block times the weight: row `p` of the block against column `q` of the weight. -/
theorem matmulK128_apply (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhsK128_0 _ _
      | ⟨1, _⟩ => exact (lhsK128_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhsK128_0 _ _).trans hk
      | ⟨1, _⟩ => exact rhsK128_1 _ _)
  rw [el, er]

/-- Region 0's payload at an entry: the rounding to bf16 is the identity on the ideal values. -/
theorem pay0_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact matmulK128_apply _ _ p q

/-! ## The host's product of the whole array, at an entry -/

theorem lhsH128_0 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin S100000x128.rank) ∈ Cert.ReferenceIdeal.dot_S100000x128_S128x128_S100000x128_1_0_0_1_n_n.lhsBatch by decide),
    dif_pos (show (0 : Fin S100000x128.rank) ∈ Cert.ReferenceIdeal.dot_S100000x128_S128x128_S100000x128_1_0_0_1_n_n.lhsNonContracting by decide)]
  rfl

theorem lhsH128_1 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q

theorem rhsH128_0 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q

theorem rhsH128_1 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin S128x128.rank) ∈ Cert.ReferenceIdeal.dot_S100000x128_S128x128_S100000x128_1_0_0_1_n_n.rhsBatch by decide),
    dif_pos (show (1 : Fin S128x128.rank) ∈ Cert.ReferenceIdeal.dot_S100000x128_S128x128_S100000x128_1_0_0_1_n_n.rhsNonContracting by decide)]
  rfl

/-- Entry `(r, q)` of `X @ W`: row `r` of `X` against column `q` of `W`. -/
theorem dense128_apply (X : (⟨S100000x128, .f32⟩ : BufTy).Contents (Elt Ideal)) (W : (⟨S128x128, .f32⟩ : BufTy).Contents (Elt Ideal))
    (r : Fin 100000) (q : Fin 128) :
    Cert.GCN.dense128 (F := Ideal) X W (ix2 r q) = ∑ k : Fin 128, X (ix2 r k) * W (ix2 k q) := by
  unfold Cert.GCN.dense128
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n 128 rfl rfl).symm k) = ix2 r k :=
    funext fun a => Fin.ext (by
      match a with
      | ⟨0, _⟩ => exact lhsH128_0 _ _
      | ⟨1, _⟩ => exact (lhsH128_1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n 128 rfl rfl).symm k) = ix2 k q :=
    funext fun a => Fin.ext (by
      match a with
      | ⟨0, _⟩ => exact (rhsH128_0 _ _).trans hk
      | ⟨1, _⟩ => exact rhsH128_1 _ _)
  rw [el, er]

/-- Region 2's payload at an entry: the cast of the row block to its own shape and the rounding to bf16 are the identity. -/
theorem pay2_apply (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  simp only [shapeCast_self]
  exact matmulK128_apply _ _ p q

/-! ## A row block times the `[128, 40]` weight, at an entry -/

theorem lhsK40_0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide),
    dif_pos (show (0 : Fin S5000x128.rank) ∈ dot_S5000x128_S128x40_S5000x40_1_0_0_1_n_n.lhsNonContracting by decide)]
  rfl

theorem lhsK40_1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q

theorem rhsK40_0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q

theorem rhsK40_1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide),
    dif_pos (show (1 : Fin S128x40.rank) ∈ dot_S5000x128_S128x40_S5000x40_1_0_0_1_n_n.rhsNonContracting by decide)]
  rfl

/-- Entry `(p, q)` of a row block times the weight: row `p` of the block against column `q` of the weight. -/
theorem matmulK40_apply (x : FVec Ideal S5000x128 .bf16) (w : FVec Ideal S128x40 .bf16) (p : Fin 5000) (q : Fin 40) :
    matmul dot_S5000x128_S128x40_S5000x40_1_0_0_1_n_n none x w (constant S5000x40 .f32 0x00000000#32) (ix2 p q)
      = ∑ k : Fin 128, x (ix2 p k) * w (ix2 k q) := by
  refine (Ideal.matmul_constant_zero_apply dot_S5000x128_S128x40_S5000x40_1_0_0_1_n_n none x w (ix2 p q)).trans ?_
  rw [← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k :=
    funext fun a => Fin.ext (by
      match a with
      | ⟨0, _⟩ => exact lhsK40_0 _ _
      | ⟨1, _⟩ => exact (lhsK40_1 _ _).trans hk)
  have er : dot_S5000x128_S128x40_S5000x40_1_0_0_1_n_n.rhsIdx (ix2 p q) ((contrEquiv1 dot_S5000x128_S128x40_S5000x40_1_0_0_1_n_n 128 rfl rfl).symm k) = ix2 k q :=
    funext fun a => Fin.ext (by
      match a with
      | ⟨0, _⟩ => exact (rhsK40_0 _ _).trans hk
      | ⟨1, _⟩ => exact rhsK40_1 _ _)
  rw [el, er]

/-! ## The host's product of the whole array with the `[128, 40]` weight, at an entry -/

theorem lhsH40_0 (i : S100000x40.Idx) (q : Cert.ReferenceIdeal.dot_S100000x128_S128x40_S100000x40_1_0_0_1_n_n.contr.Idx) :
    (Cert.ReferenceIdeal.dot_S100000x128_S128x40_S100000x40_1_0_0_1_n_n.lhsIdx i q 0).val = (i 0).val := by
  unfold DotDims.lhsIdx
  rw [dif_neg (show ¬(0 : Fin S100000x128.rank) ∈ Cert.ReferenceIdeal.dot_S100000x128_S128x40_S100000x40_1_0_0_1_n_n.lhsBatch by decide),
    dif_pos (show (0 : Fin S100000x128.rank) ∈ Cert.ReferenceIdeal.dot_S100000x128_S128x40_S100000x40_1_0_0_1_n_n.lhsNonContracting by decide)]
  rfl

theorem lhsH40_1 (i : S100000x40.Idx) (q : Cert.ReferenceIdeal.dot_S100000x128_S128x40_S100000x40_1_0_0_1_n_n.contr.Idx) :
    (Cert.ReferenceIdeal.dot_S100000x128_S128x40_S100000x40_1_0_0_1_n_n.lhsIdx i q 1).val = (q ⟨0, by decide⟩).val :=
  Cert.ReferenceIdeal.dot_S100000x128_S128x40_S100000x40_1_0_0_1_n_n.lhsIdx_val_of_single rfl i q

theorem rhsH40_0 (i : S100000x40.Idx) (q : Cert.ReferenceIdeal.dot_S100000x128_S128x40_S100000x40_1_0_0_1_n_n.contr.Idx) :
    (Cert.ReferenceIdeal.dot_S100000x128_S128x40_S100000x40_1_0_0_1_n_n.rhsIdx i q 0).val = (q ⟨0, by decide⟩).val :=
  Cert.ReferenceIdeal.dot_S100000x128_S128x40_S100000x40_1_0_0_1_n_n.rhsIdx_val_of_single rfl i q

theorem rhsH40_1 (i : S100000x40.Idx) (q : Cert.ReferenceIdeal.dot_S100000x128_S128x40_S100000x40_1_0_0_1_n_n.contr.Idx) :
    (Cert.ReferenceIdeal.dot_S100000x128_S128x40_S100000x40_1_0_0_1_n_n.rhsIdx i q 1).val = (i 1).val := by
  unfold DotDims.rhsIdx
  rw [dif_neg (show ¬(1 : Fin S128x40.rank) ∈ Cert.ReferenceIdeal.dot_S100000x128_S128x40_S100000x40_1_0_0_1_n_n.rhsBatch by decide),
    dif_pos (show (1 : Fin S128x40.rank) ∈ Cert.ReferenceIdeal.dot_S100000x128_S128x40_S100000x40_1_0_0_1_n_n.rhsNonContracting by decide)]
  rfl

/-- Entry `(r, q)` of `X @ W`: row `r` of `X` against column `q` of `W`. -/
theorem dense40_apply (X : (⟨S100000x128, .f32⟩ : BufTy).Contents (Elt Ideal)) (W : (⟨S128x40, .f32⟩ : BufTy).Contents (Elt Ideal))
    (r : Fin 100000) (q : Fin 40) :
    Cert.GCN.dense40 (F := Ideal) X W (ix2 r q) = ∑ k : Fin 128, X (ix2 r k) * W (ix2 k q) := by
  unfold Cert.GCN.dense40
  simp only [Host.dotGeneral]
  rw [Ideal.dotGeneral_apply, ← Equiv.sum_comp (contrEquiv1 Cert.ReferenceIdeal.dot_S100000x128_S128x40_S100000x40_1_0_0_1_n_n 128 rfl rfl).symm]
  refine Finset.sum_congr rfl fun k _ => ?_
  have hk := contrEquiv1_symm_val Cert.ReferenceIdeal.dot_S100000x128_S128x40_S100000x40_1_0_0_1_n_n 128 rfl rfl k
  have el : Cert.ReferenceIdeal.dot_S100000x128_S128x40_S100000x40_1_0_0_1_n_n.lhsIdx (ix2 r q) ((contrEquiv1 Cert.ReferenceIdeal.dot_S100000x128_S128x40_S100000x40_1_0_0_1_n_n 128 rfl rfl).symm k) = ix2 r k :=
    funext fun a => Fin.ext (by
      match a with
      | ⟨0, _⟩ => exact lhsH40_0 _ _
      | ⟨1, _⟩ => exact (lhsH40_1 _ _).trans hk)
  have er : Cert.ReferenceIdeal.dot_S100000x128_S128x40_S100000x40_1_0_0_1_n_n.rhsIdx (ix2 r q) ((contrEquiv1 Cert.ReferenceIdeal.dot_S100000x128_S128x40_S100000x40_1_0_0_1_n_n 128 rfl rfl).symm k) = ix2 k q :=
    funext fun a => Fin.ext (by
      match a with
      | ⟨0, _⟩ => exact (rhsH40_0 _ _).trans hk
      | ⟨1, _⟩ => exact rhsH40_1 _ _)
  rw [el, er]

/-- Region 4's payload at an entry: the cast of the row block to its own shape and the rounding to bf16 are the identity. -/
theorem pay4_apply (x0 : Vec Ideal S5000x128 .f32) (x1 : Vec Ideal S128x40 .f32) (p : Fin 5000) (q : Fin 40) :
    k4_pay1 x0 x1 (ix2 p q) = ∑ k : Fin 128, x0 (ix2 p k) * x1 (ix2 k q) := by
  unfold k4_pay1
  simp only [shapeCast_self]
  exact matmulK40_apply _ _ p q

/-! ## Region 0: from the row blocks to the array -/

/-- The printed index maps over the grid: the row block and the output block sit at block row `t`, block column 0; the
    weight is one block. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 20 :=
  (by decide +kernel : ∀ t : Fin grid0.N, _)

/-- Every block row of the output is some point's. -/
theorem blockOnto0 : ∀ b : Fin 20, ∃ t : Fin cfg0.N, win0_2.index t (0 : Fin 2) = b.val ∧ win0_2.index t (1 : Fin 2) = 0 :=
  (by decide +kernel : ∀ b : Fin 20, ∃ t : Fin grid0.N, _)

/-- Row `p` of the row block at point `t` is row `5000 t + p` of the input array. -/
theorem rowBlock0_apply (V : ValD) (c : Dev nD) (t : Fin cfg0.N) (p : Fin 5000) (k : Fin 128) (r : Fin 100000)
    (hr : r.val = 5000 * t.val + p.val) :
    (iblk0 V c 0 t : Vec Ideal S5000x128 .f32) (ix2 p k) = (V c main_arg0 : S100000x128.Idx → Elt Ideal .f32) (ix2 r k) := by
  obtain ⟨e0, e1, -⟩ := blockIdx0 t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight's block at every point is the weight. -/
theorem weight0_apply (V : ValD) (c : Dev nD) (t : Fin cfg0.N) (k q : Fin 128) :
    (iblk0 V c 1 t : Vec Ideal S128x128 .f32) (ix2 k q) = (V c main_arg2 : S128x128.Idx → Elt Ideal .f32) (ix2 k q) := by
  obtain ⟨-, -, e2, e3, -⟩ := blockIdx0 t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point `t` writes back is block `t` of `X @ W`. -/
theorem flushed0_eq (V : ValD) (c : Dev nD) (t : Fin cfg0.N) :
    (dat0 (F := Ideal) V c).flushed 2 t
      = ((cfg0.win 2).blk t).view.read (Elt Ideal) (Cert.GCN.dense128 (F := Ideal) (V c main_arg0) (V c main_arg2)) := by
  show (cfg0.win 2).cut (grid0.coords t) ((dat0 (F := Ideal) V c).after 2 t) = _
  rw [after0_2]
  unfold out0_2
  rw [View.canon_unit_zero zero2]
  simp only [View.ld_unit_zero (S := S5000x128) zero2, View.ld_unit_zero (S := S128x128) zero2]
  obtain ⟨-, -, -, -, e4, e5, ht⟩ := blockIdx0 t
  refine funext fun (j : S5000x128.Idx) => ?_
  obtain ⟨p, q, rfl⟩ : ∃ (p : Fin 5000) (q : Fin 128), j = ix2 p q := ⟨j 0, j 1, eq_ix2 j⟩
  have hr : 5000 * t.val + p.val < 100000 := by have := p.isLt; omega
  have hemb : ((cfg0.win 2).blk t).view.emb (ix2 p q) = ix2 (⟨5000 * t.val + p.val, hr⟩ : Fin 100000) q := by
    funext a
    apply Fin.ext
    match a with
    | ⟨0, _⟩ => show win0_2.index t (0 : Fin 2) * 5000 + 1 * p.val = 5000 * t.val + p.val; rw [e4]; omega
    | ⟨1, _⟩ => show win0_2.index t (1 : Fin 2) * 128 + 1 * q.val = q.val; rw [e5]; omega
  show k0_pay1 (iblk0 V c 0 t) (iblk0 V c 1 t) (ix2 p q)
    = Cert.GCN.dense128 (F := Ideal) (V c main_arg0) (V c main_arg2) (((cfg0.win 2).blk t).view.emb (ix2 p q))
  rw [hemb]
  refine (pay0_apply _ _ p q).trans ?_
  refine Eq.trans ?_ (dense128_apply _ _ _ q).symm
  refine Finset.sum_congr rfl fun k _ => ?_
  rw [rowBlock0_apply V c t p k ⟨5000 * t.val + p.val, hr⟩ rfl, weight0_apply V c t k q]

/-- An index of the output array is in point `t`'s block iff each coordinate is in the block's range on its axis. -/
theorem mem_outBlock0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- The 20 row blocks cover the output array: row `r` is in block `r / 5000`. -/
theorem rows_covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, q0, q1⟩ := blockOnto0 ⟨(i 0).val / 5000, by omega⟩
  refine ⟨t, flush0_2 t, ?_⟩
  rw [mem_outBlock0]
  intro a
  match a with
  | ⟨0, _⟩ =>
    show win0_2.index t (0 : Fin 2) * 5000 ≤ (i 0).val ∧ (i 0).val < win0_2.index t (0 : Fin 2) * 5000 + 5000
    rw [q0]
    show (i 0).val / 5000 * 5000 ≤ (i 0).val ∧ (i 0).val < (i 0).val / 5000 * 5000 + 5000
    omega
  | ⟨1, _⟩ =>
    show win0_2.index t (1 : Fin 2) * 128 ≤ (i 1).val ∧ (i 1).val < win0_2.index t (1 : Fin 2) * 128 + 128
    rw [q1]
    omega

/-- Region 0 leaves `X @ W` in its output array. -/
theorem dense0 (V : ValD) (c : Dev nD) :
    (dat0 (F := Ideal) V c).arrAt 2 cfg0.N = Cert.GCN.dense128 (F := Ideal) (V c main_arg0) (V c main_arg2) :=
  (dat0 (F := Ideal) V c).arrAt_eq_of_cover 2 (Cert.GCN.dense128 (F := Ideal) (V c main_arg0) (V c main_arg2))
    (fun t _ => flushed0_eq V c t) rows_covered0

/-! ## Region 2: from the row blocks to the array -/

/-- The printed index maps over the grid: the row block and the output block sit at block row `t`, block column 0; the
    weight is one block. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 20 :=
  (by decide +kernel : ∀ t : Fin grid2.N, _)

/-- Every block row of the output is some point's. -/
theorem blockOnto2 : ∀ b : Fin 20, ∃ t : Fin cfg2.N, win2_2.index t (0 : Fin 2) = b.val ∧ win2_2.index t (1 : Fin 2) = 0 :=
  (by decide +kernel : ∀ b : Fin 20, ∃ t : Fin grid2.N, _)

/-- Row `p` of the row block at point `t` is row `5000 t + p` of the input array. -/
theorem rowBlock2_apply (V : ValD) (c : Dev nD) (t : Fin cfg2.N) (p : Fin 5000) (k : Fin 128) (r : Fin 100000)
    (hr : r.val = 5000 * t.val + p.val) :
    (iblk2 V c 0 t : Vec Ideal S5000x128 .f32) (ix2 p k) = (V c main_v49 : S100000x128.Idx → Elt Ideal .f32) (ix2 r k) := by
  obtain ⟨e0, e1, -⟩ := blockIdx2 t
  unfold iblk2
  rw [View.read_apply]
  show V c main_v49 _ = V c main_v49 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The weight's block at every point is the weight. -/
theorem weight2_apply (V : ValD) (c : Dev nD) (t : Fin cfg2.N) (k q : Fin 128) :
    (iblk2 V c 1 t : Vec Ideal S128x128 .f32) (ix2 k q) = (V c main_arg4 : S128x128.Idx → Elt Ideal .f32) (ix2 k q) := by
  obtain ⟨-, -, e2, e3, -⟩ := blockIdx2 t
  unfold iblk2
  rw [View.read_apply]
  show V c main_arg4 _ = V c main_arg4 _
  congr 1
  funext a
  apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- What point `t` writes back is block `t` of `X @ W`. -/
theorem flushed2_eq (V : ValD) (c : Dev nD) (t : Fin cfg2.N) :
    (dat2 (F := Ideal) V c).flushed 2 t
      = ((cfg2.win 2).blk t).view.read (Elt Ideal) (Cert.GCN.dense128 (F := Ideal) (V c main_v49) (V c main_arg4)) := by
  show (cfg2.win 2).cut (grid2.coords t) ((dat2 (F := Ideal) V c).after 2 t) = _
  rw [after2_2]
  unfold out2_2
  rw [View.canon_unit_zero zero2]
  simp only [View.ld_unit_zero (S := S5000x128) zero2, View.ld_unit_zero (S := S128x128) zero2]
  obtain ⟨-, -, -, -, e4, e5, ht⟩ := blockIdx2 t
  refine funext fun (j : S5000x128.Idx) => ?_
  obtain ⟨p, q, rfl⟩ : ∃ (p : Fin 5000) (q : Fin 128), j = ix2 p q := ⟨j 0, j 1, eq_ix2 j⟩
  have hr : 5000 * t.val + p.val < 100000 := by have := p.isLt; omega
  have hemb : ((cfg2.win 2).blk t).view.emb (ix2 p q) = ix2 (⟨5000 * t.val + p.val, hr⟩ : Fin 100000) q := by
    funext a
    apply Fin.ext
    match a with
    | ⟨0, _⟩ => show win2_2.index t (0 : Fin 2) * 5000 + 1 * p.val = 5000 * t.val + p.val; rw [e4]; omega
    | ⟨1, _⟩ => show win2_2.index t (1 : Fin 2) * 128 + 1 * q.val = q.val; rw [e5]; omega
  show k2_pay1 (iblk2 V c 0 t) (iblk2 V c 1 t) (ix2 p q)
    = Cert.GCN.dense128 (F := Ideal) (V c main_v49) (V c main_arg4) (((cfg2.win 2).blk t).view.emb (ix2 p q))
  rw [hemb]
  refine (pay2_apply _ _ p q).trans ?_
  refine Eq.trans ?_ (dense128_apply _ _ _ q).symm
  refine Finset.sum_congr rfl fun k _ => ?_
  rw [rowBlock2_apply V c t p k ⟨5000 * t.val + p.val, hr⟩ rfl, weight2_apply V c t k q]

/-- An index of the output array is in point `t`'s block iff each coordinate is in the block's range on its axis. -/
theorem mem_outBlock2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v50).slice (win2_2.rect t)).set ↔ _
  rw [View.set_slice_whole, Rect.mem_set_unit]
  exact Iff.rfl

/-- The 20 row blocks cover the output array: row `r` is in block `r / 5000`. -/
theorem rows_covered2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, q0, q1⟩ := blockOnto2 ⟨(i 0).val / 5000, by omega⟩
  refine ⟨t, flush2_2 t, ?_⟩
  rw [mem_outBlock2]
  intro a
  match a with
  | ⟨0, _⟩ =>
    show win2_2.index t (0 : Fin 2) * 5000 ≤ (i 0).val ∧ (i 0).val < win2_2.index t (0 : Fin 2) * 5000 + 5000
    rw [q0]
    show (i 0).val / 5000 * 5000 ≤ (i 0).val ∧ (i 0).val < (i 0).val / 5000 * 5000 + 5000
    omega
  | ⟨1, _⟩ =>
    show win2_2.index t (1 : Fin 2) * 128 ≤ (i 1).val ∧ (i 1).val < win2_2.index t (1 : Fin 2) * 128 + 128
    rw [q1]
    omega

/-- Region 2 leaves `X @ W` in its output array. -/
theorem dense2 (V : ValD) (c : Dev nD) :
    (dat2 (F := Ideal) V c).arrAt 2 cfg2.N = Cert.GCN.dense128 (F := Ideal) (V c main_v49) (V c main_arg4) :=
  (dat2 (F := Ideal) V c).arrAt_eq_of_cover 2 (Cert.GCN.dense128 (F := Ideal) (V c main_v49) (V c main_arg4))
    (fun t _ => flushed2_eq V c t) rows_covered2

/-! ## Region 4: from the row blocks to the array -/

/-- The printed index maps over the grid: the row block and the output block sit at block row `t`, block column 0; the
    weight is one block. -/
theorem blockIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 ∧ t.val < 20 :=
  (by decide +kernel : ∀ t : Fin grid4.N, _)

/-- Every block row of the output is some point's. -/
theorem blockOnto4 : ∀ b : Fin 20, ∃ t : Fin cfg4.N, win4_2.index t (0 : Fin 2) = b.val ∧ win4_2.index t (1 : Fin 2) = 0 :=
  (by decide +kernel : ∀ b : Fin 20, ∃ t : Fin grid4.N, _)

/-- Row `p` of the row block at point `t` is row `5000 t + p` of the input array. -/
theorem rowBlock4_apply (V : ValD) (c : Dev nD) (t : Fin cfg4.N) (p : Fin 5000) (k : Fin 128) (r : Fin 100000)
    (hr : r.val = 5000 * t.val + p.val) :
    (iblk4 V c 0 t : Vec Ideal S5000x128 .f32) (ix2 p k) = (V c main_v69 : S100000x128.Idx → Elt Ideal .f32) (ix2 r k) := by
  obtain ⟨e0, e1, -⟩ := blockIdx4 t
  unfold iblk4
  rw [View.read_apply]
  show V c main_v69 _ = V c main_v69 _
  congr 1
  funext a
  apply Fin.ext
  match a with
  | ⟨0, _⟩ => show win4_0.index t (0 : Fin 2) * 5000 + 1 * p.val = r.val; rw [e0, hr]; omega
  | ⟨1, _⟩ => show win4_0.index t (1 : Fin 2) * 128 + 1 * k.val = k.val; rw [e1]; omega

/-- The weight's block at every point is the weight. -/
theorem weight4_apply (V : ValD) (c : Dev nD) (t : Fin cfg4.N) (k : Fin 128) (q : Fin 40) :
    (iblk4 V c 1 t : Vec Ideal S128x40 .f32) (ix2 k q) = (V c main_arg6 : S128x40.Idx → Elt Ideal .f32) (ix2 k q) := by
  obtain ⟨-, -, e2, e3, -⟩ := blockIdx4 t
  unfold iblk4
  rw [View.read_apply]
  show V c main_arg6 _ = V c main_arg6 _
  congr 1
  funext a
  apply Fin.ext
  match a with
  | ⟨0, _⟩ => show win4_1.index t (0 : Fin 2) * 128 + 1 * k.val = k.val; rw [e2]; omega
  | ⟨1, _⟩ => show win4_1.index t (1 : Fin 2) * 40 + 1 * q.val = q.val; rw [e3]; omega

/-- What point `t` writes back is block `t` of `X @ W`. -/
theorem flushed4_eq (V : ValD) (c : Dev nD) (t : Fin cfg4.N) :
    (dat4 (F := Ideal) V c).flushed 2 t
      = ((cfg4.win 2).blk t).view.read (Elt Ideal) (Cert.GCN.dense40 (F := Ideal) (V c main_v69) (V c main_arg6)) := by
  show (cfg4.win 2).cut (grid4.coords t) ((dat4 (F := Ideal) V c).after 2 t) = _
  rw [after4_2]
  unfold out4_2
  rw [View.canon_unit_zero zero2]
  simp only [View.ld_unit_zero (S := S5000x128) zero2, View.ld_unit_zero (S := S128x40) zero2]
  obtain ⟨-, -, -, -, e4, e5, ht⟩ := blockIdx4 t
  refine funext fun (j : S5000x40.Idx) => ?_
  obtain ⟨p, q, rfl⟩ : ∃ (p : Fin 5000) (q : Fin 40), j = ix2 p q := ⟨j 0, j 1, eq_ix2 j⟩
  have hr : 5000 * t.val + p.val < 100000 := by have := p.isLt; omega
  have hemb : ((cfg4.win 2).blk t).view.emb (ix2 p q) = ix2 (⟨5000 * t.val + p.val, hr⟩ : Fin 100000) q := by
    funext a
    apply Fin.ext
    match a with
    | ⟨0, _⟩ => show win4_2.index t (0 : Fin 2) * 5000 + 1 * p.val = 5000 * t.val + p.val; rw [e4]; omega
    | ⟨1, _⟩ => show win4_2.index t (1 : Fin 2) * 40 + 1 * q.val = q.val; rw [e5]; omega
  show k4_pay1 (iblk4 V c 0 t) (iblk4 V c 1 t) (ix2 p q)
    = Cert.GCN.dense40 (F := Ideal) (V c main_v69) (V c main_arg6) (((cfg4.win 2).blk t).view.emb (ix2 p q))
  rw [hemb]
  refine (pay4_apply _ _ p q).trans ?_
  refine Eq.trans ?_ (dense40_apply _ _ _ q).symm
  refine Finset.sum_congr rfl fun k _ => ?_
  rw [rowBlock4_apply V c t p k ⟨5000 * t.val + p.val, hr⟩ rfl, weight4_apply V c t k q]

/-- An index of the output array is in point `t`'s block iff each coordinate is in the block's range on its axis. -/
theorem mem_outBlock4 (t : Fin cfg4.N) (i : S100000x40.Idx) :
    i ∈ ((cfg4.win 2).blk t).view.set ↔ ∀ a : Fin 2, win4_2.index t a * S5000x40.size a ≤ (i a).val
      ∧ (i a).val < win4_2.index t a * S5000x40.size a + S5000x40.size a := by
  show i ∈ ((View.whole main_v70).slice (win4_2.rect t)).set ↔ _
  rw [View.set_slice_whole, Rect.mem_set_unit]
  exact Iff.rfl

/-- The 20 row blocks cover the output array: row `r` is in block `r / 5000`. -/
theorem rows_covered4 (i : S100000x40.Idx) :
    ∃ t : Fin cfg4.N, (cfg4.win 2).flush t = true ∧ i ∈ ((cfg4.win 2).blk t).view.set := by
  have hi0 : (i 0).val < 100000 := (i 0).isLt
  have hi1 : (i 1).val < 40 := (i 1).isLt
  obtain ⟨t, q0, q1⟩ := blockOnto4 ⟨(i 0).val / 5000, by omega⟩
  refine ⟨t, flush4_2 t, ?_⟩
  rw [mem_outBlock4]
  intro a
  match a with
  | ⟨0, _⟩ =>
    show win4_2.index t (0 : Fin 2) * 5000 ≤ (i 0).val ∧ (i 0).val < win4_2.index t (0 : Fin 2) * 5000 + 5000
    rw [q0]
    show (i 0).val / 5000 * 5000 ≤ (i 0).val ∧ (i 0).val < (i 0).val / 5000 * 5000 + 5000
    omega
  | ⟨1, _⟩ =>
    show win4_2.index t (1 : Fin 2) * 40 ≤ (i 1).val ∧ (i 1).val < win4_2.index t (1 : Fin 2) * 40 + 40
    rw [q1]
    omega

/-- Region 4 leaves `X @ W` in its output array. -/
theorem dense4 (V : ValD) (c : Dev nD) :
    (dat4 (F := Ideal) V c).arrAt 2 cfg4.N = Cert.GCN.dense40 (F := Ideal) (V c main_v69) (V c main_arg6) :=
  (dat4 (F := Ideal) V c).arrAt_eq_of_cover 2 (Cert.GCN.dense40 (F := Ideal) (V c main_v69) (V c main_arg6))
    (fun t _ => flushed4_eq V c t) rows_covered4

end Cert.KernelIdeal.RegionVal
end
-- ==== Proof.RegionBnRelu.lean ====
/-
  Bias, batch normalisation with running statistics, and ReLU, as one function of whole arrays.

  The layer's aggregate is a `[100000, 128]` array cut into 20 row blocks of 5000 rows; the bias `b`, the scale `g`,
  the shift `beta`, the running mean and the running variance are per channel, each held as one `[1, 128]` row that is a
  `[128]` vector re-laid. On a row block the body computes, entry by entry,
      max (g q * ((agg (r, q) + b q) - mean q) * rsqrt (var q + eps) + beta q) 0
  (`eps` the f32 nearest `1e-5`), its per-channel rows repeated along the block's rows. The right-hand side is the same
  expression over the whole array, with `[128]` vectors repeated along the 100000 rows. Read at row `r` and channel `q`
  both are `entry` below of the aggregate's entry `(r, q)` and the five vectors' entries `q`: the reciprocal square root
  is one function on the extended reals whichever side spells it, and the two literal words are the same words.

  From blocks to the array: the block of point `t` is rows `5000 t … 5000 t + 4999` on all columns, so what point `t`
  writes back is that block of the whole-array function; row `r` lies in the block of point `r / 5000`, so the 20 blocks
  cover the array and the output array ends holding the whole-array function.
-/
import proofs.«113381_j65231963292076_1_alg».proof.Proof.Gen.KernelIdeal.Frame
import proofs.«113381_j65231963292076_1_alg».proof.Proof.RefTerms
import Idealize.ShloMosaic.Lib.Pipeline.Value
import Idealize.ShloMosaic.Lib.ValueLayout

noncomputable section
namespace Cert.KernelIdeal.RegionVal
open Cert.KernelIdeal Cert.KernelIdeal.Gen Idealize.ShloMosaic Idealize.ShloMosaic.TcCoe Idealize.SL.Sem
open Idealize.ShloMosaic.Pipeline (Dat)
open Idealize.ShloMosaic.ValueIdx

/-- The buffer contents a region is entered with, on every core. -/
abbrev ValB := (c : Dev nD) → (b : Ref sig .tc) → Buf (Elt Ideal) ((c : Thread nD τ).loc b)

namespace BnRelu

/-! ## One entry -/

/-- One entry of the normalised, rectified array, from the aggregate's entry `a` and the channel's bias `b`, scale `g`,
    shift `be`, running mean and running variance. -/
def entry (a b g be mean var : EReal) : EReal :=
  max (g * ((a + b) - mean) * Ideal.rsqrt (var + Ideal.ofBits .f32 0x3727C5AC#32) + be) (Ideal.ofBits .f32 0x00000000#32)

/-! ## The body at an index -/

/-- The body's value on a row block and five per-channel rows, at row `p` and channel `q` of the block: the casts to the
    same shape are the identity, a `[1, 128]` row repeated along the rows reads its entry `(0, q)`, and the rest is entry
    by entry. (The rows come in the order bias, scale, mean, variance, shift.) -/
theorem pay1_apply (x0 : Vec Ideal S5000x128 .f32) (xb xg xm xv xbe : Vec Ideal S1x128 .f32) (p : Fin 5000) (q : Fin 128) :
    k1_pay1 (F := Ideal) x0 xb xg xm xv xbe (ix2 p q)
      = entry (x0 (ix2 p q)) (xb (ix2 (0 : Fin 1) q)) (xg (ix2 (0 : Fin 1) q)) (xbe (ix2 (0 : Fin 1) q)) (xm (ix2 (0 : Fin 1) q)) (xv (ix2 (0 : Fin 1) q)) := by
  unfold k1_pay1
  simp only [shapeCast_self]
  show max (broadcastTo S5000x128 xg broadcasts_S1x128_S5000x128 (ix2 p q) * ((x0 (ix2 p q) + broadcastTo S5000x128 xb broadcasts_S1x128_S5000x128 (ix2 p q)) - broadcastTo S5000x128 xm broadcasts_S1x128_S5000x128 (ix2 p q)) * broadcastTo S5000x128 (rsqrt (F := Ideal) (addf xv (broadcast S1x128 (Scalar.ofBits (F := Ideal) .f32 0x3727C5AC#32)))) broadcasts_S1x128_S5000x128 (ix2 p q) + broadcastTo S5000x128 xbe broadcasts_S1x128_S5000x128 (ix2 p q)) _ = _
  rw [broadcastTo_1b_ab_apply, broadcastTo_1b_ab_apply, broadcastTo_1b_ab_apply, broadcastTo_1b_ab_apply, broadcastTo_1b_ab_apply]
  rfl

/-- The body's value on a row block and five per-channel rows, at row `p` and channel `q` of the block: the casts to the
    same shape are the identity, a `[1, 128]` row repeated along the rows reads its entry `(0, q)`, and the rest is entry
    by entry. (The rows come in the order bias, scale, mean, variance, shift.) -/
theorem pay3_apply (x0 : Vec Ideal S5000x128 .f32) (xb xg xm xv xbe : Vec Ideal S1x128 .f32) (p : Fin 5000) (q : Fin 128) :
    k3_pay1 (F := Ideal) x0 xb xg xm xv xbe (ix2 p q)
      = entry (x0 (ix2 p q)) (xb (ix2 (0 : Fin 1) q)) (xg (ix2 (0 : Fin 1) q)) (xbe (ix2 (0 : Fin 1) q)) (xm (ix2 (0 : Fin 1) q)) (xv (ix2 (0 : Fin 1) q)) := by
  unfold k3_pay1
  simp only [shapeCast_self]
  show max (broadcastTo S5000x128 xg broadcasts_S1x128_S5000x128 (ix2 p q) * ((x0 (ix2 p q) + broadcastTo S5000x128 xb broadcasts_S1x128_S5000x128 (ix2 p q)) - broadcastTo S5000x128 xm broadcasts_S1x128_S5000x128 (ix2 p q)) * broadcastTo S5000x128 (rsqrt (F := Ideal) (addf xv (broadcast S1x128 (Scalar.ofBits (F := Ideal) .f32 0x3727C5AC#32)))) broadcasts_S1x128_S5000x128 (ix2 p q) + broadcastTo S5000x128 xbe broadcasts_S1x128_S5000x128 (ix2 p q)) _ = _
  rw [broadcastTo_1b_ab_apply, broadcastTo_1b_ab_apply, broadcastTo_1b_ab_apply, broadcastTo_1b_ab_apply, broadcastTo_1b_ab_apply]
  rfl

/-! ## The whole-array function at an index -/

/-- A per-channel vector repeated along the rows reads, at row `r` and channel `q`, the vector at `q`. -/
theorem rows128_apply (v : (⟨S128, .f32⟩ : BufTy).Contents (Elt Ideal)) (r : Fin 100000) (q : Fin 128) :
    Cert.GCN.rows128 (F := Ideal) v (ix2 r q) = v (ix1 q) := by
  unfold Cert.GCN.rows128
  refine (broadcastInDim_apply _ _ _ (ix2 r q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

/-- The whole-array function at row `r` and channel `q`. -/
theorem bnRelu_apply (agg : (⟨Cert.ReferenceIdeal.S100000x128, .f32⟩ : BufTy).Contents (Elt Ideal))
    (b g be mean var : (⟨S128, .f32⟩ : BufTy).Contents (Elt Ideal)) (r : Fin 100000) (q : Fin 128) :
    Cert.GCN.bnRelu (F := Ideal) agg b g be mean var (ix2 r q)
      = entry (agg (ix2 r q)) (b (ix1 q)) (g (ix1 q)) (be (ix1 q)) (mean (ix1 q)) (var (ix1 q)) := by
  unfold Cert.GCN.bnRelu
  show max (Cert.GCN.rows128 g (ix2 r q) * ((agg (ix2 r q) + Cert.GCN.rows128 b (ix2 r q)) - Cert.GCN.rows128 mean (ix2 r q)) * Cert.GCN.rows128 (Cert.GCN.invStd var) (ix2 r q) + Cert.GCN.rows128 be (ix2 r q)) _ = _
  rw [rows128_apply, rows128_apply, rows128_apply, rows128_apply, rows128_apply]
  rfl

/-! ## Blocks -/

/-- The zero offsets of an access to a whole block. -/
theorem hz : (![0, 0] : Fin 2 → Nat) = fun _ => 0 := funext fun a => by fin_cases a <;> rfl

/-- A `[128]` vector re-laid as one `[1, 128]` row reads, at row 0 and column `q`, the vector at `q`. -/
theorem chan_read (X : Vec Ideal S1x128 .f32) (v : (⟨S128, .f32⟩ : BufTy).Contents (Elt Ideal))
    (hX : X = shapeCast S1x128 v shapeCasts_S128_S1x128) (k : S1x128.Idx) (q : Fin 128)
    (h0 : (k 0).val = 0) (h1 : (k 1).val = q.val) : X k = v (ix1 q) := by
  have hk : k = ix2 (0 : Fin 1) q := by
    funext a; apply Fin.ext
    match a with
    | ⟨0, _⟩ => exact h0
    | ⟨1, _⟩ => exact h1
  rw [hX, hk]
  exact shapeCast_a_1a_apply v _ 0 q

/-! ## Region 1 -/

/-- Region 1's index maps over its grid: the aggregate's and the output's block at point `t` is row block `t`, on all
    columns; each per-channel row is the one block `(0, 0)`. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Region 1's grid has 20 points. -/
theorem lt20_1 (t : Fin cfg1.N) : t.val < 20 := by
  have h := t.isLt
  have hN : cfg1.N = 20 := N_1
  omega

/-- Entry `(p, q)` of the output's block at point `t` sits in the array at row `5000 t + p`, column `q`. -/
theorem blk1_6_emb (t : Fin cfg1.N) (p : Fin 5000) (q : Fin 128) (r : Fin 100000) (hr : r.val = 5000 * t.val + p.val) :
    ((cfg1.win 6).blk t).view.emb (ix2 p q) = ix2 r q := by
  obtain ⟨-, -, -, -, -, -, -, -, -, -, -, -, e60, e61⟩ := idx_facts1 t
  funext a; apply Fin.ext
  match a with
  | ⟨0, _⟩ => show win1_6.index t (0 : Fin 2) * 5000 + 1 * p.val = r.val; omega
  | ⟨1, _⟩ => show win1_6.index t (1 : Fin 2) * 128 + 1 * q.val = q.val; omega

/-- The aggregate's block at point `t` reads, at `(p, q)`, the aggregate at row `5000 t + p`, column `q`. -/
theorem blk1_0_apply (V : ValB) (c : Dev nD) (t : Fin cfg1.N) (p : Fin 5000) (q : Fin 128) (r : Fin 100000)
    (hr : r.val = 5000 * t.val + p.val) : iblk1 V c 0 t (ix2 p q) = V c main_v43 (ix2 r q) := by
  obtain ⟨e00, e01, -, -, -, -, -, -, -, -, -, -, -, -⟩ := idx_facts1 t
  show V c main_v43 (((cfg1.win 0).blk t).view.emb (ix2 p q)) = _
  congr 1
  funext a; apply Fin.ext
  match a with
  | ⟨0, _⟩ => show win1_0.index t (0 : Fin 2) * 5000 + 1 * p.val = r.val; omega
  | ⟨1, _⟩ => show win1_0.index t (1 : Fin 2) * 128 + 1 * q.val = q.val; omega

/-- Per-channel row 1's one block reads, at `(0, q)`, the vector it re-lays at `q`. -/
theorem blk1_1_apply (V : ValB) (c : Dev nD) (v : (⟨S128, .f32⟩ : BufTy).Contents (Elt Ideal))
    (hv : V c main_v44 = shapeCast S1x128 v shapeCasts_S128_S1x128) (t : Fin cfg1.N) (q : Fin 128) :
    iblk1 V c 1 t (ix2 (0 : Fin 1) q) = v (ix1 q) := by
  obtain ⟨-, -, e10, e11, e20, e21, e30, e31, e40, e41, e50, e51, -, -⟩ := idx_facts1 t
  show V c main_v44 (((cfg1.win 1).blk t).view.emb (ix2 (0 : Fin 1) q)) = _
  refine chan_read _ v hv _ q ?_ ?_
  · show win1_1.index t (0 : Fin 2) * 1 + 1 * 0 = 0; omega
  · show win1_1.index t (1 : Fin 2) * 128 + 1 * q.val = q.val; omega

/-- Per-channel row 2's one block reads, at `(0, q)`, the vector it re-lays at `q`. -/
theorem blk1_2_apply (V : ValB) (c : Dev nD) (v : (⟨S128, .f32⟩ : BufTy).Contents (Elt Ideal))
    (hv : V c main_v45 = shapeCast S1x128 v shapeCasts_S128_S1x128) (t : Fin cfg1.N) (q : Fin 128) :
    iblk1 V c 2 t (ix2 (0 : Fin 1) q) = v (ix1 q) := by
  obtain ⟨-, -, e10, e11, e20, e21, e30, e31, e40, e41, e50, e51, -, -⟩ := idx_facts1 t
  show V c main_v45 (((cfg1.win 2).blk t).view.emb (ix2 (0 : Fin 1) q)) = _
  refine chan_read _ v hv _ q ?_ ?_
  · show win1_2.index t (0 : Fin 2) * 1 + 1 * 0 = 0; omega
  · show win1_2.index t (1 : Fin 2) * 128 + 1 * q.val = q.val; omega

/-- Per-channel row 3's one block reads, at `(0, q)`, the vector it re-lays at `q`. -/
theorem blk1_3_apply (V : ValB) (c : Dev nD) (v : (⟨S128, .f32⟩ : BufTy).Contents (Elt Ideal))
    (hv : V c main_v46 = shapeCast S1x128 v shapeCasts_S128_S1x128) (t : Fin cfg1.N) (q : Fin 128) :
    iblk1 V c 3 t (ix2 (0 : Fin 1) q) = v (ix1 q) := by
  obtain ⟨-, -, e10, e11, e20, e21, e30, e31, e40, e41, e50, e51, -, -⟩ := idx_facts1 t
  show V c main_v46 (((cfg1.win 3).blk t).view.emb (ix2 (0 : Fin 1) q)) = _
  refine chan_read _ v hv _ q ?_ ?_
  · show win1_3.index t (0 : Fin 2) * 1 + 1 * 0 = 0; omega
  · show win1_3.index t (1 : Fin 2) * 128 + 1 * q.val = q.val; omega

/-- Per-channel row 4's one block reads, at `(0, q)`, the vector it re-lays at `q`. -/
theorem blk1_4_apply (V : ValB) (c : Dev nD) (v : (⟨S128, .f32⟩ : BufTy).Contents (Elt Ideal))
    (hv : V c main_v47 = shapeCast S1x128 v shapeCasts_S128_S1x128) (t : Fin cfg1.N) (q : Fin 128) :
    iblk1 V c 4 t (ix2 (0 : Fin 1) q) = v (ix1 q) := by
  obtain ⟨-, -, e10, e11, e20, e21, e30, e31, e40, e41, e50, e51, -, -⟩ := idx_facts1 t
  show V c main_v47 (((cfg1.win 4).blk t).view.emb (ix2 (0 : Fin 1) q)) = _
  refine chan_read _ v hv _ q ?_ ?_
  · show win1_4.index t (0 : Fin 2) * 1 + 1 * 0 = 0; omega
  · show win1_4.index t (1 : Fin 2) * 128 + 1 * q.val = q.val; omega

/-- Per-channel row 5's one block reads, at `(0, q)`, the vector it re-lays at `q`. -/
theorem blk1_5_apply (V : ValB) (c : Dev nD) (v : (⟨S128, .f32⟩ : BufTy).Contents (Elt Ideal))
    (hv : V c main_v48 = shapeCast S1x128 v shapeCasts_S128_S1x128) (t : Fin cfg1.N) (q : Fin 128) :
    iblk1 V c 5 t (ix2 (0 : Fin 1) q) = v (ix1 q) := by
  obtain ⟨-, -, e10, e11, e20, e21, e30, e31, e40, e41, e50, e51, -, -⟩ := idx_facts1 t
  show V c main_v48 (((cfg1.win 5).blk t).view.emb (ix2 (0 : Fin 1) q)) = _
  refine chan_read _ v hv _ q ?_ ?_
  · show win1_5.index t (0 : Fin 2) * 1 + 1 * 0 = 0; omega
  · show win1_5.index t (1 : Fin 2) * 128 + 1 * q.val = q.val; omega

/-- What point `t` of region 1 writes back is rows `5000 t … 5000 t + 4999` of the whole-array function. -/
theorem flushed1_eq (V : ValB) (c : Dev nD) (b g be mean var : (⟨S128, .f32⟩ : BufTy).Contents (Elt Ideal))
    (hb : V c main_v44 = shapeCast S1x128 b shapeCasts_S128_S1x128) (hg : V c main_v45 = shapeCast S1x128 g shapeCasts_S128_S1x128)
    (hbe : V c main_v46 = shapeCast S1x128 be shapeCasts_S128_S1x128) (hmean : V c main_v47 = shapeCast S1x128 mean shapeCasts_S128_S1x128)
    (hvar : V c main_v48 = shapeCast S1x128 var shapeCasts_S128_S1x128) (t : Fin cfg1.N) :
    (dat1 (F := Ideal) V c).flushed 6 t
      = ((cfg1.win 6).blk t).view.read (Elt Ideal) (Cert.GCN.bnRelu (F := Ideal) (V c main_v43) b g be mean var) := by
  show (cfg1.win 6).cut (grid1.coords t) ((dat1 (F := Ideal) V c).after 6 t) = _
  rw [after1_6]
  unfold out1_6
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 (n0 := 5000) (n1 := 128) j⟩
  have ht := lt20_1 t
  have hp : p.val < 5000 := p.isLt
  obtain ⟨r, hr⟩ : ∃ r : Fin 100000, r.val = 5000 * t.val + p.val := ⟨⟨5000 * t.val + p.val, by omega⟩, rfl⟩
  refine (pay1_apply (iblk1 V c 0 t) (iblk1 V c 1 t) (iblk1 V c 2 t) (iblk1 V c 4 t) (iblk1 V c 5 t) (iblk1 V c 3 t) p q).trans ?_
  rw [blk1_0_apply V c t p q r hr, blk1_1_apply V c b hb t q, blk1_2_apply V c g hg t q, blk1_3_apply V c be hbe t q,
    blk1_4_apply V c mean hmean t q, blk1_5_apply V c var hvar t q]
  refine (bnRelu_apply (V c main_v43) b g be mean var r q).symm.trans ?_
  show Cert.GCN.bnRelu (F := Ideal) (V c main_v43) b g be mean var (ix2 r q)
    = Cert.GCN.bnRelu (F := Ideal) (V c main_v43) b g be mean var (((cfg1.win 6).blk t).view.emb (ix2 p q))
  rw [blk1_6_emb t p q r hr]

/-- Every row of the array is in some point's block: row `r` in that of point `r / 5000`. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  let t : Fin cfg1.N := ⟨(i 0).val / 5000, by rw [show cfg1.N = 20 from N_1]; omega⟩
  have htv : t.val = (i 0).val / 5000 := rfl
  obtain ⟨-, -, -, -, -, -, -, -, -, -, -, -, e60, e61⟩ := idx_facts1 t
  refine ⟨t, flush1_6 t, ?_⟩
  show i ∈ ((View.whole main_v49).slice (win1_6.rect t)).set
  rw [View.set_slice_whole, Rect.mem_set_unit]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-! ## Region 3 -/

/-- Region 3's index maps over its grid: the aggregate's and the output's block at point `t` is row block `t`, on all
    columns; each per-channel row is the one block `(0, 0)`. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Region 3's grid has 20 points. -/
theorem lt20_3 (t : Fin cfg3.N) : t.val < 20 := by
  have h := t.isLt
  have hN : cfg3.N = 20 := N_3
  omega

/-- Entry `(p, q)` of the output's block at point `t` sits in the array at row `5000 t + p`, column `q`. -/
theorem blk3_6_emb (t : Fin cfg3.N) (p : Fin 5000) (q : Fin 128) (r : Fin 100000) (hr : r.val = 5000 * t.val + p.val) :
    ((cfg3.win 6).blk t).view.emb (ix2 p q) = ix2 r q := by
  obtain ⟨-, -, -, -, -, -, -, -, -, -, -, -, e60, e61⟩ := idx_facts3 t
  funext a; apply Fin.ext
  match a with
  | ⟨0, _⟩ => show win3_6.index t (0 : Fin 2) * 5000 + 1 * p.val = r.val; omega
  | ⟨1, _⟩ => show win3_6.index t (1 : Fin 2) * 128 + 1 * q.val = q.val; omega

/-- The aggregate's block at point `t` reads, at `(p, q)`, the aggregate at row `5000 t + p`, column `q`. -/
theorem blk3_0_apply (V : ValB) (c : Dev nD) (t : Fin cfg3.N) (p : Fin 5000) (q : Fin 128) (r : Fin 100000)
    (hr : r.val = 5000 * t.val + p.val) : iblk3 V c 0 t (ix2 p q) = V c main_v63 (ix2 r q) := by
  obtain ⟨e00, e01, -, -, -, -, -, -, -, -, -, -, -, -⟩ := idx_facts3 t
  show V c main_v63 (((cfg3.win 0).blk t).view.emb (ix2 p q)) = _
  congr 1
  funext a; apply Fin.ext
  match a with
  | ⟨0, _⟩ => show win3_0.index t (0 : Fin 2) * 5000 + 1 * p.val = r.val; omega
  | ⟨1, _⟩ => show win3_0.index t (1 : Fin 2) * 128 + 1 * q.val = q.val; omega

/-- Per-channel row 1's one block reads, at `(0, q)`, the vector it re-lays at `q`. -/
theorem blk3_1_apply (V : ValB) (c : Dev nD) (v : (⟨S128, .f32⟩ : BufTy).Contents (Elt Ideal))
    (hv : V c main_v64 = shapeCast S1x128 v shapeCasts_S128_S1x128) (t : Fin cfg3.N) (q : Fin 128) :
    iblk3 V c 1 t (ix2 (0 : Fin 1) q) = v (ix1 q) := by
  obtain ⟨-, -, e10, e11, e20, e21, e30, e31, e40, e41, e50, e51, -, -⟩ := idx_facts3 t
  show V c main_v64 (((cfg3.win 1).blk t).view.emb (ix2 (0 : Fin 1) q)) = _
  refine chan_read _ v hv _ q ?_ ?_
  · show win3_1.index t (0 : Fin 2) * 1 + 1 * 0 = 0; omega
  · show win3_1.index t (1 : Fin 2) * 128 + 1 * q.val = q.val; omega

/-- Per-channel row 2's one block reads, at `(0, q)`, the vector it re-lays at `q`. -/
theorem blk3_2_apply (V : ValB) (c : Dev nD) (v : (⟨S128, .f32⟩ : BufTy).Contents (Elt Ideal))
    (hv : V c main_v65 = shapeCast S1x128 v shapeCasts_S128_S1x128) (t : Fin cfg3.N) (q : Fin 128) :
    iblk3 V c 2 t (ix2 (0 : Fin 1) q) = v (ix1 q) := by
  obtain ⟨-, -, e10, e11, e20, e21, e30, e31, e40, e41, e50, e51, -, -⟩ := idx_facts3 t
  show V c main_v65 (((cfg3.win 2).blk t).view.emb (ix2 (0 : Fin 1) q)) = _
  refine chan_read _ v hv _ q ?_ ?_
  · show win3_2.index t (0 : Fin 2) * 1 + 1 * 0 = 0; omega
  · show win3_2.index t (1 : Fin 2) * 128 + 1 * q.val = q.val; omega

/-- Per-channel row 3's one block reads, at `(0, q)`, the vector it re-lays at `q`. -/
theorem blk3_3_apply (V : ValB) (c : Dev nD) (v : (⟨S128, .f32⟩ : BufTy).Contents (Elt Ideal))
    (hv : V c main_v66 = shapeCast S1x128 v shapeCasts_S128_S1x128) (t : Fin cfg3.N) (q : Fin 128) :
    iblk3 V c 3 t (ix2 (0 : Fin 1) q) = v (ix1 q) := by
  obtain ⟨-, -, e10, e11, e20, e21, e30, e31, e40, e41, e50, e51, -, -⟩ := idx_facts3 t
  show V c main_v66 (((cfg3.win 3).blk t).view.emb (ix2 (0 : Fin 1) q)) = _
  refine chan_read _ v hv _ q ?_ ?_
  · show win3_3.index t (0 : Fin 2) * 1 + 1 * 0 = 0; omega
  · show win3_3.index t (1 : Fin 2) * 128 + 1 * q.val = q.val; omega

/-- Per-channel row 4's one block reads, at `(0, q)`, the vector it re-lays at `q`. -/
theorem blk3_4_apply (V : ValB) (c : Dev nD) (v : (⟨S128, .f32⟩ : BufTy).Contents (Elt Ideal))
    (hv : V c main_v67 = shapeCast S1x128 v shapeCasts_S128_S1x128) (t : Fin cfg3.N) (q : Fin 128) :
    iblk3 V c 4 t (ix2 (0 : Fin 1) q) = v (ix1 q) := by
  obtain ⟨-, -, e10, e11, e20, e21, e30, e31, e40, e41, e50, e51, -, -⟩ := idx_facts3 t
  show V c main_v67 (((cfg3.win 4).blk t).view.emb (ix2 (0 : Fin 1) q)) = _
  refine chan_read _ v hv _ q ?_ ?_
  · show win3_4.index t (0 : Fin 2) * 1 + 1 * 0 = 0; omega
  · show win3_4.index t (1 : Fin 2) * 128 + 1 * q.val = q.val; omega

/-- Per-channel row 5's one block reads, at `(0, q)`, the vector it re-lays at `q`. -/
theorem blk3_5_apply (V : ValB) (c : Dev nD) (v : (⟨S128, .f32⟩ : BufTy).Contents (Elt Ideal))
    (hv : V c main_v68 = shapeCast S1x128 v shapeCasts_S128_S1x128) (t : Fin cfg3.N) (q : Fin 128) :
    iblk3 V c 5 t (ix2 (0 : Fin 1) q) = v (ix1 q) := by
  obtain ⟨-, -, e10, e11, e20, e21, e30, e31, e40, e41, e50, e51, -, -⟩ := idx_facts3 t
  show V c main_v68 (((cfg3.win 5).blk t).view.emb (ix2 (0 : Fin 1) q)) = _
  refine chan_read _ v hv _ q ?_ ?_
  · show win3_5.index t (0 : Fin 2) * 1 + 1 * 0 = 0; omega
  · show win3_5.index t (1 : Fin 2) * 128 + 1 * q.val = q.val; omega

/-- What point `t` of region 3 writes back is rows `5000 t … 5000 t + 4999` of the whole-array function. -/
theorem flushed3_eq (V : ValB) (c : Dev nD) (b g be mean var : (⟨S128, .f32⟩ : BufTy).Contents (Elt Ideal))
    (hb : V c main_v64 = shapeCast S1x128 b shapeCasts_S128_S1x128) (hg : V c main_v65 = shapeCast S1x128 g shapeCasts_S128_S1x128)
    (hbe : V c main_v66 = shapeCast S1x128 be shapeCasts_S128_S1x128) (hmean : V c main_v67 = shapeCast S1x128 mean shapeCasts_S128_S1x128)
    (hvar : V c main_v68 = shapeCast S1x128 var shapeCasts_S128_S1x128) (t : Fin cfg3.N) :
    (dat3 (F := Ideal) V c).flushed 6 t
      = ((cfg3.win 6).blk t).view.read (Elt Ideal) (Cert.GCN.bnRelu (F := Ideal) (V c main_v63) b g be mean var) := by
  show (cfg3.win 6).cut (grid3.coords t) ((dat3 (F := Ideal) V c).after 6 t) = _
  rw [after3_6]
  unfold out3_6
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 (n0 := 5000) (n1 := 128) j⟩
  have ht := lt20_3 t
  have hp : p.val < 5000 := p.isLt
  obtain ⟨r, hr⟩ : ∃ r : Fin 100000, r.val = 5000 * t.val + p.val := ⟨⟨5000 * t.val + p.val, by omega⟩, rfl⟩
  refine (pay3_apply (iblk3 V c 0 t) (iblk3 V c 1 t) (iblk3 V c 2 t) (iblk3 V c 4 t) (iblk3 V c 5 t) (iblk3 V c 3 t) p q).trans ?_
  rw [blk3_0_apply V c t p q r hr, blk3_1_apply V c b hb t q, blk3_2_apply V c g hg t q, blk3_3_apply V c be hbe t q,
    blk3_4_apply V c mean hmean t q, blk3_5_apply V c var hvar t q]
  refine (bnRelu_apply (V c main_v63) b g be mean var r q).symm.trans ?_
  show Cert.GCN.bnRelu (F := Ideal) (V c main_v63) b g be mean var (ix2 r q)
    = Cert.GCN.bnRelu (F := Ideal) (V c main_v63) b g be mean var (((cfg3.win 6).blk t).view.emb (ix2 p q))
  rw [blk3_6_emb t p q r hr]

/-- Every row of the array is in some point's block: row `r` in that of point `r / 5000`. -/
theorem cover3 (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  let t : Fin cfg3.N := ⟨(i 0).val / 5000, by rw [show cfg3.N = 20 from N_3]; omega⟩
  have htv : t.val = (i 0).val / 5000 := rfl
  obtain ⟨-, -, -, -, -, -, -, -, -, -, -, -, e60, e61⟩ := idx_facts3 t
  refine ⟨t, flush3_6 t, ?_⟩
  show i ∈ ((View.whole main_v69).slice (win3_6.rect t)).set
  rw [View.set_slice_whole, Rect.mem_set_unit]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

end BnRelu

open BnRelu in
/-- Region 1 leaves, in its output array, the bias, batch normalisation and ReLU of the aggregate it was entered with. -/
theorem bn1 (V : ValB) (c : Dev nD) (b g be mean var : (⟨S128, .f32⟩ : BufTy).Contents (Elt Ideal))
    (hb : V c main_v44 = shapeCast S1x128 b shapeCasts_S128_S1x128) (hg : V c main_v45 = shapeCast S1x128 g shapeCasts_S128_S1x128)
    (hbe : V c main_v46 = shapeCast S1x128 be shapeCasts_S128_S1x128) (hmean : V c main_v47 = shapeCast S1x128 mean shapeCasts_S128_S1x128)
    (hvar : V c main_v48 = shapeCast S1x128 var shapeCasts_S128_S1x128) :
    (dat1 (F := Ideal) V c).arrAt 6 cfg1.N = Cert.GCN.bnRelu (F := Ideal) (V c main_v43) b g be mean var :=
  (dat1 (F := Ideal) V c).arrAt_eq_of_cover 6 (Cert.GCN.bnRelu (F := Ideal) (V c main_v43) b g be mean var)
    (fun t _ => flushed1_eq V c b g be mean var hb hg hbe hmean hvar t) cover1

open BnRelu in
/-- Region 3 leaves, in its output array, the bias, batch normalisation and ReLU of the aggregate it was entered with. -/
theorem bn3 (V : ValB) (c : Dev nD) (b g be mean var : (⟨S128, .f32⟩ : BufTy).Contents (Elt Ideal))
    (hb : V c main_v64 = shapeCast S1x128 b shapeCasts_S128_S1x128) (hg : V c main_v65 = shapeCast S1x128 g shapeCasts_S128_S1x128)
    (hbe : V c main_v66 = shapeCast S1x128 be shapeCasts_S128_S1x128) (hmean : V c main_v67 = shapeCast S1x128 mean shapeCasts_S128_S1x128)
    (hvar : V c main_v68 = shapeCast S1x128 var shapeCasts_S128_S1x128) :
    (dat3 (F := Ideal) V c).arrAt 6 cfg3.N = Cert.GCN.bnRelu (F := Ideal) (V c main_v63) b g be mean var :=
  (dat3 (F := Ideal) V c).arrAt_eq_of_cover 6 (Cert.GCN.bnRelu (F := Ideal) (V c main_v63) b g be mean var)
    (fun t _ => flushed3_eq V c b g be mean var hb hg hbe hmean hvar t) cover3

end Cert.KernelIdeal.RegionVal
end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.LibRowMax.lean ====
/-
  The maximum along the rows of a matrix, read at a row, over the extended reals.

  A kernel takes the maximum of an `[a, b]` block over its second axis by a fold of `max` from the accumulator's
  value; the host takes it by a one-operand reduction whose body is `max`, from its initial value. Both fold a
  commutative and associative operation over the `b` entries of row `p`, so read at `p` both are the fold of `max`
  over `k ↦ x (p, k)`, whatever order the definitions walk the entries in. Stated for any extents `a`, `b`.
-/
import Idealize.ShloMosaic.Lib.ValueIdx
import Idealize.ShloMosaic.PureOps.Ideal.Laws

noncomputable section

namespace Cert.LibRowMax

open Idealize.ShloMosaic Idealize.ShloMosaic.ValueIdx

/-- The source index a reduction over the second axis reads for result row `p` and coordinate `k` is `(p, k)`. -/
theorem lift_row {a b : ℕ} (h : Shape.Reduces ⟨2, ![a, b]⟩ [1] ⟨1, ![a]⟩) (p : Fin a)
    (k : Fin ((⟨2, ![a, b]⟩ : Shape).size 1)) : h.lift (ix1 p) k = ix2 p (⟨k.val, k.isLt⟩ : Fin b) :=
  funext fun ax => Fin.ext (by
    match ax with
    | ⟨0, _⟩ => rfl
    | ⟨1, _⟩ => rfl)

/-- A kernel's maximum of an `[a, b]` block over its second axis is, at row `p`, the fold of `max` from the
    accumulator's value over the `b` entries of that row. -/
theorem multiReduction_maximumf_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_row h p k)))

/-- The host's reduction with body `max` of an `[a, b]` array over its second axis is, at row `p`, the fold of `max`
    from the initial value over the `b` entries of that row. -/
theorem hostReduce_maximumf_row {a b : ℕ} {φ : FTy} {u : Shape} (x : FVec Ideal ⟨2, ![a, b]⟩ φ) (init : u.Idx → Ideal φ)
    (h' : Shape.ReducesTo ⟨2, ![a, b]⟩ [1] ⟨1, ![a]⟩) (h : Shape.Reduces ⟨2, ![a, b]⟩ [1] ⟨1, ![a]⟩) (hu : 0 < u.numel)
    (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg (fun f => (Finset.univ : Finset (Fin b)).fold max (init (Shape.Idx.first hu)) f)
      (funext fun k => congrArg x (lift_row h p k)))

end Cert.LibRowMax

end
-- ==== Proof.RegionLogSoftmax.lean ====
/-
  The bias and log-softmax region: the array its pipeline leaves is the reference's bias-then-log_softmax of the
  aggregated array and the bias vector.

  Both sides are, at entry (r, q), one function of row r: with T j = agg (r, j) + b j and M the fold of max over the
  row from the accumulator's value, the entry is (T q - M) - log (sum over j of exp (T j - M)). The kernel computes it
  on a [5000, 40] row block and the [1, 40] bias row: the row maximum and the lane sum are reductions over axis 1,
  re-laid as [5000, 1] columns and repeated along the lanes. The host computes it on the whole array, its row
  maximum joined once more with its initial value (max a (fold max a f) = fold max a f) and its sum started from
  zero (0 + sum). The 20 row blocks of 5000 rows cover the [100000, 40] array, block t being rows 5000 t to
  5000 t + 4999, all lanes; the bias is one [1, 40] block at every point.
-/
import proofs.«113381_j65231963292076_1_alg».proof.Proof.Gen.KernelIdeal.Frame
import proofs.«113381_j65231963292076_1_alg».proof.Proof.RefTerms
import proofs.«113381_j65231963292076_1_alg».proof.Proof.LibKeepdims
import proofs.«113381_j65231963292076_1_alg».proof.Proof.LibRowMax
import Idealize.ShloMosaic.Lib.Pipeline.Value

noncomputable section
namespace Cert.KernelIdeal.RegionLogSoftmax
open Cert.KernelIdeal Cert.KernelIdeal.Gen Idealize.ShloMosaic Idealize.ShloMosaic.TcCoe Idealize.SL.Sem Idealize.ShloMosaic.ValueIdx
open Idealize.ShloMosaic.Pipeline (Dat)

/-- One row of log-softmax over the extended reals. -/
def lsRow (T : Fin 40 → EReal) (q : Fin 40) : EReal :=
  (T q - (Finset.univ : Finset (Fin 40)).fold max (Ideal.ofBits .f32 0xFF800000#32) T)
    - Ideal.log (∑ k : Fin 40, Ideal.exp (T k - (Finset.univ : Finset (Fin 40)).fold max (Ideal.ofBits .f32 0xFF800000#32) T))

theorem max_fold_max_self {ι : Type} (s : Finset ι) (a : EReal) (f : ι → EReal) :
    max a (s.fold max a f) = s.fold max a f :=
  by
  classical
  induction s using Finset.induction_on with
  | empty => rw [Finset.fold_empty]; exact max_self a
  | insert x s hx ih => rw [Finset.fold_insert hx, max_left_comm, ih]

theorem shift_apply (v5 : FVec Ideal S5000x40 .f32) (p : Fin 5000) (q : Fin 40) :
    subf v5 (broadcastTo S5000x40 (shapeCast S5000x1 (multiReduction .maximumf [1] S5000 v5 0xFF800000#32 reduces_S5000x40_S5000 (.inl rfl) rfl) shapeCasts_S5000_S5000x1) broadcasts_S5000x1_S5000x40) (ix2 p q)
      = v5 (ix2 p q) - (Finset.univ : Finset (Fin 40)).fold max (Ideal.ofBits .f32 0xFF800000#32) (fun k => v5 (ix2 p k)) :=
  congrArg (fun z => v5 (ix2 p q) - z)
    ((Cert.LibKeepdims.broadcastTo_a1_ab_apply _ broadcasts_S5000x1_S5000x40 p q).trans
      ((Cert.LibKeepdims.shapeCast_a_a1_apply _ shapeCasts_S5000_S5000x1 p 0).trans
        (Cert.LibRowMax.multiReduction_maximumf_row v5 0xFF800000#32 reduces_S5000x40_S5000 (.inl rfl) rfl p)))

/-- The lane sum of exponentials, kept as a column, its logarithm repeated along the rows. -/
theorem lse_apply (v9 : FVec Ideal S5000x40 .f32) (S : Fin 40 → EReal) (p : Fin 5000) (h9 : ∀ k, v9 (ix2 p k) = S k) (q : Fin 40) :
    broadcastTo S5000x40 (log (shapeCast S5000x1 (multiReduction .add [1] S5000 (exp v9) 0x00000000#32 reduces_S5000x40_S5000 (.inl rfl) rfl) shapeCasts_S5000_S5000x1)) broadcasts_S5000x1_S5000x40 (ix2 p q)
      = Ideal.log (∑ k : Fin 40, Ideal.exp (S k)) :=
  (Cert.LibKeepdims.broadcastTo_a1_ab_apply _ broadcasts_S5000x1_S5000x40 p q).trans
    (congrArg Ideal.log
      ((Cert.LibKeepdims.shapeCast_a_a1_apply _ shapeCasts_S5000_S5000x1 p 0).trans
        ((Cert.LibKeepdims.multiReduction_add_row (exp v9) 0x00000000#32 reduces_S5000x40_S5000 (.inl rfl) rfl p).trans
          (Finset.sum_congr rfl fun k _ => congrArg Ideal.exp (h9 k)))))

/-- The body's stored value at row p, lane q: log-softmax of the row of block plus bias. -/
theorem pay_apply (x0 : FVec Ideal S5000x40 .f32) (x1 : FVec Ideal S1x40 .f32) (p : Fin 5000) (q : Fin 40) :
    k5_pay1 (F := Ideal) x0 x1 (ix2 p q) = lsRow (fun k => x0 (ix2 p k) + x1 (ix2 (0 : Fin 1) k)) q := by
  have hT : ∀ k : Fin 40, addf (shapeCast S5000x40 x0 shapeCasts_S5000x40_S5000x40)
        (broadcastTo S5000x40 (shapeCast S1x40 x1 shapeCasts_S1x40_S1x40) broadcasts_S1x40_S5000x40) (ix2 p k)
        = x0 (ix2 p k) + x1 (ix2 (0 : Fin 1) k) := fun k => by
    rw [addf_apply, shapeCast_self, shapeCast_self]
    exact congrArg (fun z => x0 (ix2 p k) + z) (broadcastTo_1b_ab_apply x1 broadcasts_S1x40_S5000x40 p k)
  unfold k5_pay1
  dsimp only
  generalize addf (shapeCast S5000x40 x0 shapeCasts_S5000x40_S5000x40)
        (broadcastTo S5000x40 (shapeCast S1x40 x1 shapeCasts_S1x40_S1x40) broadcasts_S1x40_S5000x40) = v5 at hT ⊢
  have h9 : ∀ k : Fin 40, subf v5 (broadcastTo S5000x40 (shapeCast S5000x1 (multiReduction .maximumf [1] S5000 v5 0xFF800000#32 reduces_S5000x40_S5000 (.inl rfl) rfl) shapeCasts_S5000_S5000x1) broadcasts_S5000x1_S5000x40) (ix2 p k)
      = (fun k => x0 (ix2 p k) + x1 (ix2 (0 : Fin 1) k)) k - (Finset.univ : Finset (Fin 40)).fold max (Ideal.ofBits .f32 0xFF800000#32) (fun k => x0 (ix2 p k) + x1 (ix2 (0 : Fin 1) k)) := fun k => by
    refine (shift_apply v5 p k).trans ?_
    rw [hT k, show (fun k => v5 (ix2 p k)) = fun k => x0 (ix2 p k) + x1 (ix2 (0 : Fin 1) k) from funext hT]
  exact congrArg₂ (fun a b : EReal => a - b) (h9 q) (lse_apply _ _ p h9 q)

/-! ## The reference's term at an index

Every step below is stated at a VARIABLE array and joined by transitivity, so that no step asks for the value of a
full-size reduction. -/

/-- The host's exponential and logarithm at an index (the same functions as the kernel's). -/
theorem hostExp_apply {s : Shape} {φ : FTy} (y : FVec Ideal s φ) (i : s.Idx) : Host.exp y i = Ideal.exp (y i) := rfl
theorem hostLog_apply {s : Shape} {φ : FTy} (y : FVec Ideal s φ) (i : s.Idx) : Host.log y i = Ideal.log (y i) := rfl

/-- A [40] vector repeated along the rows reads, at (r, k), the vector at k. -/
theorem rows40_apply (v : FVec Ideal Cert.ReferenceIdeal.S40 .f32) (r : Fin 100000) (k : Fin 40) :
    Cert.GCN.rows40 (F := Ideal) v (ix2 r k) = v (ix1 k) := by
  unfold Cert.GCN.rows40
  refine (broadcastInDim_apply _ _ _ (ix2 r k) (ix2 (0 : Fin 1) k) fun a => ?_).trans
    (broadcastInDim_apply _ _ v (ix2 (0 : Fin 1) k) (ix1 k) fun a => ?_)
  · match a with
    | ⟨0, _⟩ => rfl
    | ⟨1, _⟩ => rfl
  · match a with
    | ⟨0, _⟩ => rfl

/-- A [100000, 1] column repeated along the 40 lanes reads, at (r, q), the column at (r, 0). -/
theorem cols40_apply (w : FVec Ideal Cert.ReferenceIdeal.S100000x1 .f32) (r : Fin 100000) (q : Fin 40) :
    Cert.GCN.cols40 (F := Ideal) w (ix2 r q) = w (ix2 r (0 : Fin 1)) := by
  unfold Cert.GCN.cols40
  refine broadcastInDim_apply _ _ w (ix2 r q) (ix2 r (0 : Fin 1)) fun a => ?_
  match a with
  | ⟨0, _⟩ => rfl
  | ⟨1, _⟩ => rfl

/-- A [100000] vector as a column reads, at (r, 0), the vector at r. -/
theorem col_apply (v : FVec Ideal Cert.ReferenceIdeal.S100000 .f32) (r : Fin 100000) (u : Fin 1) :
    Cert.GCN.col (F := Ideal) v (ix2 r u) = v (ix1 r) := by
  unfold Cert.GCN.col
  refine broadcastInDim_apply _ _ v (ix2 r u) (ix1 r) fun a => ?_
  match a with
  | ⟨0, _⟩ => rfl

/-- The splat of one word over the rows reads that word's value at every row. -/
theorem splat_apply (w : BitVec 32) (r : Fin 100000) :
    broadcastInDim Cert.ReferenceIdeal.S100000 ![] Cert.ReferenceIdeal.Gen.bcast_S_S100000 (constant (F := Ideal) Cert.ReferenceIdeal.S_ .f32 w) (ix1 r)
      = Ideal.ofBits .f32 w :=
  (broadcastInDim_apply _ _ (constant (F := Ideal) Cert.ReferenceIdeal.S_ .f32 w) (ix1 r) ix0 (fun a => a.elim0)).trans
    (constant_apply (s := Cert.ReferenceIdeal.S_) (φ := .f32) w ix0)

/-- The maximum of a value with the fold of max from that value is the fold. -/
theorem rowMax_of (M0 R a : EReal) (F : EReal) (h0 : M0 = a) (hR : R = F) (hF : max a F = F) : max M0 R = F := by
  rw [h0, hR, hF]

/-- The host's row maximum, joined once more with its initial value, is the fold of max over the row. -/
theorem rowMax_apply (t : FVec Ideal Cert.ReferenceIdeal.S100000x40 .f32) (r : Fin 100000) :
    Cert.GCN.rowMax (F := Ideal) t (ix1 r)
      = (Finset.univ : Finset (Fin 40)).fold max (Ideal.ofBits .f32 0xFF800000#32) (fun k => t (ix2 r k)) := by
  unfold Cert.GCN.rowMax
  refine (maximumf_apply _ _ (ix1 r)).trans ?_
  refine rowMax_of _ _ (Ideal.ofBits .f32 0xFF800000#32) _ (splat_apply _ r) ?_ (max_fold_max_self _ _ _)
  refine (Cert.LibRowMax.hostReduce_maximumf_row t _ Cert.ReferenceIdeal.Gen.reducesTo_S100000x40_S100000_d1 (by decide) Cert.ReferenceIdeal.Gen.h_S_ r).trans ?_
  exact congrArg (fun a => (Finset.univ : Finset (Fin 40)).fold max a (fun k => t (ix2 r k))) (constant_apply (s := Cert.ReferenceIdeal.S_) (φ := .f32) 0xFF800000#32 _)

/-- Each row shifted by its maximum, at an index. -/
theorem shifted_apply (t : FVec Ideal Cert.ReferenceIdeal.S100000x40 .f32) (r : Fin 100000) (q : Fin 40) :
    Cert.GCN.shifted (F := Ideal) t (ix2 r q)
      = t (ix2 r q) - (Finset.univ : Finset (Fin 40)).fold max (Ideal.ofBits .f32 0xFF800000#32) (fun k => t (ix2 r k)) := by
  unfold Cert.GCN.shifted
  refine (subf_apply _ _ (ix2 r q)).trans ?_
  exact congrArg (fun z => t (ix2 r q) - z) ((cols40_apply _ r q).trans ((col_apply _ r 0).trans (rowMax_apply t r)))

/-- The host's sum of an [a, b] array over its second axis is, at row p, the initial value plus the sum of the
    b entries of that row. -/
theorem hostReduceAdd_row {a b : ℕ} {φ : FTy} {u : Shape} (x : FVec Ideal ⟨2, ![a, b]⟩ φ) (init : u.Idx → Ideal φ)
    (h' : Shape.ReducesTo ⟨2, ![a, b]⟩ [1] ⟨1, ![a]⟩) (h : Shape.Reduces ⟨2, ![a, b]⟩ [1] ⟨1, ![a]⟩) (hu : 0 < u.numel) (p : Fin a) :
    Host.reduceAdd (F := Ideal) x init h' hu (ix1 p) = init (Shape.Idx.first hu) + ∑ k : Fin b, x (ix2 p k) :=
  (Ideal.hostReduceAdd_single h' h x (init (Shape.Idx.first hu)) (ix1 p)).trans
    (congrArg (fun z => init (Shape.Idx.first hu) + z)
      (Finset.sum_congr rfl fun k _ => congrArg x (Cert.LibRowMax.lift_row h p k)))

/-- The logarithm of the lane sum of exponentials of an array, kept as a column and repeated along the lanes. -/
theorem lseH_apply (s : FVec Ideal Cert.ReferenceIdeal.S100000x40 .f32) (S : Fin 40 → EReal) (r : Fin 100000)
    (hs : ∀ k, s (ix2 r k) = S k) (q : Fin 40) :
    Cert.GCN.cols40 (F := Ideal) (Host.log (Cert.GCN.col (Host.reduceAdd (Host.exp s) (constant Cert.ReferenceIdeal.S_ .f32 0x00000000#32)
        Cert.ReferenceIdeal.Gen.reducesTo_S100000x40_S100000_d1 Cert.ReferenceIdeal.Gen.h_S_))) (ix2 r q)
      = Ideal.log (∑ k : Fin 40, Ideal.exp (S k)) := by
  refine (cols40_apply _ r q).trans ((hostLog_apply _ _).trans (congrArg Ideal.log ((col_apply _ r 0).trans ?_)))
  refine (hostReduceAdd_row (Host.exp s) _ Cert.ReferenceIdeal.Gen.reducesTo_S100000x40_S100000_d1 (by decide) Cert.ReferenceIdeal.Gen.h_S_ r).trans ?_
  refine (congrArg₂ (fun a b : EReal => a + b) ((constant_apply (s := Cert.ReferenceIdeal.S_) (φ := .f32) 0x00000000#32 _).trans Ideal.ofBits_zero_f32)
    (Finset.sum_congr rfl fun k _ => (hostExp_apply s (ix2 r k)).trans (congrArg Ideal.exp (hs k)))).trans ?_
  exact zero_add _

/-- log_softmax along the lanes, at an index, from the row's entries. -/
theorem logSoftmax_apply (t : FVec Ideal Cert.ReferenceIdeal.S100000x40 .f32) (T : Fin 40 → EReal) (r : Fin 100000)
    (hT : ∀ k, t (ix2 r k) = T k) (q : Fin 40) : Cert.GCN.logSoftmax (F := Ideal) t (ix2 r q) = lsRow T q := by
  have hs : ∀ k, Cert.GCN.shifted (F := Ideal) t (ix2 r k)
      = T k - (Finset.univ : Finset (Fin 40)).fold max (Ideal.ofBits .f32 0xFF800000#32) T := fun k => by
    rw [shifted_apply, hT k, show (fun k => t (ix2 r k)) = T from funext hT]
  unfold Cert.GCN.logSoftmax
  generalize Cert.GCN.shifted (F := Ideal) t = s at hs ⊢
  refine (subf_apply _ _ (ix2 r q)).trans ?_
  exact congrArg₂ (fun a b : EReal => a - b) (hs q) (lseH_apply s _ r hs q)

/-- Bias, then log_softmax, at an index: the row of agg plus the bias, through lsRow. -/
theorem ref_apply (agg : FVec Ideal Cert.ReferenceIdeal.S100000x40 .f32) (b : FVec Ideal Cert.ReferenceIdeal.S40 .f32)
    (r : Fin 100000) (q : Fin 40) :
    Cert.GCN.logSoftmaxBias (F := Ideal) agg b (ix2 r q) = lsRow (fun k => agg (ix2 r k) + b (ix1 k)) q := by
  unfold Cert.GCN.logSoftmaxBias
  refine logSoftmax_apply _ _ r (fun k => ?_) q
  exact (addf_apply _ _ (ix2 r k)).trans (congrArg (fun z => agg (ix2 r k) + z) (rows40_apply b r k))

/-! ## From blocks to the array -/

abbrev ValL := (c : Dev nD) → (b : Ref sig .tc) → Buf (Elt Ideal) ((c : Thread nD τ).loc b)

theorem hz : (![0, 0] : Fin 2 → Nat) = fun _ => 0 := funext fun a => by fin_cases a <;> rfl

/-- The printed index maps over the grid: the aggregated array's window and the output's move one row block per
    point, all lanes; the bias window stays on its one block. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The aggregated array's block at point t is rows 5000 t ... of the array, all lanes. -/
theorem iblk0_apply (V : ValL) (c : Dev nD) (t : Fin cfg5.N) (x : S5000x40.Idx) (i : S100000x40.Idx)
    (h0 : (i 0).val = 5000 * t.val + (x 0).val) (h1 : (i 1).val = (x 1).val) :
    (iblk5 (F := Ideal) V c 0 t : Vec Ideal S5000x40 .f32) x = (V c main_v83 : S100000x40.Idx → Elt Ideal .f32) i := by
  obtain ⟨e0, e1, -, -, -, -⟩ := idx_facts t
  unfold iblk5
  rw [View.read_apply]
  show V c main_v83 _ = V c main_v83 _
  refine congrArg (V c main_v83) (funext fun a => Fin.ext ?_)
  match a with
  | ⟨0, _⟩ => show win5_0.index t (0 : Fin 2) * 5000 + 1 * (x 0).val = (i 0).val; rw [e0, h0]; omega
  | ⟨1, _⟩ => show win5_0.index t (1 : Fin 2) * 40 + 1 * (x 1).val = (i 1).val; rw [e1, h1]; omega

/-- The bias row's block at every point is the row itself. -/
theorem iblk1_apply (V : ValL) (c : Dev nD) (t : Fin cfg5.N) (x : S1x40.Idx) :
    (iblk5 (F := Ideal) V c 1 t : Vec Ideal S1x40 .f32) x = (V c main_v84 : S1x40.Idx → Elt Ideal .f32) x := by
  obtain ⟨-, -, e2, e3, -, -⟩ := idx_facts t
  unfold iblk5
  rw [View.read_apply]
  show V c main_v84 _ = V c main_v84 _
  refine congrArg (V c main_v84) (funext fun a => Fin.ext ?_)
  match a with
  | ⟨0, _⟩ => show win5_1.index t (0 : Fin 2) * 1 + 1 * (x 0).val = (x 0).val; rw [e2]; omega
  | ⟨1, _⟩ => show win5_1.index t (1 : Fin 2) * 40 + 1 * (x 1).val = (x 1).val; rw [e3]; omega

/-- An element of the output's block at point t sits in the array at row 5000 t + its row, at its lane. -/
theorem emb2_eq (t : Fin cfg5.N) (x : S5000x40.Idx) (i : S100000x40.Idx)
    (h0 : (i 0).val = 5000 * t.val + (x 0).val) (h1 : (i 1).val = (x 1).val) :
    ((cfg5.win 2).blk t).view.emb x = i := by
  obtain ⟨-, -, -, -, e4, e5⟩ := idx_facts t
  refine funext fun a => Fin.ext ?_
  match a with
  | ⟨0, _⟩ => show win5_2.index t (0 : Fin 2) * 5000 + 1 * (x 0).val = (i 0).val; rw [e4, h0]; omega
  | ⟨1, _⟩ => show win5_2.index t (1 : Fin 2) * 40 + 1 * (x 1).val = (i 1).val; rw [e5, h1]; omega

/-- What point t writes back is block t of the reference's function of the aggregated array and the bias. -/
theorem flushed_eq (V : ValL) (c : Dev nD) (b : FVec Ideal S40 .f32)
    (hb : V c main_v84 = shapeCast S1x40 b shapeCasts_S40_S1x40) (t : Fin cfg5.N) :
    (dat5 (F := Ideal) V c).flushed 2 t
      = ((cfg5.win 2).blk t).view.read (Elt Ideal) (Cert.GCN.logSoftmaxBias (F := Ideal) (V c main_v83) b) := by
  show (cfg5.win 2).cut (grid5.coords t) ((dat5 V c).after 2 t) = _
  rw [after5_2]
  unfold out5_2
  rw [View.canon_unit_zero hz]
  simp only [View.ld_unit_zero (S := S5000x40) hz, View.ld_unit_zero (S := S1x40) hz]
  funext j
  obtain ⟨p, q, rfl⟩ : ∃ (p : Fin 5000) (q : Fin 40), j = ix2 p q := ⟨j 0, j 1, eq_ix2 j⟩
  have ht : t.val < 20 := t.isLt
  have hr : 5000 * t.val + p.val < 100000 := by have := p.isLt; omega
  show k5_pay1 (F := Ideal) (iblk5 V c 0 t) (iblk5 V c 1 t) (ix2 p q)
    = Cert.GCN.logSoftmaxBias (F := Ideal) (V c main_v83) b (((cfg5.win 2).blk t).view.emb (ix2 p q))
  rw [emb2_eq t (ix2 p q) (ix2 (⟨5000 * t.val + p.val, hr⟩ : Fin 100000) q) rfl rfl]
  refine (pay_apply (iblk5 V c 0 t) (iblk5 V c 1 t) p q).trans
    (Eq.trans ?_ (ref_apply (V c main_v83) b (⟨5000 * t.val + p.val, hr⟩ : Fin 100000) q).symm)
  refine congrArg (fun T : Fin 40 → EReal => lsRow T q) (funext fun k => ?_)
  refine congrArg₂ (fun a b : EReal => a + b)
    (iblk0_apply V c t (ix2 p k) (ix2 (⟨5000 * t.val + p.val, hr⟩ : Fin 100000) k) rfl rfl)
    ((iblk1_apply V c t (ix2 (0 : Fin 1) k)).trans ?_)
  exact (congrFun hb (ix2 (0 : Fin 1) k)).trans (shapeCast_a_1a_apply b shapeCasts_S40_S1x40 (0 : Fin 1) k)

/-- An index of the array is in point t's block iff each coordinate is in the block's range on its axis. -/
theorem mem_blk (t : Fin cfg5.N) (i : S100000x40.Idx) :
    i ∈ ((cfg5.win 2).blk t).view.set ↔ ∀ a : Fin 2, win5_2.index t a * S5000x40.size a ≤ (i a).val ∧ (i a).val < win5_2.index t a * S5000x40.size a + S5000x40.size a := by
  show i ∈ ((View.whole main_v85).slice (win5_2.rect t)).set ↔ _
  rw [View.set_slice_whole, Rect.mem_set_unit]
  exact Iff.rfl

/-- The 20 row blocks cover the array: row r is in the block of point r / 5000. -/
theorem cover (i : S100000x40.Idx) :
    ∃ t : Fin cfg5.N, (cfg5.win 2).flush t = true ∧ i ∈ ((cfg5.win 2).blk t).view.set := by
  have hi0 : (i 0).val < 100000 := (i 0).isLt
  have hi1 : (i 1).val < 40 := (i 1).isLt
  have hN : cfg5.N = 20 := by decide
  have hlt : (i 0).val / 5000 < cfg5.N := by rw [hN]; omega
  obtain ⟨t, htv⟩ : ∃ t : Fin cfg5.N, t.val = (i 0).val / 5000 := ⟨⟨_, hlt⟩, rfl⟩
  obtain ⟨-, -, -, -, e4, e5⟩ := idx_facts t
  refine ⟨t, flush5_2 t, ?_⟩
  rw [mem_blk]
  intro a
  match a with
  | ⟨0, _⟩ =>
    show win5_2.index t (0 : Fin 2) * 5000 ≤ (i 0).val ∧ (i 0).val < win5_2.index t (0 : Fin 2) * 5000 + 5000
    rw [e4, htv]; omega
  | ⟨1, _⟩ =>
    show win5_2.index t (1 : Fin 2) * 40 ≤ (i 1).val ∧ (i 1).val < win5_2.index t (1 : Fin 2) * 40 + 40
    rw [e5]; omega

end Cert.KernelIdeal.RegionLogSoftmax

namespace Cert.KernelIdeal.RegionVal
open Cert.KernelIdeal Cert.KernelIdeal.Gen Idealize.ShloMosaic Idealize.ShloMosaic.TcCoe Idealize.SL.Sem
open Idealize.ShloMosaic.Pipeline (Dat)

abbrev ValL := (c : Dev nD) → (b : Ref sig .tc) → Buf (Elt Ideal) ((c : Thread nD τ).loc b)

/-- The bias and log-softmax region leaves, in its output array, the reference's bias-then-log_softmax of the
    aggregated array and the bias vector. -/
theorem ls5 (V : ValL) (c : Dev nD) (b : (⟨S40, .f32⟩ : BufTy).Contents (Elt Ideal)) (hb : V c main_v84 = shapeCast S1x40 b shapeCasts_S40_S1x40) :
    (dat5 (F := Ideal) V c).arrAt 2 cfg5.N = Cert.GCN.logSoftmaxBias (F := Ideal) (V c main_v83) b :=
  (dat5 (F := Ideal) V c).arrAt_eq_of_cover 2 (Cert.GCN.logSoftmaxBias (F := Ideal) (V c main_v83) b)
    (fun t _ => Cert.KernelIdeal.RegionLogSoftmax.flushed_eq V c b hb t) Cert.KernelIdeal.RegionLogSoftmax.cover

end Cert.KernelIdeal.RegionVal
end
-- ==== Proof.Chain.lean ====
/-
  The kernel program's result as ONE function of its sixteen arguments.
  @main is twelve segments: three host stretches (the edge indices with self-loops, the degree's reciprocal square root,
  the edge weights), then per layer a product region, a host stretch (gather the source rows, scale, scatter-add into the
  target rows; the per-channel vectors re-laid as rows) and an epilogue region. The buffer contents at each segment
  boundary are a fold from the launch memory. Each host stretch, read at an arbitrary valuation of the buffers it starts
  from, writes one stage of the network as a function of earlier stages; each region's output array is the host's
  product, or the host's bias / batch-normalisation / ReLU chain, or the host's bias / log-softmax, of its input arrays;
  a buffer that a segment does not write is the same after it as before it. Chaining these through the twelve boundaries
  gives the result buffer `Cert.GCN.gcn` of the arguments.
-/
import proofs.«113381_j65231963292076_1_alg».proof.Proof.Gen.KernelIdeal.Frame
import proofs.«113381_j65231963292076_1_alg».proof.Proof.Stages
import proofs.«113381_j65231963292076_1_alg».proof.Proof.RegionDense
import proofs.«113381_j65231963292076_1_alg».proof.Proof.RegionBnRelu
import proofs.«113381_j65231963292076_1_alg».proof.Proof.RegionLogSoftmax
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer that no operation of a host stretch writes is the same after the stretch as before it. -/
macro "host_keep" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## Each host stretch, read at an arbitrary valuation `V` of the buffers it starts from -/

section Stretches
variable (V : Valuation τ sig (Elt Ideal))

/-- The prelude's first stretch: the edge sources and targets with the self-loops appended, the degree's comparison
    with zero, its reciprocal square root, and the zero that replaces it at isolated nodes. -/
theorem h0_v3 : StableHlo.after hostOps0 V (Proc.devRef .tc main_v3) = Cert.GCN.srcIdx (F := Ideal) (V (Proc.devRef .tc main_arg1)) := by
  after_results_simp <;> rfl
theorem h0_v6 : StableHlo.after hostOps0 V (Proc.devRef .tc main_v6) = Cert.GCN.dstIdx (F := Ideal) (V (Proc.devRef .tc main_arg1)) := by
  after_results_simp <;> rfl
theorem h0_v12 : StableHlo.after hostOps0 V (Proc.devRef .tc main_v12)
    = cmpf (F := Ideal) .ogt (Cert.GCN.deg (F := Ideal) (Cert.GCN.dstIdx (F := Ideal) (V (Proc.devRef .tc main_arg1))))
        (broadcastInDim S100000 ![] bcast_S_S100000 (constant S_ .f32 0x00000000#32)) := by
  after_results_simp <;> rfl
theorem h0_v13 : StableHlo.after hostOps0 V (Proc.devRef .tc main_v13)
    = Host.rsqrt (F := Ideal) (φ := .f32) (Cert.GCN.deg (F := Ideal) (Cert.GCN.dstIdx (F := Ideal) (V (Proc.devRef .tc main_arg1)))) := by
  after_results_simp <;> rfl
theorem h0_cst2 : StableHlo.after hostOps0 V (Proc.devRef .tc main_cst_2) = constant (F := Ideal) S_ .f32 0x00000000#32 := by
  after_results_simp <;> rfl

/-- The second stretch selects the reciprocal square root where the degree is positive. -/
theorem h01_v14 : StableHlo.after hostOps0_1 V (Proc.devRef .tc main_v14)
    = select (V (Proc.devRef .tc main_v12)) (V (Proc.devRef .tc main_v13)) (broadcastInDim S100000 ![] bcast_S_S100000 (id (V (Proc.devRef .tc main_cst_2)))) := by
  after_results_simp <;> rfl

/-- The third stretch multiplies the factor at an edge's source by the factor at its target. -/
theorem h02_v29 : StableHlo.after hostOps0_2 V (Proc.devRef .tc main_v29)
    = Cert.GCN.normOf (F := Ideal) (V (Proc.devRef .tc main_v14)) (V (Proc.devRef .tc main_v3)) (V (Proc.devRef .tc main_v6)) := by
  after_results_simp <;> rfl

/-- The stretch after a matmul region: the neighbourhood sum of its output, and the per-channel vectors as rows. -/
theorem h1_v43 : StableHlo.after hostOps1 V (Proc.devRef .tc main_v43)
    = Cert.GCN.aggOf128 (F := Ideal) (V (Proc.devRef .tc main_v30)) (V (Proc.devRef .tc main_v3)) (V (Proc.devRef .tc main_v6)) (V (Proc.devRef .tc main_v29)) := by
  after_results_simp <;> rfl
theorem h1_v44 : StableHlo.after hostOps1 V (Proc.devRef .tc main_v44) = shapeCast S1x128 (V (Proc.devRef .tc main_arg3)) shapeCasts_S128_S1x128 := by
  after_results_simp <;> rfl
theorem h1_v45 : StableHlo.after hostOps1 V (Proc.devRef .tc main_v45) = shapeCast S1x128 (V (Proc.devRef .tc main_arg8)) shapeCasts_S128_S1x128 := by
  after_results_simp <;> rfl
theorem h1_v46 : StableHlo.after hostOps1 V (Proc.devRef .tc main_v46) = shapeCast S1x128 (V (Proc.devRef .tc main_arg9)) shapeCasts_S128_S1x128 := by
  after_results_simp <;> rfl
theorem h1_v47 : StableHlo.after hostOps1 V (Proc.devRef .tc main_v47) = shapeCast S1x128 (V (Proc.devRef .tc main_arg10)) shapeCasts_S128_S1x128 := by
  after_results_simp <;> rfl
theorem h1_v48 : StableHlo.after hostOps1 V (Proc.devRef .tc main_v48) = shapeCast S1x128 (V (Proc.devRef .tc main_arg11)) shapeCasts_S128_S1x128 := by
  after_results_simp <;> rfl

theorem h3_v63 : StableHlo.after hostOps3 V (Proc.devRef .tc main_v63)
    = Cert.GCN.aggOf128 (F := Ideal) (V (Proc.devRef .tc main_v50)) (V (Proc.devRef .tc main_v3)) (V (Proc.devRef .tc main_v6)) (V (Proc.devRef .tc main_v29)) := by
  after_results_simp <;> rfl
theorem h3_v64 : StableHlo.after hostOps3 V (Proc.devRef .tc main_v64) = shapeCast S1x128 (V (Proc.devRef .tc main_arg5)) shapeCasts_S128_S1x128 := by
  after_results_simp <;> rfl
theorem h3_v65 : StableHlo.after hostOps3 V (Proc.devRef .tc main_v65) = shapeCast S1x128 (V (Proc.devRef .tc main_arg12)) shapeCasts_S128_S1x128 := by
  after_results_simp <;> rfl
theorem h3_v66 : StableHlo.after hostOps3 V (Proc.devRef .tc main_v66) = shapeCast S1x128 (V (Proc.devRef .tc main_arg13)) shapeCasts_S128_S1x128 := by
  after_results_simp <;> rfl
theorem h3_v67 : StableHlo.after hostOps3 V (Proc.devRef .tc main_v67) = shapeCast S1x128 (V (Proc.devRef .tc main_arg14)) shapeCasts_S128_S1x128 := by
  after_results_simp <;> rfl
theorem h3_v68 : StableHlo.after hostOps3 V (Proc.devRef .tc main_v68) = shapeCast S1x128 (V (Proc.devRef .tc main_arg15)) shapeCasts_S128_S1x128 := by
  after_results_simp <;> rfl

theorem h5_v83 : StableHlo.after hostOps5 V (Proc.devRef .tc main_v83)
    = Cert.GCN.aggOf40 (F := Ideal) (V (Proc.devRef .tc main_v70)) (V (Proc.devRef .tc main_v3)) (V (Proc.devRef .tc main_v6)) (V (Proc.devRef .tc main_v29)) := by
  after_results_simp <;> rfl
theorem h5_v84 : StableHlo.after hostOps5 V (Proc.devRef .tc main_v84) = shapeCast S1x40 (V (Proc.devRef .tc main_arg7)) shapeCasts_S40_S1x40 := by
  after_results_simp <;> rfl

end Stretches

/-! ## Buffers kept across boundaries -/

theorem arg0_at3 (c : Dev nD) : W3 (F := Ideal) m ρ c (Proc.devRef .tc main_arg0) = m ((c : Thread nD τ).loc main_arg0) :=
  calc W3 (F := Ideal) m ρ c (Proc.devRef .tc main_arg0)
    _ = W2 (F := Ideal) m ρ c (Proc.devRef .tc main_arg0) := by host_keep hostOps0_2
    _ = W1 (F := Ideal) m ρ c (Proc.devRef .tc main_arg0) := by host_keep hostOps0_1
    _ = W0 (F := Ideal) m ρ c (Proc.devRef .tc main_arg0) := by host_keep hostOps0
    _ = m ((c : Thread nD τ).loc main_arg0) := rfl

theorem arg2_at3 (c : Dev nD) : W3 (F := Ideal) m ρ c (Proc.devRef .tc main_arg2) = m ((c : Thread nD τ).loc main_arg2) :=
  calc W3 (F := Ideal) m ρ c (Proc.devRef .tc main_arg2)
    _ = W2 (F := Ideal) m ρ c (Proc.devRef .tc main_arg2) := by host_keep hostOps0_2
    _ = W1 (F := Ideal) m ρ c (Proc.devRef .tc main_arg2) := by host_keep hostOps0_1
    _ = W0 (F := Ideal) m ρ c (Proc.devRef .tc main_arg2) := by host_keep hostOps0
    _ = m ((c : Thread nD τ).loc main_arg2) := rfl

theorem arg3_at4 (c : Dev nD) : W4 (F := Ideal) m ρ c (Proc.devRef .tc main_arg3) = m ((c : Thread nD τ).loc main_arg3) :=
  calc W4 (F := Ideal) m ρ c (Proc.devRef .tc main_arg3)
    _ = W3 (F := Ideal) m ρ c (Proc.devRef .tc main_arg3) := W4_of_ne m ρ c main_arg3 (by decide)
    _ = W2 (F := Ideal) m ρ c (Proc.devRef .tc main_arg3) := by host_keep hostOps0_2
    _ = W1 (F := Ideal) m ρ c (Proc.devRef .tc main_arg3) := by host_keep hostOps0_1
    _ = W0 (F := Ideal) m ρ c (Proc.devRef .tc main_arg3) := by host_keep hostOps0
    _ = m ((c : Thread nD τ).loc main_arg3) := rfl

theorem arg8_at4 (c : Dev nD) : W4 (F := Ideal) m ρ c (Proc.devRef .tc main_arg8) = m ((c : Thread nD τ).loc main_arg8) :=
  calc W4 (F := Ideal) m ρ c (Proc.devRef .tc main_arg8)
    _ = W3 (F := Ideal) m ρ c (Proc.devRef .tc main_arg8) := W4_of_ne m ρ c main_arg8 (by decide)
    _ = W2 (F := Ideal) m ρ c (Proc.devRef .tc main_arg8) := by host_keep hostOps0_2
    _ = W1 (F := Ideal) m ρ c (Proc.devRef .tc main_arg8) := by host_keep hostOps0_1
    _ = W0 (F := Ideal) m ρ c (Proc.devRef .tc main_arg8) := by host_keep hostOps0
    _ = m ((c : Thread nD τ).loc main_arg8) := rfl

theorem arg9_at4 (c : Dev nD) : W4 (F := Ideal) m ρ c (Proc.devRef .tc main_arg9) = m ((c : Thread nD τ).loc main_arg9) :=
  calc W4 (F := Ideal) m ρ c (Proc.devRef .tc main_arg9)
    _ = W3 (F := Ideal) m ρ c (Proc.devRef .tc main_arg9) := W4_of_ne m ρ c main_arg9 (by decide)
    _ = W2 (F := Ideal) m ρ c (Proc.devRef .tc main_arg9) := by host_keep hostOps0_2
    _ = W1 (F := Ideal) m ρ c (Proc.devRef .tc main_arg9) := by host_keep hostOps0_1
    _ = W0 (F := Ideal) m ρ c (Proc.devRef .tc main_arg9) := by host_keep hostOps0
    _ = m ((c : Thread nD τ).loc main_arg9) := rfl

theorem arg10_at4 (c : Dev nD) : W4 (F := Ideal) m ρ c (Proc.devRef .tc main_arg10) = m ((c : Thread nD τ).loc main_arg10) :=
  calc W4 (F := Ideal) m ρ c (Proc.devRef .tc main_arg10)
    _ = W3 (F := Ideal) m ρ c (Proc.devRef .tc main_arg10) := W4_of_ne m ρ c main_arg10 (by decide)
    _ = W2 (F := Ideal) m ρ c (Proc.devRef .tc main_arg10) := by host_keep hostOps0_2
    _ = W1 (F := Ideal) m ρ c (Proc.devRef .tc main_arg10) := by host_keep hostOps0_1
    _ = W0 (F := Ideal) m ρ c (Proc.devRef .tc main_arg10) := by host_keep hostOps0
    _ = m ((c : Thread nD τ).loc main_arg10) := rfl

theorem arg11_at4 (c : Dev nD) : W4 (F := Ideal) m ρ c (Proc.devRef .tc main_arg11) = m ((c : Thread nD τ).loc main_arg11) :=
  calc W4 (F := Ideal) m ρ c (Proc.devRef .tc main_arg11)
    _ = W3 (F := Ideal) m ρ c (Proc.devRef .tc main_arg11) := W4_of_ne m ρ c main_arg11 (by decide)
    _ = W2 (F := Ideal) m ρ c (Proc.devRef .tc main_arg11) := by host_keep hostOps0_2
    _ = W1 (F := Ideal) m ρ c (Proc.devRef .tc main_arg11) := by host_keep hostOps0_1
    _ = W0 (F := Ideal) m ρ c (Proc.devRef .tc main_arg11) := by host_keep hostOps0
    _ = m ((c : Thread nD τ).loc main_arg11) := rfl

theorem arg4_at6 (c : Dev nD) : W6 (F := Ideal) m ρ c (Proc.devRef .tc main_arg4) = m ((c : Thread nD τ).loc main_arg4) :=
  calc W6 (F := Ideal) m ρ c (Proc.devRef .tc main_arg4)
    _ = W5 (F := Ideal) m ρ c (Proc.devRef .tc main_arg4) := W6_of_ne m ρ c main_arg4 (by decide)
    _ = W4 (F := Ideal) m ρ c (Proc.devRef .tc main_arg4) := by host_keep hostOps1
    _ = W3 (F := Ideal) m ρ c (Proc.devRef .tc main_arg4) := W4_of_ne m ρ c main_arg4 (by decide)
    _ = W2 (F := Ideal) m ρ c (Proc.devRef .tc main_arg4) := by host_keep hostOps0_2
    _ = W1 (F := Ideal) m ρ c (Proc.devRef .tc main_arg4) := by host_keep hostOps0_1
    _ = W0 (F := Ideal) m ρ c (Proc.devRef .tc main_arg4) := by host_keep hostOps0
    _ = m ((c : Thread nD τ).loc main_arg4) := rfl

theorem arg5_at7 (c : Dev nD) : W7 (F := Ideal) m ρ c (Proc.devRef .tc main_arg5) = m ((c : Thread nD τ).loc main_arg5) :=
  calc W7 (F := Ideal) m ρ c (Proc.devRef .tc main_arg5)
    _ = W6 (F := Ideal) m ρ c (Proc.devRef .tc main_arg5) := W7_of_ne m ρ c main_arg5 (by decide)
    _ = W5 (F := Ideal) m ρ c (Proc.devRef .tc main_arg5) := W6_of_ne m ρ c main_arg5 (by decide)
    _ = W4 (F := Ideal) m ρ c (Proc.devRef .tc main_arg5) := by host_keep hostOps1
    _ = W3 (F := Ideal) m ρ c (Proc.devRef .tc main_arg5) := W4_of_ne m ρ c main_arg5 (by decide)
    _ = W2 (F := Ideal) m ρ c (Proc.devRef .tc main_arg5) := by host_keep hostOps0_2
    _ = W1 (F := Ideal) m ρ c (Proc.devRef .tc main_arg5) := by host_keep hostOps0_1
    _ = W0 (F := Ideal) m ρ c (Proc.devRef .tc main_arg5) := by host_keep hostOps0
    _ = m ((c : Thread nD τ).loc main_arg5) := rfl

theorem arg12_at7 (c : Dev nD) : W7 (F := Ideal) m ρ c (Proc.devRef .tc main_arg12) = m ((c : Thread nD τ).loc main_arg12) :=
  calc W7 (F := Ideal) m ρ c (Proc.devRef .tc main_arg12)
    _ = W6 (F := Ideal) m ρ c (Proc.devRef .tc main_arg12) := W7_of_ne m ρ c main_arg12 (by decide)
    _ = W5 (F := Ideal) m ρ c (Proc.devRef .tc main_arg12) := W6_of_ne m ρ c main_arg12 (by decide)
    _ = W4 (F := Ideal) m ρ c (Proc.devRef .tc main_arg12) := by host_keep hostOps1
    _ = W3 (F := Ideal) m ρ c (Proc.devRef .tc main_arg12) := W4_of_ne m ρ c main_arg12 (by decide)
    _ = W2 (F := Ideal) m ρ c (Proc.devRef .tc main_arg12) := by host_keep hostOps0_2
    _ = W1 (F := Ideal) m ρ c (Proc.devRef .tc main_arg12) := by host_keep hostOps0_1
    _ = W0 (F := Ideal) m ρ c (Proc.devRef .tc main_arg12) := by host_keep hostOps0
    _ = m ((c : Thread nD τ).loc main_arg12) := rfl

theorem arg13_at7 (c : Dev nD) : W7 (F := Ideal) m ρ c (Proc.devRef .tc main_arg13) = m ((c : Thread nD τ).loc main_arg13) :=
  calc W7 (F := Ideal) m ρ c (Proc.devRef .tc main_arg13)
    _ = W6 (F := Ideal) m ρ c (Proc.devRef .tc main_arg13) := W7_of_ne m ρ c main_arg13 (by decide)
    _ = W5 (F := Ideal) m ρ c (Proc.devRef .tc main_arg13) := W6_of_ne m ρ c main_arg13 (by decide)
    _ = W4 (F := Ideal) m ρ c (Proc.devRef .tc main_arg13) := by host_keep hostOps1
    _ = W3 (F := Ideal) m ρ c (Proc.devRef .tc main_arg13) := W4_of_ne m ρ c main_arg13 (by decide)
    _ = W2 (F := Ideal) m ρ c (Proc.devRef .tc main_arg13) := by host_keep hostOps0_2
    _ = W1 (F := Ideal) m ρ c (Proc.devRef .tc main_arg13) := by host_keep hostOps0_1
    _ = W0 (F := Ideal) m ρ c (Proc.devRef .tc main_arg13) := by host_keep hostOps0
    _ = m ((c : Thread nD τ).loc main_arg13) := rfl

theorem arg14_at7 (c : Dev nD) : W7 (F := Ideal) m ρ c (Proc.devRef .tc main_arg14) = m ((c : Thread nD τ).loc main_arg14) :=
  calc W7 (F := Ideal) m ρ c (Proc.devRef .tc main_arg14)
    _ = W6 (F := Ideal) m ρ c (Proc.devRef .tc main_arg14) := W7_of_ne m ρ c main_arg14 (by decide)
    _ = W5 (F := Ideal) m ρ c (Proc.devRef .tc main_arg14) := W6_of_ne m ρ c main_arg14 (by decide)
    _ = W4 (F := Ideal) m ρ c (Proc.devRef .tc main_arg14) := by host_keep hostOps1
    _ = W3 (F := Ideal) m ρ c (Proc.devRef .tc main_arg14) := W4_of_ne m ρ c main_arg14 (by decide)
    _ = W2 (F := Ideal) m ρ c (Proc.devRef .tc main_arg14) := by host_keep hostOps0_2
    _ = W1 (F := Ideal) m ρ c (Proc.devRef .tc main_arg14) := by host_keep hostOps0_1
    _ = W0 (F := Ideal) m ρ c (Proc.devRef .tc main_arg14) := by host_keep hostOps0
    _ = m ((c : Thread nD τ).loc main_arg14) := rfl

theorem arg15_at7 (c : Dev nD) : W7 (F := Ideal) m ρ c (Proc.devRef .tc main_arg15) = m ((c : Thread nD τ).loc main_arg15) :=
  calc W7 (F := Ideal) m ρ c (Proc.devRef .tc main_arg15)
    _ = W6 (F := Ideal) m ρ c (Proc.devRef .tc main_arg15) := W7_of_ne m ρ c main_arg15 (by decide)
    _ = W5 (F := Ideal) m ρ c (Proc.devRef .tc main_arg15) := W6_of_ne m ρ c main_arg15 (by decide)
    _ = W4 (F := Ideal) m ρ c (Proc.devRef .tc main_arg15) := by host_keep hostOps1
    _ = W3 (F := Ideal) m ρ c (Proc.devRef .tc main_arg15) := W4_of_ne m ρ c main_arg15 (by decide)
    _ = W2 (F := Ideal) m ρ c (Proc.devRef .tc main_arg15) := by host_keep hostOps0_2
    _ = W1 (F := Ideal) m ρ c (Proc.devRef .tc main_arg15) := by host_keep hostOps0_1
    _ = W0 (F := Ideal) m ρ c (Proc.devRef .tc main_arg15) := by host_keep hostOps0
    _ = m ((c : Thread nD τ).loc main_arg15) := rfl

theorem arg6_at9 (c : Dev nD) : W9 (F := Ideal) m ρ c (Proc.devRef .tc main_arg6) = m ((c : Thread nD τ).loc main_arg6) :=
  calc W9 (F := Ideal) m ρ c (Proc.devRef .tc main_arg6)
    _ = W8 (F := Ideal) m ρ c (Proc.devRef .tc main_arg6) := W9_of_ne m ρ c main_arg6 (by decide)
    _ = W7 (F := Ideal) m ρ c (Proc.devRef .tc main_arg6) := by host_keep hostOps3
    _ = W6 (F := Ideal) m ρ c (Proc.devRef .tc main_arg6) := W7_of_ne m ρ c main_arg6 (by decide)
    _ = W5 (F := Ideal) m ρ c (Proc.devRef .tc main_arg6) := W6_of_ne m ρ c main_arg6 (by decide)
    _ = W4 (F := Ideal) m ρ c (Proc.devRef .tc main_arg6) := by host_keep hostOps1
    _ = W3 (F := Ideal) m ρ c (Proc.devRef .tc main_arg6) := W4_of_ne m ρ c main_arg6 (by decide)
    _ = W2 (F := Ideal) m ρ c (Proc.devRef .tc main_arg6) := by host_keep hostOps0_2
    _ = W1 (F := Ideal) m ρ c (Proc.devRef .tc main_arg6) := by host_keep hostOps0_1
    _ = W0 (F := Ideal) m ρ c (Proc.devRef .tc main_arg6) := by host_keep hostOps0
    _ = m ((c : Thread nD τ).loc main_arg6) := rfl

theorem arg7_at10 (c : Dev nD) : W10 (F := Ideal) m ρ c (Proc.devRef .tc main_arg7) = m ((c : Thread nD τ).loc main_arg7) :=
  calc W10 (F := Ideal) m ρ c (Proc.devRef .tc main_arg7)
    _ = W9 (F := Ideal) m ρ c (Proc.devRef .tc main_arg7) := W10_of_ne m ρ c main_arg7 (by decide)
    _ = W8 (F := Ideal) m ρ c (Proc.devRef .tc main_arg7) := W9_of_ne m ρ c main_arg7 (by decide)
    _ = W7 (F := Ideal) m ρ c (Proc.devRef .tc main_arg7) := by host_keep hostOps3
    _ = W6 (F := Ideal) m ρ c (Proc.devRef .tc main_arg7) := W7_of_ne m ρ c main_arg7 (by decide)
    _ = W5 (F := Ideal) m ρ c (Proc.devRef .tc main_arg7) := W6_of_ne m ρ c main_arg7 (by decide)
    _ = W4 (F := Ideal) m ρ c (Proc.devRef .tc main_arg7) := by host_keep hostOps1
    _ = W3 (F := Ideal) m ρ c (Proc.devRef .tc main_arg7) := W4_of_ne m ρ c main_arg7 (by decide)
    _ = W2 (F := Ideal) m ρ c (Proc.devRef .tc main_arg7) := by host_keep hostOps0_2
    _ = W1 (F := Ideal) m ρ c (Proc.devRef .tc main_arg7) := by host_keep hostOps0_1
    _ = W0 (F := Ideal) m ρ c (Proc.devRef .tc main_arg7) := by host_keep hostOps0
    _ = m ((c : Thread nD τ).loc main_arg7) := rfl

theorem v3_at4 (c : Dev nD) : W4 (F := Ideal) m ρ c (Proc.devRef .tc main_v3) = W3 (F := Ideal) m ρ c (Proc.devRef .tc main_v3) :=
  calc W4 (F := Ideal) m ρ c (Proc.devRef .tc main_v3)
    _ = W3 (F := Ideal) m ρ c (Proc.devRef .tc main_v3) := W4_of_ne m ρ c main_v3 (by decide)

theorem v6_at4 (c : Dev nD) : W4 (F := Ideal) m ρ c (Proc.devRef .tc main_v6) = W3 (F := Ideal) m ρ c (Proc.devRef .tc main_v6) :=
  calc W4 (F := Ideal) m ρ c (Proc.devRef .tc main_v6)
    _ = W3 (F := Ideal) m ρ c (Proc.devRef .tc main_v6) := W4_of_ne m ρ c main_v6 (by decide)

theorem v29_at4 (c : Dev nD) : W4 (F := Ideal) m ρ c (Proc.devRef .tc main_v29) = W3 (F := Ideal) m ρ c (Proc.devRef .tc main_v29) :=
  calc W4 (F := Ideal) m ρ c (Proc.devRef .tc main_v29)
    _ = W3 (F := Ideal) m ρ c (Proc.devRef .tc main_v29) := W4_of_ne m ρ c main_v29 (by decide)

theorem v3_at7 (c : Dev nD) : W7 (F := Ideal) m ρ c (Proc.devRef .tc main_v3) = W3 (F := Ideal) m ρ c (Proc.devRef .tc main_v3) :=
  calc W7 (F := Ideal) m ρ c (Proc.devRef .tc main_v3)
    _ = W6 (F := Ideal) m ρ c (Proc.devRef .tc main_v3) := W7_of_ne m ρ c main_v3 (by decide)
    _ = W5 (F := Ideal) m ρ c (Proc.devRef .tc main_v3) := W6_of_ne m ρ c main_v3 (by decide)
    _ = W4 (F := Ideal) m ρ c (Proc.devRef .tc main_v3) := by host_keep hostOps1
    _ = W3 (F := Ideal) m ρ c (Proc.devRef .tc main_v3) := W4_of_ne m ρ c main_v3 (by decide)

theorem v6_at7 (c : Dev nD) : W7 (F := Ideal) m ρ c (Proc.devRef .tc main_v6) = W3 (F := Ideal) m ρ c (Proc.devRef .tc main_v6) :=
  calc W7 (F := Ideal) m ρ c (Proc.devRef .tc main_v6)
    _ = W6 (F := Ideal) m ρ c (Proc.devRef .tc main_v6) := W7_of_ne m ρ c main_v6 (by decide)
    _ = W5 (F := Ideal) m ρ c (Proc.devRef .tc main_v6) := W6_of_ne m ρ c main_v6 (by decide)
    _ = W4 (F := Ideal) m ρ c (Proc.devRef .tc main_v6) := by host_keep hostOps1
    _ = W3 (F := Ideal) m ρ c (Proc.devRef .tc main_v6) := W4_of_ne m ρ c main_v6 (by decide)

theorem v29_at7 (c : Dev nD) : W7 (F := Ideal) m ρ c (Proc.devRef .tc main_v29) = W3 (F := Ideal) m ρ c (Proc.devRef .tc main_v29) :=
  calc W7 (F := Ideal) m ρ c (Proc.devRef .tc main_v29)
    _ = W6 (F := Ideal) m ρ c (Proc.devRef .tc main_v29) := W7_of_ne m ρ c main_v29 (by decide)
    _ = W5 (F := Ideal) m ρ c (Proc.devRef .tc main_v29) := W6_of_ne m ρ c main_v29 (by decide)
    _ = W4 (F := Ideal) m ρ c (Proc.devRef .tc main_v29) := by host_keep hostOps1
    _ = W3 (F := Ideal) m ρ c (Proc.devRef .tc main_v29) := W4_of_ne m ρ c main_v29 (by decide)

theorem v3_at10 (c : Dev nD) : W10 (F := Ideal) m ρ c (Proc.devRef .tc main_v3) = W3 (F := Ideal) m ρ c (Proc.devRef .tc main_v3) :=
  calc W10 (F := Ideal) m ρ c (Proc.devRef .tc main_v3)
    _ = W9 (F := Ideal) m ρ c (Proc.devRef .tc main_v3) := W10_of_ne m ρ c main_v3 (by decide)
    _ = W8 (F := Ideal) m ρ c (Proc.devRef .tc main_v3) := W9_of_ne m ρ c main_v3 (by decide)
    _ = W7 (F := Ideal) m ρ c (Proc.devRef .tc main_v3) := by host_keep hostOps3
    _ = W6 (F := Ideal) m ρ c (Proc.devRef .tc main_v3) := W7_of_ne m ρ c main_v3 (by decide)
    _ = W5 (F := Ideal) m ρ c (Proc.devRef .tc main_v3) := W6_of_ne m ρ c main_v3 (by decide)
    _ = W4 (F := Ideal) m ρ c (Proc.devRef .tc main_v3) := by host_keep hostOps1
    _ = W3 (F := Ideal) m ρ c (Proc.devRef .tc main_v3) := W4_of_ne m ρ c main_v3 (by decide)

theorem v6_at10 (c : Dev nD) : W10 (F := Ideal) m ρ c (Proc.devRef .tc main_v6) = W3 (F := Ideal) m ρ c (Proc.devRef .tc main_v6) :=
  calc W10 (F := Ideal) m ρ c (Proc.devRef .tc main_v6)
    _ = W9 (F := Ideal) m ρ c (Proc.devRef .tc main_v6) := W10_of_ne m ρ c main_v6 (by decide)
    _ = W8 (F := Ideal) m ρ c (Proc.devRef .tc main_v6) := W9_of_ne m ρ c main_v6 (by decide)
    _ = W7 (F := Ideal) m ρ c (Proc.devRef .tc main_v6) := by host_keep hostOps3
    _ = W6 (F := Ideal) m ρ c (Proc.devRef .tc main_v6) := W7_of_ne m ρ c main_v6 (by decide)
    _ = W5 (F := Ideal) m ρ c (Proc.devRef .tc main_v6) := W6_of_ne m ρ c main_v6 (by decide)
    _ = W4 (F := Ideal) m ρ c (Proc.devRef .tc main_v6) := by host_keep hostOps1
    _ = W3 (F := Ideal) m ρ c (Proc.devRef .tc main_v6) := W4_of_ne m ρ c main_v6 (by decide)

theorem v29_at10 (c : Dev nD) : W10 (F := Ideal) m ρ c (Proc.devRef .tc main_v29) = W3 (F := Ideal) m ρ c (Proc.devRef .tc main_v29) :=
  calc W10 (F := Ideal) m ρ c (Proc.devRef .tc main_v29)
    _ = W9 (F := Ideal) m ρ c (Proc.devRef .tc main_v29) := W10_of_ne m ρ c main_v29 (by decide)
    _ = W8 (F := Ideal) m ρ c (Proc.devRef .tc main_v29) := W9_of_ne m ρ c main_v29 (by decide)
    _ = W7 (F := Ideal) m ρ c (Proc.devRef .tc main_v29) := by host_keep hostOps3
    _ = W6 (F := Ideal) m ρ c (Proc.devRef .tc main_v29) := W7_of_ne m ρ c main_v29 (by decide)
    _ = W5 (F := Ideal) m ρ c (Proc.devRef .tc main_v29) := W6_of_ne m ρ c main_v29 (by decide)
    _ = W4 (F := Ideal) m ρ c (Proc.devRef .tc main_v29) := by host_keep hostOps1
    _ = W3 (F := Ideal) m ρ c (Proc.devRef .tc main_v29) := W4_of_ne m ρ c main_v29 (by decide)

/-! ## The edge indices and weights when region 0 is entered -/

/-- The edge list as launched. -/
abbrev ei (c : Dev nD) := m ((c : Thread nD τ).loc main_arg1)

theorem v3_at3 (c : Dev nD) : W3 (F := Ideal) m ρ c (Proc.devRef .tc main_v3) = Cert.GCN.srcIdx (F := Ideal) (ei m c) :=
  calc W3 (F := Ideal) m ρ c (Proc.devRef .tc main_v3)
    _ = W2 (F := Ideal) m ρ c (Proc.devRef .tc main_v3) := by host_keep hostOps0_2
    _ = W1 (F := Ideal) m ρ c (Proc.devRef .tc main_v3) := by host_keep hostOps0_1
    _ = _ := h0_v3 (W0 m ρ c)

theorem v6_at3 (c : Dev nD) : W3 (F := Ideal) m ρ c (Proc.devRef .tc main_v6) = Cert.GCN.dstIdx (F := Ideal) (ei m c) :=
  calc W3 (F := Ideal) m ρ c (Proc.devRef .tc main_v6)
    _ = W2 (F := Ideal) m ρ c (Proc.devRef .tc main_v6) := by host_keep hostOps0_2
    _ = W1 (F := Ideal) m ρ c (Proc.devRef .tc main_v6) := by host_keep hostOps0_1
    _ = _ := h0_v6 (W0 m ρ c)

theorem v14_at2 (c : Dev nD) : W2 (F := Ideal) m ρ c (Proc.devRef .tc main_v14) = Cert.GCN.dinv (F := Ideal) (Cert.GCN.dstIdx (F := Ideal) (ei m c)) := by
  refine (h01_v14 (W1 m ρ c)).trans ?_
  rw [show W1 (F := Ideal) m ρ c (Proc.devRef .tc main_v12) = _ from h0_v12 (W0 m ρ c), show W1 (F := Ideal) m ρ c (Proc.devRef .tc main_v13) = _ from h0_v13 (W0 m ρ c),
    show W1 (F := Ideal) m ρ c (Proc.devRef .tc main_cst_2) = _ from h0_cst2 (W0 m ρ c)]
  rfl

theorem v29_at3 (c : Dev nD) : W3 (F := Ideal) m ρ c (Proc.devRef .tc main_v29)
    = Cert.GCN.norm (F := Ideal) (Cert.GCN.srcIdx (F := Ideal) (ei m c)) (Cert.GCN.dstIdx (F := Ideal) (ei m c)) := by
  refine (h02_v29 (W2 m ρ c)).trans ?_
  rw [v14_at2 m ρ c,
    show W2 (F := Ideal) m ρ c (Proc.devRef .tc main_v3) = Cert.GCN.srcIdx (F := Ideal) (ei m c) from
      (by host_keep hostOps0_1 : W2 (F := Ideal) m ρ c (Proc.devRef .tc main_v3) = W1 (F := Ideal) m ρ c (Proc.devRef .tc main_v3)).trans (h0_v3 (W0 m ρ c)),
    show W2 (F := Ideal) m ρ c (Proc.devRef .tc main_v6) = Cert.GCN.dstIdx (F := Ideal) (ei m c) from
      (by host_keep hostOps0_1 : W2 (F := Ideal) m ρ c (Proc.devRef .tc main_v6) = W1 (F := Ideal) m ρ c (Proc.devRef .tc main_v6)).trans (h0_v6 (W0 m ρ c))]
  rfl

/-! ## The values at the boundaries, layer by layer -/

/-- The edge sources, targets and weights. -/
abbrev Sx (c : Dev nD) := Cert.GCN.srcIdx (F := Ideal) (ei m c)
abbrev Dx (c : Dev nD) := Cert.GCN.dstIdx (F := Ideal) (ei m c)
abbrev Nx (c : Dev nD) := Cert.GCN.norm (F := Ideal) (Sx m c) (Dx m c)

/-- The first layer's features: `x @ W0`, summed over neighbourhoods, then bias, batch normalisation and ReLU. -/
def H1 (c : Dev nD) := Cert.GCN.bnRelu (F := Ideal)
  (Cert.GCN.aggOf128 (F := Ideal) (Cert.GCN.dense128 (F := Ideal) (m ((c : Thread nD τ).loc main_arg0)) (m ((c : Thread nD τ).loc main_arg2))) (Sx m c) (Dx m c) (Nx m c)) (m ((c : Thread nD τ).loc main_arg3)) (m ((c : Thread nD τ).loc main_arg8)) (m ((c : Thread nD τ).loc main_arg9)) (m ((c : Thread nD τ).loc main_arg10)) (m ((c : Thread nD τ).loc main_arg11))
/-- The second layer's features. -/
def H2 (c : Dev nD) := Cert.GCN.bnRelu (F := Ideal)
  (Cert.GCN.aggOf128 (F := Ideal) (Cert.GCN.dense128 (F := Ideal) (H1 m c) (m ((c : Thread nD τ).loc main_arg4))) (Sx m c) (Dx m c) (Nx m c)) (m ((c : Thread nD τ).loc main_arg5)) (m ((c : Thread nD τ).loc main_arg12)) (m ((c : Thread nD τ).loc main_arg13)) (m ((c : Thread nD τ).loc main_arg14)) (m ((c : Thread nD τ).loc main_arg15))

theorem v30_at4 (c : Dev nD) : W4 (F := Ideal) m ρ c (Proc.devRef .tc main_v30) = Cert.GCN.dense128 (F := Ideal) (m ((c : Thread nD τ).loc main_arg0)) (m ((c : Thread nD τ).loc main_arg2)) := by
  refine (W4_arr m ρ c 2).trans ((Cert.KernelIdeal.RegionVal.dense0 (V3 m ρ) c).trans ?_)
  show Cert.GCN.dense128 (F := Ideal) (W3 (F := Ideal) m ρ c (Proc.devRef .tc main_arg0)) (W3 (F := Ideal) m ρ c (Proc.devRef .tc main_arg2)) = _
  rw [arg0_at3 m ρ c, arg2_at3 m ρ c]

theorem v43_at5 (c : Dev nD) : W5 (F := Ideal) m ρ c (Proc.devRef .tc main_v43)
    = Cert.GCN.aggOf128 (F := Ideal) (Cert.GCN.dense128 (F := Ideal) (m ((c : Thread nD τ).loc main_arg0)) (m ((c : Thread nD τ).loc main_arg2))) (Sx m c) (Dx m c) (Nx m c) := by
  refine (h1_v43 (W4 m ρ c)).trans ?_
  rw [v30_at4 m ρ c, (v3_at4 m ρ c).trans (v3_at3 m ρ c), (v6_at4 m ρ c).trans (v6_at3 m ρ c), (v29_at4 m ρ c).trans (v29_at3 m ρ c)]
theorem v44_at5 (c : Dev nD) : W5 (F := Ideal) m ρ c (Proc.devRef .tc main_v44) = shapeCast S1x128 (m ((c : Thread nD τ).loc main_arg3)) shapeCasts_S128_S1x128 := by
  refine (h1_v44 (W4 m ρ c)).trans ?_; rw [arg3_at4 m ρ c]
theorem v45_at5 (c : Dev nD) : W5 (F := Ideal) m ρ c (Proc.devRef .tc main_v45) = shapeCast S1x128 (m ((c : Thread nD τ).loc main_arg8)) shapeCasts_S128_S1x128 := by
  refine (h1_v45 (W4 m ρ c)).trans ?_; rw [arg8_at4 m ρ c]
theorem v46_at5 (c : Dev nD) : W5 (F := Ideal) m ρ c (Proc.devRef .tc main_v46) = shapeCast S1x128 (m ((c : Thread nD τ).loc main_arg9)) shapeCasts_S128_S1x128 := by
  refine (h1_v46 (W4 m ρ c)).trans ?_; rw [arg9_at4 m ρ c]
theorem v47_at5 (c : Dev nD) : W5 (F := Ideal) m ρ c (Proc.devRef .tc main_v47) = shapeCast S1x128 (m ((c : Thread nD τ).loc main_arg10)) shapeCasts_S128_S1x128 := by
  refine (h1_v47 (W4 m ρ c)).trans ?_; rw [arg10_at4 m ρ c]
theorem v48_at5 (c : Dev nD) : W5 (F := Ideal) m ρ c (Proc.devRef .tc main_v48) = shapeCast S1x128 (m ((c : Thread nD τ).loc main_arg11)) shapeCasts_S128_S1x128 := by
  refine (h1_v48 (W4 m ρ c)).trans ?_; rw [arg11_at4 m ρ c]

theorem v49_at6 (c : Dev nD) : W6 (F := Ideal) m ρ c (Proc.devRef .tc main_v49) = H1 m c := by
  refine (W6_arr m ρ c 6).trans ((Cert.KernelIdeal.RegionVal.bn1 (V5 m ρ) c _ _ _ _ _ (v44_at5 m ρ c) (v45_at5 m ρ c) (v46_at5 m ρ c) (v47_at5 m ρ c) (v48_at5 m ρ c)).trans ?_)
  show Cert.GCN.bnRelu (F := Ideal) (W5 (F := Ideal) m ρ c (Proc.devRef .tc main_v43)) _ _ _ _ _ = _
  rw [v43_at5 m ρ c]; rfl

theorem v50_at7 (c : Dev nD) : W7 (F := Ideal) m ρ c (Proc.devRef .tc main_v50) = Cert.GCN.dense128 (F := Ideal) (H1 m c) (m ((c : Thread nD τ).loc main_arg4)) := by
  refine (W7_arr m ρ c 2).trans ((Cert.KernelIdeal.RegionVal.dense2 (V6 m ρ) c).trans ?_)
  show Cert.GCN.dense128 (F := Ideal) (W6 (F := Ideal) m ρ c (Proc.devRef .tc main_v49)) (W6 (F := Ideal) m ρ c (Proc.devRef .tc main_arg4)) = _
  rw [v49_at6 m ρ c, arg4_at6 m ρ c]

theorem v63_at8 (c : Dev nD) : W8 (F := Ideal) m ρ c (Proc.devRef .tc main_v63)
    = Cert.GCN.aggOf128 (F := Ideal) (Cert.GCN.dense128 (F := Ideal) (H1 m c) (m ((c : Thread nD τ).loc main_arg4))) (Sx m c) (Dx m c) (Nx m c) := by
  refine (h3_v63 (W7 m ρ c)).trans ?_
  rw [v50_at7 m ρ c, (v3_at7 m ρ c).trans (v3_at3 m ρ c), (v6_at7 m ρ c).trans (v6_at3 m ρ c), (v29_at7 m ρ c).trans (v29_at3 m ρ c)]
theorem v64_at8 (c : Dev nD) : W8 (F := Ideal) m ρ c (Proc.devRef .tc main_v64) = shapeCast S1x128 (m ((c : Thread nD τ).loc main_arg5)) shapeCasts_S128_S1x128 := by
  refine (h3_v64 (W7 m ρ c)).trans ?_; rw [arg5_at7 m ρ c]
theorem v65_at8 (c : Dev nD) : W8 (F := Ideal) m ρ c (Proc.devRef .tc main_v65) = shapeCast S1x128 (m ((c : Thread nD τ).loc main_arg12)) shapeCasts_S128_S1x128 := by
  refine (h3_v65 (W7 m ρ c)).trans ?_; rw [arg12_at7 m ρ c]
theorem v66_at8 (c : Dev nD) : W8 (F := Ideal) m ρ c (Proc.devRef .tc main_v66) = shapeCast S1x128 (m ((c : Thread nD τ).loc main_arg13)) shapeCasts_S128_S1x128 := by
  refine (h3_v66 (W7 m ρ c)).trans ?_; rw [arg13_at7 m ρ c]
theorem v67_at8 (c : Dev nD) : W8 (F := Ideal) m ρ c (Proc.devRef .tc main_v67) = shapeCast S1x128 (m ((c : Thread nD τ).loc main_arg14)) shapeCasts_S128_S1x128 := by
  refine (h3_v67 (W7 m ρ c)).trans ?_; rw [arg14_at7 m ρ c]
theorem v68_at8 (c : Dev nD) : W8 (F := Ideal) m ρ c (Proc.devRef .tc main_v68) = shapeCast S1x128 (m ((c : Thread nD τ).loc main_arg15)) shapeCasts_S128_S1x128 := by
  refine (h3_v68 (W7 m ρ c)).trans ?_; rw [arg15_at7 m ρ c]

theorem v69_at9 (c : Dev nD) : W9 (F := Ideal) m ρ c (Proc.devRef .tc main_v69) = H2 m c := by
  refine (W9_arr m ρ c 6).trans ((Cert.KernelIdeal.RegionVal.bn3 (V8 m ρ) c _ _ _ _ _ (v64_at8 m ρ c) (v65_at8 m ρ c) (v66_at8 m ρ c) (v67_at8 m ρ c) (v68_at8 m ρ c)).trans ?_)
  show Cert.GCN.bnRelu (F := Ideal) (W8 (F := Ideal) m ρ c (Proc.devRef .tc main_v63)) _ _ _ _ _ = _
  rw [v63_at8 m ρ c]; rfl

theorem v70_at10 (c : Dev nD) : W10 (F := Ideal) m ρ c (Proc.devRef .tc main_v70) = Cert.GCN.dense40 (F := Ideal) (H2 m c) (m ((c : Thread nD τ).loc main_arg6)) := by
  refine (W10_arr m ρ c 2).trans ((Cert.KernelIdeal.RegionVal.dense4 (V9 m ρ) c).trans ?_)
  show Cert.GCN.dense40 (F := Ideal) (W9 (F := Ideal) m ρ c (Proc.devRef .tc main_v69)) (W9 (F := Ideal) m ρ c (Proc.devRef .tc main_arg6)) = _
  rw [v69_at9 m ρ c, arg6_at9 m ρ c]

theorem v83_at11 (c : Dev nD) : W11 (F := Ideal) m ρ c (Proc.devRef .tc main_v83)
    = Cert.GCN.aggOf40 (F := Ideal) (Cert.GCN.dense40 (F := Ideal) (H2 m c) (m ((c : Thread nD τ).loc main_arg6))) (Sx m c) (Dx m c) (Nx m c) := by
  refine (h5_v83 (W10 m ρ c)).trans ?_
  rw [v70_at10 m ρ c, (v3_at10 m ρ c).trans (v3_at3 m ρ c), (v6_at10 m ρ c).trans (v6_at3 m ρ c), (v29_at10 m ρ c).trans (v29_at3 m ρ c)]

theorem v84_at11 (c : Dev nD) : W11 (F := Ideal) m ρ c (Proc.devRef .tc main_v84) = shapeCast S1x40 (m ((c : Thread nD τ).loc main_arg7)) shapeCasts_S40_S1x40 := by
  refine (h5_v84 (W10 m ρ c)).trans ?_; rw [arg7_at10 m ρ c]

/-- THE RESULT: what the last boundary holds at the result buffer is the network of the sixteen arguments. -/
theorem result (c : Dev nD) : W12 (F := Ideal) m ρ c (Proc.devRef .tc main_v85)
    = Cert.GCN.gcn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W12_arr m ρ c 2).trans ((Cert.KernelIdeal.RegionVal.ls5 (V11 m ρ) c _ (v84_at11 m ρ c)).trans ?_)
  show Cert.GCN.logSoftmaxBias (F := Ideal) (W11 (F := Ideal) m ρ c (Proc.devRef .tc main_v83)) _ = _
  rw [v83_at11 m ρ c]; rfl

end Cert.KernelIdeal.Chain

end
-- ==== Proof.RefValue.lean ====
/-
  The reference program's run, read in eleven pieces. Its @main is a straight line of 153 host operations; cut after the
  operations that write the degree's pieces, the per-node factor, the edge weights, and then per layer after the
  neighbourhood sum and after the activation (the last layer's bias, shift by the row maximum and log-sum-exp apart), each piece — read at an arbitrary valuation of the buffers it starts from —
  writes ONE stage of the network as a function of earlier stages and of the arguments: the edge indices and weights, then
  three times "x @ W summed over neighbourhoods" followed by "bias, batch normalisation, ReLU" (twice) or "bias,
  log-softmax" (last). Folding the eleven pieces from the launch memory gives the result buffer the network of the sixteen
  arguments, `Cert.GCN.gcn`; no operation writes an argument.
-/
import proofs.«113381_j65231963292076_1_alg».proof.Proof.RefRun
import proofs.«113381_j65231963292076_1_alg».proof.Proof.Stages
import Idealize.ShloMosaic.Lib.StableHlo.Run

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-! ## The eleven pieces of the operation list -/

abbrev opsA0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

abbrev opsA1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

abbrev opsA2 : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

abbrev opsB1 : List (HloOp τ sig (Elt F)) :=
  [ binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

abbrev opsB2 : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    unary main_arg10 main_v47 (broadcastInDim S1x128 ![1] bcast_S128_S1x128_1 : (⟨S128, .f32⟩ : BufTy).Contents (Elt F) → (⟨S1x128, .f32⟩ : BufTy).Contents (Elt F)),
    unary main_v47 main_v48 (broadcastInDim S100000x128 ![0, 1] bcast_S1x128_S100000x128_0_1 : (⟨S1x128, .f32⟩ : BufTy).Contents (Elt F) → (⟨S100000x128, .f32⟩ : BufTy).Contents (Elt F)),
    binary main_v46 main_v48 main_v49 (subf : (⟨S100000x128, .f32⟩ : BufTy).Contents (Elt F) → (⟨S100000x128, .f32⟩ : BufTy).Contents (Elt F) → (⟨S100000x128, .f32⟩ : BufTy).Contents (Elt F)),
    unary main_arg8 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v51 main_v49 main_v52 (mulf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x3727C5AC#32),
    unary main_cst_9 main_v53 (broadcastInDim S128 ![] bcast_S_S128 : (⟨S_, .f32⟩ : BufTy).Contents (Elt F) → (⟨S128, .f32⟩ : BufTy).Contents (Elt F)),
    binary main_arg11 main_v53 main_v54 (addf : (⟨S128, .f32⟩ : BufTy).Contents (Elt F) → (⟨S128, .f32⟩ : BufTy).Contents (Elt F) → (⟨S128, .f32⟩ : BufTy).Contents (Elt F)),
    unary main_v54 main_v55 (Host.rsqrt : (⟨S128, .f32⟩ : BufTy).Contents (Elt F) → (⟨S128, .f32⟩ : BufTy).Contents (Elt F)),
    unary main_v55 main_v56 (broadcastInDim S1x128 ![1] bcast_S128_S1x128_1 : (⟨S128, .f32⟩ : BufTy).Contents (Elt F) → (⟨S1x128, .f32⟩ : BufTy).Contents (Elt F)),
    unary main_v56 main_v57 (broadcastInDim S100000x128 ![0, 1] bcast_S1x128_S100000x128_0_1 : (⟨S1x128, .f32⟩ : BufTy).Contents (Elt F) → (⟨S100000x128, .f32⟩ : BufTy).Contents (Elt F)),
    binary main_v52 main_v57 main_v58 (mulf : (⟨S100000x128, .f32⟩ : BufTy).Contents (Elt F) → (⟨S100000x128, .f32⟩ : BufTy).Contents (Elt F) → (⟨S100000x128, .f32⟩ : BufTy).Contents (Elt F)),
    unary main_arg9 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v58 main_v60 main_v61 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v61) (TRef.of (T := ⟨S100000x128, .f32⟩) main_call1_v0) (TRef.of (T := ⟨S100000x128, .f32⟩) main_v62) maximumf ]

abbrev opsC1 : List (HloOp τ sig (Elt F)) :=
  [ binary main_v62 main_arg4 main_v63 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_10 (constantI S_ 32 0#32),
    unary main_c_10 main_v64 (broadcastInDim S1700000 ![] bcast_S_S1700000 : (⟨S_, .i32⟩ : BufTy).Contents (Elt F) → (⟨S1700000, .i32⟩ : BufTy).Contents (Elt F)),
    binary main_v3 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v66 (broadcastInDim S1700000 ![] bcast_S_S1700000 : (⟨S_, .i32⟩ : BufTy).Contents (Elt F) → (⟨S1700000, .i32⟩ : BufTy).Contents (Elt F)),
    binary main_v3 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v3 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v63 main_v69 main_v70 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v71 (broadcastInDim S1700000x1 ![0] bcast_S1700000_S1700000x1_0 : (⟨S1700000, .f32⟩ : BufTy).Contents (Elt F) → (⟨S1700000x1, .f32⟩ : BufTy).Contents (Elt F)),
    unary main_v71 main_v72 (broadcastInDim S1700000x128 ![0, 1] bcast_S1700000x1_S1700000x128_0_1 : (⟨S1700000x1, .f32⟩ : BufTy).Contents (Elt F) → (⟨S1700000x128, .f32⟩ : BufTy).Contents (Elt F)),
    binary main_v70 main_v72 main_v73 (mulf : (⟨S1700000x128, .f32⟩ : BufTy).Contents (Elt F) → (⟨S1700000x128, .f32⟩ : BufTy).Contents (Elt F) → (⟨S1700000x128, .f32⟩ : BufTy).Contents (Elt F)),
    nullary main_cst_12 (constant S_ .f32 0x00000000#32),
    unary main_cst_12 main_v74 (broadcastInDim S100000x128 ![] bcast_S_S100000x128 : (⟨S_, .f32⟩ : BufTy).Contents (Elt F) → (⟨S100000x128, .f32⟩ : BufTy).Contents (Elt F)),
    unary main_v6 main_v75 (broadcastInDim S1700000x1 ![0] bcast_S1700000_S1700000x1_0 : (⟨S1700000, .i32⟩ : BufTy).Contents (Elt F) → (⟨S1700000x1, .i32⟩ : BufTy).Contents (Elt F)),
    ternary main_v74 main_v75 main_v73 main_v76 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

abbrev opsC2 : List (HloOp τ sig (Elt F)) :=
  [ unary main_arg5 main_v77 (broadcastInDim S1x128 ![1] bcast_S128_S1x128_1 : (⟨S128, .f32⟩ : BufTy).Contents (Elt F) → (⟨S1x128, .f32⟩ : BufTy).Contents (Elt F)),
    unary main_v77 main_v78 (broadcastInDim S100000x128 ![0, 1] bcast_S1x128_S100000x128_0_1 : (⟨S1x128, .f32⟩ : BufTy).Contents (Elt F) → (⟨S100000x128, .f32⟩ : BufTy).Contents (Elt F)),
    binary main_v76 main_v78 main_v79 (addf : (⟨S100000x128, .f32⟩ : BufTy).Contents (Elt F) → (⟨S100000x128, .f32⟩ : BufTy).Contents (Elt F) → (⟨S100000x128, .f32⟩ : BufTy).Contents (Elt F)),
    unary main_arg14 main_v80 (broadcastInDim S1x128 ![1] bcast_S128_S1x128_1 : (⟨S128, .f32⟩ : BufTy).Contents (Elt F) → (⟨S1x128, .f32⟩ : BufTy).Contents (Elt F)),
    unary main_v80 main_v81 (broadcastInDim S100000x128 ![0, 1] bcast_S1x128_S100000x128_0_1 : (⟨S1x128, .f32⟩ : BufTy).Contents (Elt F) → (⟨S100000x128, .f32⟩ : BufTy).Contents (Elt F)),
    binary main_v79 main_v81 main_v82 (subf : (⟨S100000x128, .f32⟩ : BufTy).Contents (Elt F) → (⟨S100000x128, .f32⟩ : BufTy).Contents (Elt F) → (⟨S100000x128, .f32⟩ : BufTy).Contents (Elt F)),
    unary main_arg12 main_v83 (broadcastInDim S1x128 ![1] bcast_S128_S1x128_1 : (⟨S128, .f32⟩ : BufTy).Contents (Elt F) → (⟨S1x128, .f32⟩ : BufTy).Contents (Elt F)),
    unary main_v83 main_v84 (broadcastInDim S100000x128 ![0, 1] bcast_S1x128_S100000x128_0_1 : (⟨S1x128, .f32⟩ : BufTy).Contents (Elt F) → (⟨S100000x128, .f32⟩ : BufTy).Contents (Elt F)),
    binary main_v84 main_v82 main_v85 (mulf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v86 (broadcastInDim S128 ![] bcast_S_S128 : (⟨S_, .f32⟩ : BufTy).Contents (Elt F) → (⟨S128, .f32⟩ : BufTy).Contents (Elt F)),
    binary main_arg15 main_v86 main_v87 (addf : (⟨S128, .f32⟩ : BufTy).Contents (Elt F) → (⟨S128, .f32⟩ : BufTy).Contents (Elt F) → (⟨S128, .f32⟩ : BufTy).Contents (Elt F)),
    unary main_v87 main_v88 (Host.rsqrt : (⟨S128, .f32⟩ : BufTy).Contents (Elt F) → (⟨S128, .f32⟩ : BufTy).Contents (Elt F)),
    unary main_v88 main_v89 (broadcastInDim S1x128 ![1] bcast_S128_S1x128_1 : (⟨S128, .f32⟩ : BufTy).Contents (Elt F) → (⟨S1x128, .f32⟩ : BufTy).Contents (Elt F)),
    unary main_v89 main_v90 (broadcastInDim S100000x128 ![0, 1] bcast_S1x128_S100000x128_0_1 : (⟨S1x128, .f32⟩ : BufTy).Contents (Elt F) → (⟨S100000x128, .f32⟩ : BufTy).Contents (Elt F)),
    binary main_v85 main_v90 main_v91 (mulf : (⟨S100000x128, .f32⟩ : BufTy).Contents (Elt F) → (⟨S100000x128, .f32⟩ : BufTy).Contents (Elt F) → (⟨S100000x128, .f32⟩ : BufTy).Contents (Elt F)),
    unary main_arg13 main_v92 (broadcastInDim S1x128 ![1] bcast_S128_S1x128_1 : (⟨S128, .f32⟩ : BufTy).Contents (Elt F) → (⟨S1x128, .f32⟩ : BufTy).Contents (Elt F)),
    unary main_v92 main_v93 (broadcastInDim S100000x128 ![0, 1] bcast_S1x128_S100000x128_0_1 : (⟨S1x128, .f32⟩ : BufTy).Contents (Elt F) → (⟨S100000x128, .f32⟩ : BufTy).Contents (Elt F)),
    binary main_v91 main_v93 main_v94 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v94) (TRef.of (T := ⟨S100000x128, .f32⟩) main_call2_v0) (TRef.of (T := ⟨S100000x128, .f32⟩) main_v95) maximumf ]

abbrev opsD1 : List (HloOp τ sig (Elt F)) :=
  [ binary main_v95 main_arg6 main_v96 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    nullary main_c_14 (constantI S_ 32 0#32),
    unary main_c_14 main_v97 (broadcastInDim S1700000 ![] bcast_S_S1700000 : (⟨S_, .i32⟩ : BufTy).Contents (Elt F) → (⟨S1700000, .i32⟩ : BufTy).Contents (Elt F)),
    binary main_v3 main_v97 main_v98 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v99 (broadcastInDim S1700000 ![] bcast_S_S1700000 : (⟨S_, .i32⟩ : BufTy).Contents (Elt F) → (⟨S1700000, .i32⟩ : BufTy).Contents (Elt F)),
    binary main_v3 main_v99 main_v100 (addi : (⟨S1700000, .i32⟩ : BufTy).Contents (Elt F) → (⟨S1700000, .i32⟩ : BufTy).Contents (Elt F) → (⟨S1700000, .i32⟩ : BufTy).Contents (Elt F)),
    ternary main_v98 main_v100 main_v3 main_v101 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v101 main_v102 (broadcastInDim S1700000x1 ![0] bcast_S1700000_S1700000x1_0 : (⟨S1700000, .i32⟩ : BufTy).Contents (Elt F) → (⟨S1700000x1, .i32⟩ : BufTy).Contents (Elt F)),
    binary main_v96 main_v102 main_v103 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v29 main_v104 (broadcastInDim S1700000x1 ![0] bcast_S1700000_S1700000x1_0 : (⟨S1700000, .f32⟩ : BufTy).Contents (Elt F) → (⟨S1700000x1, .f32⟩ : BufTy).Contents (Elt F)),
    unary main_v104 main_v105 (broadcastInDim S1700000x40 ![0, 1] bcast_S1700000x1_S1700000x40_0_1 : (⟨S1700000x1, .f32⟩ : BufTy).Contents (Elt F) → (⟨S1700000x40, .f32⟩ : BufTy).Contents (Elt F)),
    binary main_v103 main_v105 main_v106 (mulf : (⟨S1700000x40, .f32⟩ : BufTy).Contents (Elt F) → (⟨S1700000x40, .f32⟩ : BufTy).Contents (Elt F) → (⟨S1700000x40, .f32⟩ : BufTy).Contents (Elt F)),
    nullary main_cst_16 (constant S_ .f32 0x00000000#32),
    unary main_cst_16 main_v107 (broadcastInDim S100000x40 ![] bcast_S_S100000x40 : (⟨S_, .f32⟩ : BufTy).Contents (Elt F) → (⟨S100000x40, .f32⟩ : BufTy).Contents (Elt F)),
    unary main_v6 main_v108 (broadcastInDim S1700000x1 ![0] bcast_S1700000_S1700000x1_0 : (⟨S1700000, .i32⟩ : BufTy).Contents (Elt F) → (⟨S1700000x1, .i32⟩ : BufTy).Contents (Elt F)),
    ternary main_v107 main_v108 main_v106 main_v109 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)) ]

abbrev opsD2 : List (HloOp τ sig (Elt F)) :=
  [ unary main_arg7 main_v110 (broadcastInDim S1x40 ![1] bcast_S40_S1x40_1 : (⟨S40, .f32⟩ : BufTy).Contents (Elt F) → (⟨S1x40, .f32⟩ : BufTy).Contents (Elt F)),
    unary main_v110 main_v111 (broadcastInDim S100000x40 ![0, 1] bcast_S1x40_S100000x40_0_1 : (⟨S1x40, .f32⟩ : BufTy).Contents (Elt F) → (⟨S100000x40, .f32⟩ : BufTy).Contents (Elt F)),
    binary main_v109 main_v111 main_v112 (addf : (⟨S100000x40, .f32⟩ : BufTy).Contents (Elt F) → (⟨S100000x40, .f32⟩ : BufTy).Contents (Elt F) → (⟨S100000x40, .f32⟩ : BufTy).Contents (Elt F)) ]

abbrev opsD3 : List (HloOp τ sig (Elt F)) :=
  [ TRef.nullary (TRef.of (T := ⟨S_, .f32⟩) main_call3_cst) (constant S_ .f32 0xFF800000#32),
    TRef.binary (TRef.of (T := ⟨S100000x40, .f32⟩) main_v112) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v112) (TRef.of (T := ⟨S100000x40, .f32⟩) main_call3_v4) (TRef.of (T := ⟨S100000x40, .f32⟩) main_call3_v5) subf ]

abbrev opsD4 : List (HloOp τ sig (Elt F)) :=
  [ TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v113) subf ]

/-- The operation list is the eleven pieces in order. -/
theorem ops_split : (ops : List (HloOp τ sig (Elt F))) = opsA0 ++ opsA1 ++ opsA2 ++ opsB1 ++ opsB2 ++ opsC1 ++ opsC2 ++ opsD1 ++ opsD2 ++ opsD3 ++ opsD4 := rfl

/-- Running two lists one after the other is running their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, after_cons, ih]

/-- A buffer that no operation of a list writes is the same after the list as before it. -/
macro "host_keep" ops:ident : tactic => `(tactic|
  exact StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-- Contents carried to a typed reference's buffer and back are the contents. -/
theorem ofBuf_toBuf {T : BufTy} {Val : EltTy → Type} (x : TRef sig T) (v : T.Contents Val) : x.ofBuf (x.toBuf v) = v := by
  obtain ⟨r, h, h2, h3⟩ := x
  subst h
  rfl

/-! ## Each piece, read at an arbitrary valuation `V` of the buffers it starts from -/

section Pieces
variable (V : Valuation τ sig (Elt F))

theorem pA0_v3 : StableHlo.after opsA0 V (Proc.devRef .tc main_v3) = Cert.GCN.srcIdx (F := F) (V (Proc.devRef .tc main_arg1)) := by
  after_results_simp <;> rfl
theorem pA0_v6 : StableHlo.after opsA0 V (Proc.devRef .tc main_v6) = Cert.GCN.dstIdx (F := F) (V (Proc.devRef .tc main_arg1)) := by
  after_results_simp <;> rfl
theorem pA0_v12 : StableHlo.after opsA0 V (Proc.devRef .tc main_v12)
    = cmpf (F := F) .ogt (Cert.GCN.deg (F := F) (Cert.GCN.dstIdx (F := F) (V (Proc.devRef .tc main_arg1))))
        (broadcastInDim S100000 ![] bcast_S_S100000 (constant S_ .f32 0x00000000#32)) := by
  after_results_simp <;> rfl
theorem pA0_v13 : StableHlo.after opsA0 V (Proc.devRef .tc main_v13)
    = Host.rsqrt (F := F) (φ := .f32) (Cert.GCN.deg (F := F) (Cert.GCN.dstIdx (F := F) (V (Proc.devRef .tc main_arg1)))) := by
  after_results_simp <;> rfl
theorem pA0_cst2 : StableHlo.after opsA0 V (Proc.devRef .tc main_cst_2) = constant (F := F) S_ .f32 0x00000000#32 := by
  after_results_simp <;> rfl
theorem pA1_v14 : StableHlo.after opsA1 V (Proc.devRef .tc main_v14)
    = select (V (Proc.devRef .tc main_v12)) (V (Proc.devRef .tc main_v13)) (broadcastInDim S100000 ![] bcast_S_S100000 (id (V (Proc.devRef .tc main_cst_2)))) := by
  after_results_simp <;> (try simp only [ofBuf_toBuf]) <;> rfl
theorem pA2_v29 : StableHlo.after opsA2 V (Proc.devRef .tc main_v29)
    = Cert.GCN.normOf (F := F) (V (Proc.devRef .tc main_v14)) (V (Proc.devRef .tc main_v3)) (V (Proc.devRef .tc main_v6)) := by
  after_results_simp <;> rfl

theorem pB1_v43 : StableHlo.after opsB1 V (Proc.devRef .tc main_v43)
    = Cert.GCN.aggOf128 (F := F) (Cert.GCN.dense128 (F := F) (V (Proc.devRef .tc main_arg0)) (V (Proc.devRef .tc main_arg2))) (V (Proc.devRef .tc main_v3)) (V (Proc.devRef .tc main_v6)) (V (Proc.devRef .tc main_v29)) := by
  after_results_simp <;> rfl
theorem pB2_v62 : StableHlo.after opsB2 V (Proc.devRef .tc main_v62)
    = Cert.GCN.bnRelu (F := F) (V (Proc.devRef .tc main_v43)) (V (Proc.devRef .tc main_arg3)) (V (Proc.devRef .tc main_arg8)) (V (Proc.devRef .tc main_arg9)) (V (Proc.devRef .tc main_arg10)) (V (Proc.devRef .tc main_arg11)) := by
  after_results_simp <;> (try simp only [ofBuf_toBuf]) <;> rfl
theorem pC1_v76 : StableHlo.after opsC1 V (Proc.devRef .tc main_v76)
    = Cert.GCN.aggOf128 (F := F) (Cert.GCN.dense128 (F := F) (V (Proc.devRef .tc main_v62)) (V (Proc.devRef .tc main_arg4))) (V (Proc.devRef .tc main_v3)) (V (Proc.devRef .tc main_v6)) (V (Proc.devRef .tc main_v29)) := by
  after_results_simp <;> rfl
theorem pC2_v95 : StableHlo.after opsC2 V (Proc.devRef .tc main_v95)
    = Cert.GCN.bnRelu (F := F) (V (Proc.devRef .tc main_v76)) (V (Proc.devRef .tc main_arg5)) (V (Proc.devRef .tc main_arg12)) (V (Proc.devRef .tc main_arg13)) (V (Proc.devRef .tc main_arg14)) (V (Proc.devRef .tc main_arg15)) := by
  after_results_simp <;> (try simp only [ofBuf_toBuf]) <;> rfl
theorem pD1_v109 : StableHlo.after opsD1 V (Proc.devRef .tc main_v109)
    = Cert.GCN.aggOf40 (F := F) (Cert.GCN.dense40 (F := F) (V (Proc.devRef .tc main_v95)) (V (Proc.devRef .tc main_arg6))) (V (Proc.devRef .tc main_v3)) (V (Proc.devRef .tc main_v6)) (V (Proc.devRef .tc main_v29)) := by
  after_results_simp <;> rfl
theorem pD2_v112 : StableHlo.after opsD2 V (Proc.devRef .tc main_v112)
    = addf (V (Proc.devRef .tc main_v109)) (Cert.GCN.rows40 (F := F) (V (Proc.devRef .tc main_arg7))) := by
  after_results_simp <;> rfl
theorem pD3_v5 : StableHlo.after opsD3 V (Proc.devRef .tc main_call3_v5) = Cert.GCN.shifted (F := F) (V (Proc.devRef .tc main_v112)) := by
  after_results_simp <;> (try simp only [ofBuf_toBuf]) <;> rfl
theorem pD4_v113 : StableHlo.after opsD4 V (Proc.devRef .tc main_v113)
    = subf (V (Proc.devRef .tc main_call3_v5)) (Cert.GCN.cols40 (F := F) (Host.log (Cert.GCN.col (F := F)
        (Host.reduceAdd (Host.exp (V (Proc.devRef .tc main_call3_v5))) (constant S_ .f32 0x00000000#32) reducesTo_S100000x40_S100000_d1 h_S_)))) := by
  after_results_simp <;> (try simp only [ofBuf_toBuf]) <;> rfl

end Pieces

/-! ## The buffer contents after each piece, from the launch memory -/

variable (m : (ℓ : Loc nD τ sig) → Buf (Elt F) ℓ)

abbrev R0 (c : Dev nD) : Valuation τ sig (Elt F) := launchContents m c
abbrev R1 (c : Dev nD) : Valuation τ sig (Elt F) := StableHlo.after opsA0 (R0 (F := F) m c)
abbrev R2 (c : Dev nD) : Valuation τ sig (Elt F) := StableHlo.after opsA1 (R1 (F := F) m c)
abbrev R3 (c : Dev nD) : Valuation τ sig (Elt F) := StableHlo.after opsA2 (R2 (F := F) m c)
abbrev R4 (c : Dev nD) : Valuation τ sig (Elt F) := StableHlo.after opsB1 (R3 (F := F) m c)
abbrev R5 (c : Dev nD) : Valuation τ sig (Elt F) := StableHlo.after opsB2 (R4 (F := F) m c)
abbrev R6 (c : Dev nD) : Valuation τ sig (Elt F) := StableHlo.after opsC1 (R5 (F := F) m c)
abbrev R7 (c : Dev nD) : Valuation τ sig (Elt F) := StableHlo.after opsC2 (R6 (F := F) m c)
abbrev R8 (c : Dev nD) : Valuation τ sig (Elt F) := StableHlo.after opsD1 (R7 (F := F) m c)
abbrev R9 (c : Dev nD) : Valuation τ sig (Elt F) := StableHlo.after opsD2 (R8 (F := F) m c)
abbrev R10 (c : Dev nD) : Valuation τ sig (Elt F) := StableHlo.after opsD3 (R9 (F := F) m c)
abbrev R11 (c : Dev nD) : Valuation τ sig (Elt F) := StableHlo.after opsD4 (R10 (F := F) m c)

/-- After all 153 operations the buffers hold what the last piece leaves. -/
theorem after_ops (c : Dev nD) : StableHlo.after (ops (F := F)) (launchContents m c) = R11 (F := F) m c := by
  rw [ops_split]; simp only [after_append]

/-! ## Buffers kept between pieces -/

theorem arg0_at3 (c : Dev nD) : R3 (F := F) m c (Proc.devRef .tc main_arg0) = m ((c.tc : Thread nD τ).loc main_arg0) :=
  calc R3 (F := F) m c (Proc.devRef .tc main_arg0)
    _ = R2 (F := F) m c (Proc.devRef .tc main_arg0) := by host_keep opsA2
    _ = R1 (F := F) m c (Proc.devRef .tc main_arg0) := by host_keep opsA1
    _ = R0 (F := F) m c (Proc.devRef .tc main_arg0) := by host_keep opsA0
    _ = m ((c.tc : Thread nD τ).loc main_arg0) := rfl

theorem arg2_at3 (c : Dev nD) : R3 (F := F) m c (Proc.devRef .tc main_arg2) = m ((c.tc : Thread nD τ).loc main_arg2) :=
  calc R3 (F := F) m c (Proc.devRef .tc main_arg2)
    _ = R2 (F := F) m c (Proc.devRef .tc main_arg2) := by host_keep opsA2
    _ = R1 (F := F) m c (Proc.devRef .tc main_arg2) := by host_keep opsA1
    _ = R0 (F := F) m c (Proc.devRef .tc main_arg2) := by host_keep opsA0
    _ = m ((c.tc : Thread nD τ).loc main_arg2) := rfl

theorem arg3_at4 (c : Dev nD) : R4 (F := F) m c (Proc.devRef .tc main_arg3) = m ((c.tc : Thread nD τ).loc main_arg3) :=
  calc R4 (F := F) m c (Proc.devRef .tc main_arg3)
    _ = R3 (F := F) m c (Proc.devRef .tc main_arg3) := by host_keep opsB1
    _ = R2 (F := F) m c (Proc.devRef .tc main_arg3) := by host_keep opsA2
    _ = R1 (F := F) m c (Proc.devRef .tc main_arg3) := by host_keep opsA1
    _ = R0 (F := F) m c (Proc.devRef .tc main_arg3) := by host_keep opsA0
    _ = m ((c.tc : Thread nD τ).loc main_arg3) := rfl

theorem arg8_at4 (c : Dev nD) : R4 (F := F) m c (Proc.devRef .tc main_arg8) = m ((c.tc : Thread nD τ).loc main_arg8) :=
  calc R4 (F := F) m c (Proc.devRef .tc main_arg8)
    _ = R3 (F := F) m c (Proc.devRef .tc main_arg8) := by host_keep opsB1
    _ = R2 (F := F) m c (Proc.devRef .tc main_arg8) := by host_keep opsA2
    _ = R1 (F := F) m c (Proc.devRef .tc main_arg8) := by host_keep opsA1
    _ = R0 (F := F) m c (Proc.devRef .tc main_arg8) := by host_keep opsA0
    _ = m ((c.tc : Thread nD τ).loc main_arg8) := rfl

theorem arg9_at4 (c : Dev nD) : R4 (F := F) m c (Proc.devRef .tc main_arg9) = m ((c.tc : Thread nD τ).loc main_arg9) :=
  calc R4 (F := F) m c (Proc.devRef .tc main_arg9)
    _ = R3 (F := F) m c (Proc.devRef .tc main_arg9) := by host_keep opsB1
    _ = R2 (F := F) m c (Proc.devRef .tc main_arg9) := by host_keep opsA2
    _ = R1 (F := F) m c (Proc.devRef .tc main_arg9) := by host_keep opsA1
    _ = R0 (F := F) m c (Proc.devRef .tc main_arg9) := by host_keep opsA0
    _ = m ((c.tc : Thread nD τ).loc main_arg9) := rfl

theorem arg10_at4 (c : Dev nD) : R4 (F := F) m c (Proc.devRef .tc main_arg10) = m ((c.tc : Thread nD τ).loc main_arg10) :=
  calc R4 (F := F) m c (Proc.devRef .tc main_arg10)
    _ = R3 (F := F) m c (Proc.devRef .tc main_arg10) := by host_keep opsB1
    _ = R2 (F := F) m c (Proc.devRef .tc main_arg10) := by host_keep opsA2
    _ = R1 (F := F) m c (Proc.devRef .tc main_arg10) := by host_keep opsA1
    _ = R0 (F := F) m c (Proc.devRef .tc main_arg10) := by host_keep opsA0
    _ = m ((c.tc : Thread nD τ).loc main_arg10) := rfl

theorem arg11_at4 (c : Dev nD) : R4 (F := F) m c (Proc.devRef .tc main_arg11) = m ((c.tc : Thread nD τ).loc main_arg11) :=
  calc R4 (F := F) m c (Proc.devRef .tc main_arg11)
    _ = R3 (F := F) m c (Proc.devRef .tc main_arg11) := by host_keep opsB1
    _ = R2 (F := F) m c (Proc.devRef .tc main_arg11) := by host_keep opsA2
    _ = R1 (F := F) m c (Proc.devRef .tc main_arg11) := by host_keep opsA1
    _ = R0 (F := F) m c (Proc.devRef .tc main_arg11) := by host_keep opsA0
    _ = m ((c.tc : Thread nD τ).loc main_arg11) := rfl

theorem arg4_at5 (c : Dev nD) : R5 (F := F) m c (Proc.devRef .tc main_arg4) = m ((c.tc : Thread nD τ).loc main_arg4) :=
  calc R5 (F := F) m c (Proc.devRef .tc main_arg4)
    _ = R4 (F := F) m c (Proc.devRef .tc main_arg4) := by host_keep opsB2
    _ = R3 (F := F) m c (Proc.devRef .tc main_arg4) := by host_keep opsB1
    _ = R2 (F := F) m c (Proc.devRef .tc main_arg4) := by host_keep opsA2
    _ = R1 (F := F) m c (Proc.devRef .tc main_arg4) := by host_keep opsA1
    _ = R0 (F := F) m c (Proc.devRef .tc main_arg4) := by host_keep opsA0
    _ = m ((c.tc : Thread nD τ).loc main_arg4) := rfl

theorem arg5_at6 (c : Dev nD) : R6 (F := F) m c (Proc.devRef .tc main_arg5) = m ((c.tc : Thread nD τ).loc main_arg5) :=
  calc R6 (F := F) m c (Proc.devRef .tc main_arg5)
    _ = R5 (F := F) m c (Proc.devRef .tc main_arg5) := by host_keep opsC1
    _ = R4 (F := F) m c (Proc.devRef .tc main_arg5) := by host_keep opsB2
    _ = R3 (F := F) m c (Proc.devRef .tc main_arg5) := by host_keep opsB1
    _ = R2 (F := F) m c (Proc.devRef .tc main_arg5) := by host_keep opsA2
    _ = R1 (F := F) m c (Proc.devRef .tc main_arg5) := by host_keep opsA1
    _ = R0 (F := F) m c (Proc.devRef .tc main_arg5) := by host_keep opsA0
    _ = m ((c.tc : Thread nD τ).loc main_arg5) := rfl

theorem arg12_at6 (c : Dev nD) : R6 (F := F) m c (Proc.devRef .tc main_arg12) = m ((c.tc : Thread nD τ).loc main_arg12) :=
  calc R6 (F := F) m c (Proc.devRef .tc main_arg12)
    _ = R5 (F := F) m c (Proc.devRef .tc main_arg12) := by host_keep opsC1
    _ = R4 (F := F) m c (Proc.devRef .tc main_arg12) := by host_keep opsB2
    _ = R3 (F := F) m c (Proc.devRef .tc main_arg12) := by host_keep opsB1
    _ = R2 (F := F) m c (Proc.devRef .tc main_arg12) := by host_keep opsA2
    _ = R1 (F := F) m c (Proc.devRef .tc main_arg12) := by host_keep opsA1
    _ = R0 (F := F) m c (Proc.devRef .tc main_arg12) := by host_keep opsA0
    _ = m ((c.tc : Thread nD τ).loc main_arg12) := rfl

theorem arg13_at6 (c : Dev nD) : R6 (F := F) m c (Proc.devRef .tc main_arg13) = m ((c.tc : Thread nD τ).loc main_arg13) :=
  calc R6 (F := F) m c (Proc.devRef .tc main_arg13)
    _ = R5 (F := F) m c (Proc.devRef .tc main_arg13) := by host_keep opsC1
    _ = R4 (F := F) m c (Proc.devRef .tc main_arg13) := by host_keep opsB2
    _ = R3 (F := F) m c (Proc.devRef .tc main_arg13) := by host_keep opsB1
    _ = R2 (F := F) m c (Proc.devRef .tc main_arg13) := by host_keep opsA2
    _ = R1 (F := F) m c (Proc.devRef .tc main_arg13) := by host_keep opsA1
    _ = R0 (F := F) m c (Proc.devRef .tc main_arg13) := by host_keep opsA0
    _ = m ((c.tc : Thread nD τ).loc main_arg13) := rfl

theorem arg14_at6 (c : Dev nD) : R6 (F := F) m c (Proc.devRef .tc main_arg14) = m ((c.tc : Thread nD τ).loc main_arg14) :=
  calc R6 (F := F) m c (Proc.devRef .tc main_arg14)
    _ = R5 (F := F) m c (Proc.devRef .tc main_arg14) := by host_keep opsC1
    _ = R4 (F := F) m c (Proc.devRef .tc main_arg14) := by host_keep opsB2
    _ = R3 (F := F) m c (Proc.devRef .tc main_arg14) := by host_keep opsB1
    _ = R2 (F := F) m c (Proc.devRef .tc main_arg14) := by host_keep opsA2
    _ = R1 (F := F) m c (Proc.devRef .tc main_arg14) := by host_keep opsA1
    _ = R0 (F := F) m c (Proc.devRef .tc main_arg14) := by host_keep opsA0
    _ = m ((c.tc : Thread nD τ).loc main_arg14) := rfl

theorem arg15_at6 (c : Dev nD) : R6 (F := F) m c (Proc.devRef .tc main_arg15) = m ((c.tc : Thread nD τ).loc main_arg15) :=
  calc R6 (F := F) m c (Proc.devRef .tc main_arg15)
    _ = R5 (F := F) m c (Proc.devRef .tc main_arg15) := by host_keep opsC1
    _ = R4 (F := F) m c (Proc.devRef .tc main_arg15) := by host_keep opsB2
    _ = R3 (F := F) m c (Proc.devRef .tc main_arg15) := by host_keep opsB1
    _ = R2 (F := F) m c (Proc.devRef .tc main_arg15) := by host_keep opsA2
    _ = R1 (F := F) m c (Proc.devRef .tc main_arg15) := by host_keep opsA1
    _ = R0 (F := F) m c (Proc.devRef .tc main_arg15) := by host_keep opsA0
    _ = m ((c.tc : Thread nD τ).loc main_arg15) := rfl

theorem arg6_at7 (c : Dev nD) : R7 (F := F) m c (Proc.devRef .tc main_arg6) = m ((c.tc : Thread nD τ).loc main_arg6) :=
  calc R7 (F := F) m c (Proc.devRef .tc main_arg6)
    _ = R6 (F := F) m c (Proc.devRef .tc main_arg6) := by host_keep opsC2
    _ = R5 (F := F) m c (Proc.devRef .tc main_arg6) := by host_keep opsC1
    _ = R4 (F := F) m c (Proc.devRef .tc main_arg6) := by host_keep opsB2
    _ = R3 (F := F) m c (Proc.devRef .tc main_arg6) := by host_keep opsB1
    _ = R2 (F := F) m c (Proc.devRef .tc main_arg6) := by host_keep opsA2
    _ = R1 (F := F) m c (Proc.devRef .tc main_arg6) := by host_keep opsA1
    _ = R0 (F := F) m c (Proc.devRef .tc main_arg6) := by host_keep opsA0
    _ = m ((c.tc : Thread nD τ).loc main_arg6) := rfl

theorem arg7_at8 (c : Dev nD) : R8 (F := F) m c (Proc.devRef .tc main_arg7) = m ((c.tc : Thread nD τ).loc main_arg7) :=
  calc R8 (F := F) m c (Proc.devRef .tc main_arg7)
    _ = R7 (F := F) m c (Proc.devRef .tc main_arg7) := by host_keep opsD1
    _ = R6 (F := F) m c (Proc.devRef .tc main_arg7) := by host_keep opsC2
    _ = R5 (F := F) m c (Proc.devRef .tc main_arg7) := by host_keep opsC1
    _ = R4 (F := F) m c (Proc.devRef .tc main_arg7) := by host_keep opsB2
    _ = R3 (F := F) m c (Proc.devRef .tc main_arg7) := by host_keep opsB1
    _ = R2 (F := F) m c (Proc.devRef .tc main_arg7) := by host_keep opsA2
    _ = R1 (F := F) m c (Proc.devRef .tc main_arg7) := by host_keep opsA1
    _ = R0 (F := F) m c (Proc.devRef .tc main_arg7) := by host_keep opsA0
    _ = m ((c.tc : Thread nD τ).loc main_arg7) := rfl

theorem v3_at5 (c : Dev nD) : R5 (F := F) m c (Proc.devRef .tc main_v3) = R3 (F := F) m c (Proc.devRef .tc main_v3) :=
  calc R5 (F := F) m c (Proc.devRef .tc main_v3)
    _ = R4 (F := F) m c (Proc.devRef .tc main_v3) := by host_keep opsB2
    _ = R3 (F := F) m c (Proc.devRef .tc main_v3) := by host_keep opsB1

theorem v6_at5 (c : Dev nD) : R5 (F := F) m c (Proc.devRef .tc main_v6) = R3 (F := F) m c (Proc.devRef .tc main_v6) :=
  calc R5 (F := F) m c (Proc.devRef .tc main_v6)
    _ = R4 (F := F) m c (Proc.devRef .tc main_v6) := by host_keep opsB2
    _ = R3 (F := F) m c (Proc.devRef .tc main_v6) := by host_keep opsB1

theorem v29_at5 (c : Dev nD) : R5 (F := F) m c (Proc.devRef .tc main_v29) = R3 (F := F) m c (Proc.devRef .tc main_v29) :=
  calc R5 (F := F) m c (Proc.devRef .tc main_v29)
    _ = R4 (F := F) m c (Proc.devRef .tc main_v29) := by host_keep opsB2
    _ = R3 (F := F) m c (Proc.devRef .tc main_v29) := by host_keep opsB1

theorem v3_at7 (c : Dev nD) : R7 (F := F) m c (Proc.devRef .tc main_v3) = R3 (F := F) m c (Proc.devRef .tc main_v3) :=
  calc R7 (F := F) m c (Proc.devRef .tc main_v3)
    _ = R6 (F := F) m c (Proc.devRef .tc main_v3) := by host_keep opsC2
    _ = R5 (F := F) m c (Proc.devRef .tc main_v3) := by host_keep opsC1
    _ = R4 (F := F) m c (Proc.devRef .tc main_v3) := by host_keep opsB2
    _ = R3 (F := F) m c (Proc.devRef .tc main_v3) := by host_keep opsB1

theorem v6_at7 (c : Dev nD) : R7 (F := F) m c (Proc.devRef .tc main_v6) = R3 (F := F) m c (Proc.devRef .tc main_v6) :=
  calc R7 (F := F) m c (Proc.devRef .tc main_v6)
    _ = R6 (F := F) m c (Proc.devRef .tc main_v6) := by host_keep opsC2
    _ = R5 (F := F) m c (Proc.devRef .tc main_v6) := by host_keep opsC1
    _ = R4 (F := F) m c (Proc.devRef .tc main_v6) := by host_keep opsB2
    _ = R3 (F := F) m c (Proc.devRef .tc main_v6) := by host_keep opsB1

theorem v29_at7 (c : Dev nD) : R7 (F := F) m c (Proc.devRef .tc main_v29) = R3 (F := F) m c (Proc.devRef .tc main_v29) :=
  calc R7 (F := F) m c (Proc.devRef .tc main_v29)
    _ = R6 (F := F) m c (Proc.devRef .tc main_v29) := by host_keep opsC2
    _ = R5 (F := F) m c (Proc.devRef .tc main_v29) := by host_keep opsC1
    _ = R4 (F := F) m c (Proc.devRef .tc main_v29) := by host_keep opsB2
    _ = R3 (F := F) m c (Proc.devRef .tc main_v29) := by host_keep opsB1

/-! ## The stages -/

/-- The edge list as launched, and the edge sources, targets and weights. -/
abbrev ei (c : Dev nD) := m ((c.tc : Thread nD τ).loc main_arg1)
abbrev Sx (c : Dev nD) := Cert.GCN.srcIdx (F := F) (ei m c)
abbrev Dx (c : Dev nD) := Cert.GCN.dstIdx (F := F) (ei m c)
abbrev Nx (c : Dev nD) := Cert.GCN.norm (F := F) (Sx m c) (Dx m c)

theorem v3_at3 (c : Dev nD) : R3 (F := F) m c (Proc.devRef .tc main_v3) = Sx m c :=
  calc R3 (F := F) m c (Proc.devRef .tc main_v3)
    _ = R2 (F := F) m c (Proc.devRef .tc main_v3) := by host_keep opsA2
    _ = R1 (F := F) m c (Proc.devRef .tc main_v3) := by host_keep opsA1
    _ = _ := pA0_v3 (R0 m c)
theorem v6_at3 (c : Dev nD) : R3 (F := F) m c (Proc.devRef .tc main_v6) = Dx m c :=
  calc R3 (F := F) m c (Proc.devRef .tc main_v6)
    _ = R2 (F := F) m c (Proc.devRef .tc main_v6) := by host_keep opsA2
    _ = R1 (F := F) m c (Proc.devRef .tc main_v6) := by host_keep opsA1
    _ = _ := pA0_v6 (R0 m c)
theorem v14_at2 (c : Dev nD) : R2 (F := F) m c (Proc.devRef .tc main_v14) = Cert.GCN.dinv (F := F) (Dx m c) := by
  refine (pA1_v14 (R1 m c)).trans ?_
  rw [show R1 (F := F) m c (Proc.devRef .tc main_v12) = _ from pA0_v12 (R0 m c), show R1 (F := F) m c (Proc.devRef .tc main_v13) = _ from pA0_v13 (R0 m c),
    show R1 (F := F) m c (Proc.devRef .tc main_cst_2) = _ from pA0_cst2 (R0 m c)]
  rfl
theorem v29_at3 (c : Dev nD) : R3 (F := F) m c (Proc.devRef .tc main_v29) = Nx m c := by
  refine (pA2_v29 (R2 m c)).trans ?_
  rw [v14_at2 m c,
    show R2 (F := F) m c (Proc.devRef .tc main_v3) = Sx m c from (by host_keep opsA1 : R2 (F := F) m c (Proc.devRef .tc main_v3) = R1 (F := F) m c (Proc.devRef .tc main_v3)).trans (pA0_v3 (R0 m c)),
    show R2 (F := F) m c (Proc.devRef .tc main_v6) = Dx m c from (by host_keep opsA1 : R2 (F := F) m c (Proc.devRef .tc main_v6) = R1 (F := F) m c (Proc.devRef .tc main_v6)).trans (pA0_v6 (R0 m c))]
  rfl

/-- The first and second layers' features. -/
def H1 (c : Dev nD) := Cert.GCN.bnRelu (F := F)
  (Cert.GCN.aggOf128 (F := F) (Cert.GCN.dense128 (F := F) (m ((c.tc : Thread nD τ).loc main_arg0)) (m ((c.tc : Thread nD τ).loc main_arg2))) (Sx m c) (Dx m c) (Nx m c)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11))
def H2 (c : Dev nD) := Cert.GCN.bnRelu (F := F)
  (Cert.GCN.aggOf128 (F := F) (Cert.GCN.dense128 (F := F) (H1 m c) (m ((c.tc : Thread nD τ).loc main_arg4))) (Sx m c) (Dx m c) (Nx m c)) (m ((c.tc : Thread nD τ).loc main_arg5)) (m ((c.tc : Thread nD τ).loc main_arg12)) (m ((c.tc : Thread nD τ).loc main_arg13)) (m ((c.tc : Thread nD τ).loc main_arg14)) (m ((c.tc : Thread nD τ).loc main_arg15))

theorem v43_at4 (c : Dev nD) : R4 (F := F) m c (Proc.devRef .tc main_v43)
    = Cert.GCN.aggOf128 (F := F) (Cert.GCN.dense128 (F := F) (m ((c.tc : Thread nD τ).loc main_arg0)) (m ((c.tc : Thread nD τ).loc main_arg2))) (Sx m c) (Dx m c) (Nx m c) := by
  refine (pB1_v43 (R3 m c)).trans ?_
  rw [arg0_at3 m c, arg2_at3 m c, v3_at3 m c, v6_at3 m c, v29_at3 m c]
theorem v62_at5 (c : Dev nD) : R5 (F := F) m c (Proc.devRef .tc main_v62) = H1 m c := by
  refine (pB2_v62 (R4 m c)).trans ?_
  rw [v43_at4 m c, arg3_at4 m c, arg8_at4 m c, arg9_at4 m c, arg10_at4 m c, arg11_at4 m c]; rfl
theorem v76_at6 (c : Dev nD) : R6 (F := F) m c (Proc.devRef .tc main_v76)
    = Cert.GCN.aggOf128 (F := F) (Cert.GCN.dense128 (F := F) (H1 m c) (m ((c.tc : Thread nD τ).loc main_arg4))) (Sx m c) (Dx m c) (Nx m c) := by
  refine (pC1_v76 (R5 m c)).trans ?_
  rw [v62_at5 m c, arg4_at5 m c, (v3_at5 m c).trans (v3_at3 m c), (v6_at5 m c).trans (v6_at3 m c), (v29_at5 m c).trans (v29_at3 m c)]
theorem v95_at7 (c : Dev nD) : R7 (F := F) m c (Proc.devRef .tc main_v95) = H2 m c := by
  refine (pC2_v95 (R6 m c)).trans ?_
  rw [v76_at6 m c, arg5_at6 m c, arg12_at6 m c, arg13_at6 m c, arg14_at6 m c, arg15_at6 m c]; rfl
theorem v109_at8 (c : Dev nD) : R8 (F := F) m c (Proc.devRef .tc main_v109)
    = Cert.GCN.aggOf40 (F := F) (Cert.GCN.dense40 (F := F) (H2 m c) (m ((c.tc : Thread nD τ).loc main_arg6))) (Sx m c) (Dx m c) (Nx m c) := by
  refine (pD1_v109 (R7 m c)).trans ?_
  rw [v95_at7 m c, arg6_at7 m c, (v3_at7 m c).trans (v3_at3 m c), (v6_at7 m c).trans (v6_at3 m c), (v29_at7 m c).trans (v29_at3 m c)]

/-- THE RESULT: after the 153 operations the result buffer holds the network of the sixteen arguments. -/
theorem result (c : Dev nD) : StableHlo.after (ops (F := F)) (launchContents m c) (Proc.devRef .tc main_v113)
    = Cert.GCN.gcn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  rw [after_ops m c]
  refine (pD4_v113 (R10 m c)).trans ?_
  rw [show R10 (F := F) m c (Proc.devRef .tc main_call3_v5) = Cert.GCN.shifted (F := F) (addf (Cert.GCN.aggOf40 (F := F) (Cert.GCN.dense40 (F := F) (H2 m c) (m ((c.tc : Thread nD τ).loc main_arg6))) (Sx m c) (Dx m c) (Nx m c)) (Cert.GCN.rows40 (F := F) (m ((c.tc : Thread nD τ).loc main_arg7)))) from
    (pD3_v5 (R9 m c)).trans (by
      rw [show R9 (F := F) m c (Proc.devRef .tc main_v112) = _ from (pD2_v112 (R8 m c)).trans (by rw [v109_at8 m c, arg7_at8 m c])])]
  rfl

/-- No operation writes an argument. -/
theorem arg0_end (c : Dev nD) : StableHlo.after (ops (F := F)) (launchContents m c) (Proc.devRef .tc main_arg0) = m ((c.tc : Thread nD τ).loc main_arg0) :=
  (by host_keep ops : StableHlo.after (ops (F := F)) (launchContents m c) (Proc.devRef .tc main_arg0) = launchContents m c (Proc.devRef .tc main_arg0)).trans rfl
theorem arg1_end (c : Dev nD) : StableHlo.after (ops (F := F)) (launchContents m c) (Proc.devRef .tc main_arg1) = m ((c.tc : Thread nD τ).loc main_arg1) :=
  (by host_keep ops : StableHlo.after (ops (F := F)) (launchContents m c) (Proc.devRef .tc main_arg1) = launchContents m c (Proc.devRef .tc main_arg1)).trans rfl
theorem arg2_end (c : Dev nD) : StableHlo.after (ops (F := F)) (launchContents m c) (Proc.devRef .tc main_arg2) = m ((c.tc : Thread nD τ).loc main_arg2) :=
  (by host_keep ops : StableHlo.after (ops (F := F)) (launchContents m c) (Proc.devRef .tc main_arg2) = launchContents m c (Proc.devRef .tc main_arg2)).trans rfl
theorem arg3_end (c : Dev nD) : StableHlo.after (ops (F := F)) (launchContents m c) (Proc.devRef .tc main_arg3) = m ((c.tc : Thread nD τ).loc main_arg3) :=
  (by host_keep ops : StableHlo.after (ops (F := F)) (launchContents m c) (Proc.devRef .tc main_arg3) = launchContents m c (Proc.devRef .tc main_arg3)).trans rfl
theorem arg4_end (c : Dev nD) : StableHlo.after (ops (F := F)) (launchContents m c) (Proc.devRef .tc main_arg4) = m ((c.tc : Thread nD τ).loc main_arg4) :=
  (by host_keep ops : StableHlo.after (ops (F := F)) (launchContents m c) (Proc.devRef .tc main_arg4) = launchContents m c (Proc.devRef .tc main_arg4)).trans rfl
theorem arg5_end (c : Dev nD) : StableHlo.after (ops (F := F)) (launchContents m c) (Proc.devRef .tc main_arg5) = m ((c.tc : Thread nD τ).loc main_arg5) :=
  (by host_keep ops : StableHlo.after (ops (F := F)) (launchContents m c) (Proc.devRef .tc main_arg5) = launchContents m c (Proc.devRef .tc main_arg5)).trans rfl
theorem arg6_end (c : Dev nD) : StableHlo.after (ops (F := F)) (launchContents m c) (Proc.devRef .tc main_arg6) = m ((c.tc : Thread nD τ).loc main_arg6) :=
  (by host_keep ops : StableHlo.after (ops (F := F)) (launchContents m c) (Proc.devRef .tc main_arg6) = launchContents m c (Proc.devRef .tc main_arg6)).trans rfl
theorem arg7_end (c : Dev nD) : StableHlo.after (ops (F := F)) (launchContents m c) (Proc.devRef .tc main_arg7) = m ((c.tc : Thread nD τ).loc main_arg7) :=
  (by host_keep ops : StableHlo.after (ops (F := F)) (launchContents m c) (Proc.devRef .tc main_arg7) = launchContents m c (Proc.devRef .tc main_arg7)).trans rfl
theorem arg8_end (c : Dev nD) : StableHlo.after (ops (F := F)) (launchContents m c) (Proc.devRef .tc main_arg8) = m ((c.tc : Thread nD τ).loc main_arg8) :=
  (by host_keep ops : StableHlo.after (ops (F := F)) (launchContents m c) (Proc.devRef .tc main_arg8) = launchContents m c (Proc.devRef .tc main_arg8)).trans rfl
theorem arg9_end (c : Dev nD) : StableHlo.after (ops (F := F)) (launchContents m c) (Proc.devRef .tc main_arg9) = m ((c.tc : Thread nD τ).loc main_arg9) :=
  (by host_keep ops : StableHlo.after (ops (F := F)) (launchContents m c) (Proc.devRef .tc main_arg9) = launchContents m c (Proc.devRef .tc main_arg9)).trans rfl
theorem arg10_end (c : Dev nD) : StableHlo.after (ops (F := F)) (launchContents m c) (Proc.devRef .tc main_arg10) = m ((c.tc : Thread nD τ).loc main_arg10) :=
  (by host_keep ops : StableHlo.after (ops (F := F)) (launchContents m c) (Proc.devRef .tc main_arg10) = launchContents m c (Proc.devRef .tc main_arg10)).trans rfl
theorem arg11_end (c : Dev nD) : StableHlo.after (ops (F := F)) (launchContents m c) (Proc.devRef .tc main_arg11) = m ((c.tc : Thread nD τ).loc main_arg11) :=
  (by host_keep ops : StableHlo.after (ops (F := F)) (launchContents m c) (Proc.devRef .tc main_arg11) = launchContents m c (Proc.devRef .tc main_arg11)).trans rfl
theorem arg12_end (c : Dev nD) : StableHlo.after (ops (F := F)) (launchContents m c) (Proc.devRef .tc main_arg12) = m ((c.tc : Thread nD τ).loc main_arg12) :=
  (by host_keep ops : StableHlo.after (ops (F := F)) (launchContents m c) (Proc.devRef .tc main_arg12) = launchContents m c (Proc.devRef .tc main_arg12)).trans rfl
theorem arg13_end (c : Dev nD) : StableHlo.after (ops (F := F)) (launchContents m c) (Proc.devRef .tc main_arg13) = m ((c.tc : Thread nD τ).loc main_arg13) :=
  (by host_keep ops : StableHlo.after (ops (F := F)) (launchContents m c) (Proc.devRef .tc main_arg13) = launchContents m c (Proc.devRef .tc main_arg13)).trans rfl
theorem arg14_end (c : Dev nD) : StableHlo.after (ops (F := F)) (launchContents m c) (Proc.devRef .tc main_arg14) = m ((c.tc : Thread nD τ).loc main_arg14) :=
  (by host_keep ops : StableHlo.after (ops (F := F)) (launchContents m c) (Proc.devRef .tc main_arg14) = launchContents m c (Proc.devRef .tc main_arg14)).trans rfl
theorem arg15_end (c : Dev nD) : StableHlo.after (ops (F := F)) (launchContents m c) (Proc.devRef .tc main_arg15) = m ((c.tc : Thread nD τ).loc main_arg15) :=
  (by host_keep ops : StableHlo.after (ops (F := F)) (launchContents m c) (Proc.devRef .tc main_arg15) = launchContents m c (Proc.devRef .tc main_arg15)).trans rfl

/-! ## The run -/

/-- On every device, from any memory with zero counters: every weakly fair execution of @main terminates with the result
    buffer at the network of the arguments and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v113) = Cert.GCN.gcn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v113).trans (result m c),
      (h c main_arg0).trans (arg0_end m c),
      (h c main_arg1).trans (arg1_end m c),
      (h c main_arg2).trans (arg2_end m c),
      (h c main_arg3).trans (arg3_end m c),
      (h c main_arg4).trans (arg4_end m c),
      (h c main_arg5).trans (arg5_end m c),
      (h c main_arg6).trans (arg6_end m c),
      (h c main_arg7).trans (arg7_end m c),
      (h c main_arg8).trans (arg8_end m c),
      (h c main_arg9).trans (arg9_end m c),
      (h c main_arg10).trans (arg10_end m c),
      (h c main_arg11).trans (arg11_end m c),
      (h c main_arg12).trans (arg12_end m c),
      (h c main_arg13).trans (arg13_end m c),
      (h c main_arg14).trans (arg14_end m c),
      (h c main_arg15).trans (arg15_end m c)⟩)
    (run_seq scopedRefs_eq scopedSems_eq defs main (fun _ => ops) main_eq (fun _ => ops_sub) m ρ)

end Cert.ReferenceIdeal.RefValue

end
-- ==== Proof.lean ====
/-
  The certificate of a three-layer graph convolution: a Pallas program against its plain jnp reference.

  Both programs normalise the adjacency (one self-loop per node, edge weight `dinv (src) * dinv (dst)` with
  `dinv = deg > 0 ? rsqrt deg : 0`) and apply three layers `h ↦ aggregate (h @ W)`, where `aggregate` gathers the source
  rows, scales them by the edge weights and scatter-adds them into the target rows; the first two layers end in bias,
  batch normalisation with running statistics and ReLU, the last in bias and log-softmax. The kernel program runs the
  three products and the three per-row epilogues as grid kernels over blocks of 5000 rows and leaves the irregular
  gather / scatter-add to the host, operation for operation as the reference does.

  At the exact instance (floats are extended reals, operations exact, rounding to bf16 the identity):
  * each product kernel writes, block by block, the array whose entry `(r, q)` is `sum over k of X (r, k) * W (k, q)` —
    the host's product; each epilogue kernel writes, entry by entry, the host's chain of per-channel operations, reading
    a `[1, C]` row where the host repeats a `[C]` vector; the log-softmax kernel's row maximum and row sum are the
    host's (whose extra join with `-inf` changes nothing);
  * the host stretches between the kernels are the reference's own operations.
  So folding the segments of the kernel program from the launch memory, and folding the reference's operations, give the
  result buffers ONE function of the sixteen arguments, `Cert.GCN.gcn`. No law of arithmetic beyond the reordering of a
  finite sum is used, so the finiteness of the inputs is never opened.
  The frames of the two kernel programs are the generated ones; the reference's frame is its run with the result dropped;
  the ideal pass rewrote nothing, so `preserves` is trivial.
-/
import proofs.«113381_j65231963292076_1_alg».proof.Defs
import proofs.«113381_j65231963292076_1_alg».proof.Proof.Gen.Kernel
import proofs.«113381_j65231963292076_1_alg».proof.Proof.Gen.Kernel.Skeleton
import proofs.«113381_j65231963292076_1_alg».proof.Proof.Gen.Kernel.Launch
import proofs.«113381_j65231963292076_1_alg».proof.Proof.Gen.Kernel.Points
import proofs.«113381_j65231963292076_1_alg».proof.Proof.Gen.Kernel.Frame
import proofs.«113381_j65231963292076_1_alg».proof.Proof.Gen.KernelIdeal
import proofs.«113381_j65231963292076_1_alg».proof.Proof.Gen.KernelIdeal.Skeleton
import proofs.«113381_j65231963292076_1_alg».proof.Proof.Gen.KernelIdeal.Launch
import proofs.«113381_j65231963292076_1_alg».proof.Proof.Gen.KernelIdeal.Points
import proofs.«113381_j65231963292076_1_alg».proof.Proof.Gen.KernelIdeal.Frame
import proofs.«113381_j65231963292076_1_alg».proof.Proof.Gen.ReferenceIdeal
import proofs.«113381_j65231963292076_1_alg».proof.Proof.Gen.Pre_finite_inputs
import proofs.«113381_j65231963292076_1_alg».proof.Proof.RunVal
import proofs.«113381_j65231963292076_1_alg».proof.Proof.Chain
import proofs.«113381_j65231963292076_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The ideal pass rewrote no operation. -/
theorem preserves : Cert.preserves_Kernel_KernelIdeal := trivial

/-- From memories agreeing on the arguments both programs end with the result buffer at the network of the arguments. -/
theorem algebraic : Cert.algebraic_KernelIdeal_ReferenceIdeal := by
  intro m ρ m' ρ' _ hagree
  refine ⟨fun c => Cert.GCN.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono (fun _ h c => ⟨(h c).1.trans (Cert.KernelIdeal.Chain.result m ρ c), (h c).2⟩)
      (Cert.KernelIdeal.RunVal.run (F := Ideal) m ρ)
  · refine (θ_run Cert.ReferenceIdeal.defs _ _).mono (fun _ h c => ⟨(h c).1.trans ?_, (h c).2⟩)
      (Cert.ReferenceIdeal.RefValue.run (F := Ideal) m' ρ')
    obtain ⟨e0, e1, e2, e3, e4, e5, e6, e7, e8, e9, e10, e11, e12, e13, e14, e15⟩ := hagree c
    rw [e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
